-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_cst_6)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_cst_6) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_cst_17) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S128x512 : Shape := ⟨2, ![128, 512]⟩
abbrev S1024x512 : Shape := ⟨2, ![1024, 512]⟩
abbrev S1024x4x128 : Shape := ⟨3, ![1024, 4, 128]⟩
abbrev S1024 : Shape := ⟨1, ![1024]⟩

abbrev nBuf : Space → Nat
  | .hbm => 36
  | .vmem => 30
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v93 : BitVec 1 := Scalar.cmpi .eq arg1 c15_i32
  let v94 : BitVec 32 := Scalar.extui v93
  let c0_i32_50 : BitVec 32 := 0#32
  let v95 : BitVec 1 := Scalar.cmpi .ne v94 c0_i32_50
  v95

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  shapeCasts_S8192_S8192x1 : S8192.ShapeCasts S8192x1
  shapeCasts_S8192_S1x8192 : S8192.ShapeCasts S1x8192
  reducesTo_S8192x128_S8192_d1 : S8192x128.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  shapeCasts_S1024x512_S1024x4x128 : S1024x512.ShapeCasts S1024x4x128
  reduces_S1024x4x128_S1024x128 : S1024x4x128.Reduces [1] S1024x128
  natLt_1_32 : 1 < 32
  reduces_S1024x128_S1024 : S1024x128.Reduces [1] S1024
  shapeCasts_S1024_S1024x1 : S1024.ShapeCasts S1024x1
  shapeCasts_S8192x1_S8192 : S8192x1.ShapeCasts S8192
  reducesTo_S8192_S_d0 : S8192.ReducesTo [0] S_
  reducesTo_S8192x1_S_d0_1 : S8192x1.ReducesTo [0, 1] S_
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S8192x1.size a
  hwx0_9 : ∀ i : grid0.Coords, EltTy.bits .f32 = 32 ∨ (Rect.block (s := S8192x1) S1024x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S8192x1.size a
  hwx0_10 : ∀ i : grid0.Coords, EltTy.bits .f32 = 32 ∨ (Rect.block (s := S8192x1) S1024x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S8192x1.size a
  hwx0_11 : ∀ i : grid0.Coords, EltTy.bits .f32 = 32 ∨ (Rect.block (s := S8192x1) S1024x1.size (cc0_transform_11 i) (hinb0_11 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_3) S1024x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_4) S1024x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_5) S1024x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S_, .f32⟩
  | .hbm, ⟨71, _⟩ => ⟨S8192x8192, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S_, .f32⟩
  | .hbm, ⟨81, _⟩ => ⟨S_, .f32⟩
  | .hbm, ⟨82, _⟩ => ⟨S8192x8192, .i32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S_, .f32⟩
  | .hbm, ⟨87, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_cst_11 : Ref sig .tc := ⟨.hbm, 65, rfl⟩
abbrev main_call3_v0 : Ref sig .tc := ⟨.hbm, 66, rfl⟩
abbrev main_call3_v1 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_call4_v0 : Ref sig .tc := ⟨.hbm, 77, rfl⟩
abbrev main_call4_v1 : Ref sig .tc := ⟨.hbm, 78, rfl⟩
abbrev main_v50 : Ref sig .tc := ⟨.hbm, 79, rfl⟩
abbrev main_cst_15 : Ref sig .tc := ⟨.hbm, 80, rfl⟩
abbrev main_v51 : Ref sig .tc := ⟨.hbm, 81, rfl⟩
abbrev main_v52 : Ref sig .tc := ⟨.hbm, 82, rfl⟩
abbrev main_c_16 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_17 : Ref sig .tc := ⟨.hbm, 87, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S8192x8192_S_d0_1 : S8192x8192.ReducesTo [0, 1] S_
  natLt_1_32 : 1 < 32
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.FrameKit.lean ====
/-
  What the frame of the kernel program rests on, for any float instance: the contents of the core's buffers when the
  region is entered (after the seven host operations before it), each input window's block at a grid point and the
  fact that its staging buffer holds that block at every point, the two conditions the body branches on in closed
  form over the grid's 128 points (the column tile is the first, `t % 16 = 0`; it is the last, `t % 16 = 15`),
  where the six output windows are idle, and the memrefs the body is called with.
-/
import proofs.«145610_j47124381171853_2_alg».proof.Proof.Gen.KernelIdeal.Launch
import proofs.«145610_j47124381171853_2_alg».proof.Proof.Gen.KernelIdeal.Skeleton
import proofs.«145610_j47124381171853_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the seven host operations before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The column tile is the first of its row tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The column tile is the last of its row tile. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Output window 6 is stored only at the last column tile: idle and not written back elsewhere. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Output window 7 is stored only at the last column tile: idle and not written back elsewhere. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Output window 8 is stored only at the last column tile: idle and not written back elsewhere. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Output window 9 is stored only at the last column tile: idle and not written back elsewhere. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Output window 10 is stored only at the last column tile: idle and not written back elsewhere. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
/-- Output window 11 is stored only at the last column tile: idle and not written back elsewhere. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev VO0_6 : View sig .tc .vmem S1024x1 .f32 := (Memref.whole cc0_stg6_0 : Memref sig .tc .vmem S1024x1 .f32).view
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev VO0_7 : View sig .tc .vmem S1024x1 .f32 := (Memref.whole cc0_stg7_0 : Memref sig .tc .vmem S1024x1 .f32).view
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
abbrev VO0_8 : View sig .tc .vmem S1024x1 .f32 := (Memref.whole cc0_stg8_0 : Memref sig .tc .vmem S1024x1 .f32).view
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)
abbrev VO0_9 : View sig .tc .vmem S1024x1 .f32 := (Memref.whole cc0_stg9_0 : Memref sig .tc .vmem S1024x1 .f32).view
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
abbrev VO0_10 : View sig .tc .vmem S1024x1 .f32 := (Memref.whole cc0_stg10_0 : Memref sig .tc .vmem S1024x1 .f32).view
abbrev ms0_10 (t : Fin cfg0.N) : Memref sig .tc .vmem S1024x1 .f32 := win0_10.stage (cfg0.slots t 10)
abbrev hs0_10 (t : Fin cfg0.N) : (ms0_10 t).IsWhole := hstage0_10 ((cfg0.slots t 10).cast nbuf0_10)
abbrev VO0_11 : View sig .tc .vmem S1024x1 .f32 := (Memref.whole cc0_stg11_0 : Memref sig .tc .vmem S1024x1 .f32).view
abbrev ms0_11 (t : Fin cfg0.N) : Memref sig .tc .vmem S1024x1 .f32 := win0_11.stage (cfg0.slots t 11)
abbrev hs0_11 (t : Fin cfg0.N) : (ms0_11 t).IsWhole := hstage0_11 ((cfg0.slots t 11).cast nbuf0_11)
/-- Accumulator 0, a whole scoped buffer of the kernel's own, as a memref and as a view. -/
abbrev scM0_0 : Memref sig .tc .vmem S1024x128 .f32 := Memref.whole cc0_scratch0
abbrev VS0_0 : View sig .tc .vmem S1024x128 .f32 := scM0_0.view
/-- Accumulator 1, a whole scoped buffer of the kernel's own, as a memref and as a view. -/
abbrev scM0_1 : Memref sig .tc .vmem S1024x128 .f32 := Memref.whole cc0_scratch1
abbrev VS0_1 : View sig .tc .vmem S1024x128 .f32 := scM0_1.view
/-- Accumulator 2, a whole scoped buffer of the kernel's own, as a memref and as a view. -/
abbrev scM0_2 : Memref sig .tc .vmem S1024x128 .f32 := Memref.whole cc0_scratch2
abbrev VS0_2 : View sig .tc .vmem S1024x128 .f32 := scM0_2.view
/-- Accumulator 3, a whole scoped buffer of the kernel's own, as a memref and as a view. -/
abbrev scM0_3 : Memref sig .tc .vmem S1024x128 .f32 := Memref.whole cc0_scratch3
abbrev VS0_3 : View sig .tc .vmem S1024x128 .f32 := scM0_3.view
/-- Accumulator 4, a whole scoped buffer of the kernel's own, as a memref and as a view. -/
abbrev scM0_4 : Memref sig .tc .vmem S1024x128 .f32 := Memref.whole cc0_scratch4
abbrev VS0_4 : View sig .tc .vmem S1024x128 .f32 := scM0_4.view
/-- Accumulator 5, a whole scoped buffer of the kernel's own, as a memref and as a view. -/
abbrev scM0_5 : Memref sig .tc .vmem S1024x128 .f32 := Memref.whole cc0_scratch5
abbrev VS0_5 : View sig .tc .vmem S1024x128 .f32 := scM0_5.view

/-- What the region holds besides the windows before its first point and gives back after its last: the six
    accumulators at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.RunA.lean ====
/-
  The kernel body's triple in case A of the two conditions it branches on (the column tile is the first and not the last: the accumulators are zeroed, then accumulated into; no output is stored).
  The body is a sequence of whole-buffer loads and stores over eighteen staging buffers: six input windows, six
  output windows (one column of 1024 rows each) and six carried accumulators (1024 rows by 128 lanes each). Stated
  as a subtype: the witness is, for each buffer the body stores into, the list of pieces its stores leave (last
  first); the property is that from whole buffers at the stated contents the body runs to any continuation that
  accepts the inputs unchanged, the untouched outputs unchanged, and every stored buffer with exactly those pieces
  written over whatever it held.
-/
import proofs.«145610_j47124381171853_2_alg».proof.Proof.FrameKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in case A (first column tile: the six accumulators are zeroed, then accumulated into; the six outputs stay idle): on whole staging memrefs the body runs to the continuation, holding the
    inputs' buffers as they were and every stored buffer with the pieces its stores leave (last first). The pieces
    are the witness the run itself finds. -/
noncomputable def kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    Σ' (LS0 : List (View.Piece (Elt F) S1024x128 .f32)) (LS1 : List (View.Piece (Elt F) S1024x128 .f32)) (LS2 : List (View.Piece (Elt F) S1024x128 .f32)) (LS3 : List (View.Piece (Elt F) S1024x128 .f32)) (LS4 : List (View.Piece (Elt F) S1024x128 .f32)), { LS5 : List (View.Piece (Elt F) S1024x128 .f32) //
      ∀ (xi6 xi7 xi8 xi9 xi10 xi11 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (cc0__row_reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun xi6 xi7 xi8 xi9 xi10 xi11 E K => ?run⟩
  case run =>
    simp only [cc0__row_reduce_kernel_eq_skeleton]; unfold cc0__row_reduce_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Hand

end
-- ==== Proof.RunB.lean ====
/-
  The kernel body's triple in case B of the two conditions it branches on (the column tile is neither the first nor the last: the accumulators are accumulated into; no output is stored).
  The body is a sequence of whole-buffer loads and stores over eighteen staging buffers: six input windows, six
  output windows (one column of 1024 rows each) and six carried accumulators (1024 rows by 128 lanes each). Stated
  as a subtype: the witness is, for each buffer the body stores into, the list of pieces its stores leave (last
  first); the property is that from whole buffers at the stated contents the body runs to any continuation that
  accepts the inputs unchanged, the untouched outputs unchanged, and every stored buffer with exactly those pieces
  written over whatever it held.
-/
import proofs.«145610_j47124381171853_2_alg».proof.Proof.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in case B (a column tile that is neither first nor last: the six accumulators are accumulated into; the six outputs stay idle): on whole staging memrefs the body runs to the continuation, holding the
    inputs' buffers as they were and every stored buffer with the pieces its stores leave (last first). The pieces
    are the witness the run itself finds. -/
noncomputable def kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    Σ' (LS0 : List (View.Piece (Elt F) S1024x128 .f32)) (LS1 : List (View.Piece (Elt F) S1024x128 .f32)) (LS2 : List (View.Piece (Elt F) S1024x128 .f32)) (LS3 : List (View.Piece (Elt F) S1024x128 .f32)) (LS4 : List (View.Piece (Elt F) S1024x128 .f32)), { LS5 : List (View.Piece (Elt F) S1024x128 .f32) //
      ∀ (xi6 xi7 xi8 xi9 xi10 xi11 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (cc0__row_reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun xi6 xi7 xi8 xi9 xi10 xi11 E K => ?run⟩
  case run =>
    simp only [cc0__row_reduce_kernel_eq_skeleton]; unfold cc0__row_reduce_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Hand

end
-- ==== Proof.RunC.lean ====
/-
  The kernel body's triple in case C of the two conditions it branches on (the column tile is the last and not the first: the accumulators are accumulated into, then each output column is stored from their lane sums).
  The body is a sequence of whole-buffer loads and stores over eighteen staging buffers: six input windows, six
  output windows (one column of 1024 rows each) and six carried accumulators (1024 rows by 128 lanes each). Stated
  as a subtype: the witness is, for each buffer the body stores into, the list of pieces its stores leave (last
  first); the property is that from whole buffers at the stated contents the body runs to any continuation that
  accepts the inputs unchanged, the untouched outputs unchanged, and every stored buffer with exactly those pieces
  written over whatever it held.
-/
import proofs.«145610_j47124381171853_2_alg».proof.Proof.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in case C (last column tile: the six accumulators are accumulated into, then reduced along the lanes into the six output columns): on whole staging memrefs the body runs to the continuation, holding the
    inputs' buffers as they were and every stored buffer with the pieces its stores leave (last first). The pieces
    are the witness the run itself finds. -/
noncomputable def kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    Σ' (L6 : List (View.Piece (Elt F) S1024x1 .f32)) (L7 : List (View.Piece (Elt F) S1024x1 .f32)) (L8 : List (View.Piece (Elt F) S1024x1 .f32)) (L9 : List (View.Piece (Elt F) S1024x1 .f32)) (L10 : List (View.Piece (Elt F) S1024x1 .f32)) (L11 : List (View.Piece (Elt F) S1024x1 .f32)) (LS0 : List (View.Piece (Elt F) S1024x128 .f32)) (LS1 : List (View.Piece (Elt F) S1024x128 .f32)) (LS2 : List (View.Piece (Elt F) S1024x128 .f32)) (LS3 : List (View.Piece (Elt F) S1024x128 .f32)) (LS4 : List (View.Piece (Elt F) S1024x128 .f32)), { LS5 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (cc0__row_reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, ?_, ?_, fun E K => ?run⟩
  case run =>
    simp only [cc0__row_reduce_kernel_eq_skeleton]; unfold cc0__row_reduce_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Hand

end
-- ==== Proof.Model.lean ====
/-
  The kernel's arithmetic as pure functions, built from the named payloads of the kernel function's skeleton.

  At a grid point the body reads six input blocks — 1024 rows `xi` and 512 rows `xj` of the feature array, their
  squared norms `sqi` (a column) and `sqj` (a row), their labels `ti` and `tj` — and six accumulators of shape
  1024 × 128 (one lane-aligned partial sum per row and lane): the diagonal-free weights, those of same-class pairs,
  the distances, those of same-class pairs, the same-class indicator, and the diagonal's distances. `step` is what
  one point adds to them; at the first point of a row tile they start from zero (`zeroAcc`); at the last point of a
  row tile the six output columns are lane sums and differences of the accumulators (`outs`).
  `accAt` runs the recursion along the grid's 128 points in order (8 row tiles × 16 column tiles, the column tile
  moving fastest), the blocks read off whole arrays by `blocksAt`.
-/
import proofs.«145610_j47124381171853_2_alg».proof.Proof.Gen.KernelIdeal.Skeleton
import Idealize.ShloMosaic.Lib.ValueIdx

noncomputable section

namespace Cert.KernelIdeal.Model

open Idealize.ShloMosaic Idealize.ShloMosaic.ValueIdx Cert.KernelIdeal Cert.KernelIdeal.Gen

variable {F : FTy → Type} [FloatOps F]

/-- The six input blocks of one grid point. -/
structure Blocks (F : FTy → Type) where
  xi : Vec F S1024x128 .f32
  xj : Vec F S512x128 .f32
  sqi : Vec F S1024x1 .f32
  sqj : Vec F S1x512 .f32
  ti : Vec F S1024x1 .i32
  tj : Vec F S1x512 .i32

/-- The six accumulators carried from point to point within a row tile. -/
structure Acc (F : FTy → Type) where
  totalE : Vec F S1024x128 .f32
  sameE : Vec F S1024x128 .f32
  totalD : Vec F S1024x128 .f32
  sameD : Vec F S1024x128 .f32
  sameC : Vec F S1024x128 .f32
  diagD : Vec F S1024x128 .f32

/-- The six output columns a row tile ends with. -/
structure Outs (F : FTy → Type) where
  posLogit : Vec F S1024x1 .f32
  negLogit : Vec F S1024x1 .f32
  posDsum : Vec F S1024x1 .f32
  negDsum : Vec F S1024x1 .f32
  posCnt : Vec F S1024x1 .f32
  negCnt : Vec F S1024x1 .f32

/-- The accumulators at the start of a row tile: zeros. -/
def zeroAcc : Acc F := ⟨k0_pay13, k0_pay14, k0_pay15, k0_pay16, k0_pay17, k0_pay18⟩

/-- What one grid point adds to the accumulators. -/
def step (i : grid0.Coords) (b : Blocks F) (a : Acc F) : Acc F :=
  { totalE := k0_pay26 (BitVec.ofNat 32 (i 1).val) (k0_pay21 b.xi b.xj b.sqi b.sqj) (k0_pay22 i) 512#32 a.totalE
    sameE := k0_pay27 (BitVec.ofNat 32 (i 1).val) (k0_pay20 b.ti b.tj) (k0_pay21 b.xi b.xj b.sqi b.sqj) (k0_pay22 i) 512#32 a.sameE
    totalD := k0_pay28 (k0_pay19 b.xi b.xj b.sqi b.sqj) a.totalD
    sameD := k0_pay1 a.sameD (k0_pay29 (k0_pay19 b.xi b.xj b.sqi b.sqj) (k0_pay20 b.ti b.tj))
    sameC := k0_pay2 (k0_pay20 b.ti b.tj) a.sameC
    diagD := k0_pay3 (k0_pay25 (BitVec.ofNat 32 (i 1).val) (k0_pay19 b.xi b.xj b.sqi b.sqj) (k0_pay22 i) 512#32) a.diagD }

/-- The output columns from the accumulators a row tile ends with. -/
def outs (a : Acc F) : Outs F :=
  { posLogit := k0_pay7 a.sameE
    negLogit := k0_pay9 a.totalE a.sameE
    posDsum := k0_pay10 a.sameD a.diagD
    negDsum := k0_pay11 a.totalD a.sameD
    posCnt := k0_pay4 (k0_pay6 a.sameC) k0_pay12
    negCnt := k0_pay5 (k0_pay6 a.sameC) }

/-- Row `p` of the row tile of point `n`, as a row of the whole array. -/
def rowOf (n : ℕ) (hn : n < 128) (p : Fin 1024) : Fin 8192 := ⟨1024 * (n / 16) + p.val, by omega⟩
/-- Column `q` of the column tile of point `n`, as a row of the whole array. -/
def colOf (n : ℕ) (hn : n < 128) (q : Fin 512) : Fin 8192 := ⟨512 * (n % 16) + q.val, by omega⟩

/-- The blocks of point `n`, read off the feature array `x`, its squared norms as a column `sqr` and as a row `sqc`,
    and the labels as a column `tr` and as a row `tc`. -/
def blocksAt (x : Vec F S8192x128 .f32) (sqr : Vec F S8192x1 .f32) (sqc : Vec F S1x8192 .f32)
    (tr : Vec F S8192x1 .i32) (tc : Vec F S1x8192 .i32) (n : ℕ) (hn : n < 128) : Blocks F :=
  { xi := fun y => x (ix2 (rowOf n hn (y 0)) (y 1))
    xj := fun y => x (ix2 (colOf n hn (y 0)) (y 1))
    sqi := fun y => sqr (ix2 (rowOf n hn (y 0)) (y 1))
    sqj := fun y => sqc (ix2 (y 0) (colOf n hn (y 1)))
    ti := fun y => tr (ix2 (rowOf n hn (y 0)) (y 1))
    tj := fun y => tc (ix2 (y 0) (colOf n hn (y 1))) }

/-- The accumulators after point `n`: a point at the start of a row tile steps from zero, any other from what the
    point before left. -/
def accAt (x : Vec F S8192x128 .f32) (sqr : Vec F S8192x1 .f32) (sqc : Vec F S1x8192 .f32)
    (tr : Vec F S8192x1 .i32) (tc : Vec F S1x8192 .i32) : (n : ℕ) → (hn : n < 128) → Acc F
  | 0, hn => step (grid0.coords ⟨0, hn⟩) (blocksAt x sqr sqc tr tc 0 hn) zeroAcc
  | n + 1, hn =>
    if (n + 1) % 16 = 0 then step (grid0.coords ⟨n + 1, hn⟩) (blocksAt x sqr sqc tr tc (n + 1) hn) zeroAcc
    else step (grid0.coords ⟨n + 1, hn⟩) (blocksAt x sqr sqc tr tc (n + 1) hn) (accAt x sqr sqc tr tc n (Nat.lt_of_succ_lt hn))

end Cert.KernelIdeal.Model

end
-- ==== Proof.FrameDefs.lean ====
/-
  What each case of the kernel body leaves behind, read back from the pieces its run found: the six accumulators
  (in every case) and the six output columns (at the last column tile), with the facts that the pieces cover their
  buffers.
-/
import proofs.«145610_j47124381171853_2_alg».proof.Proof.RunC
import proofs.«145610_j47124381171853_2_alg».proof.Proof.Model

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Model (Acc Outs)

/-- Case A's pieces for accumulator 0 cover it. -/
theorem scover0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1 S1024x128.size (by sl_kernel_rfl) y
/-- What case A leaves in accumulator 0: its pieces read back. -/
def sout0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1)

/-- Case A's pieces for accumulator 1 cover it. -/
theorem scover0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1 S1024x128.size (by sl_kernel_rfl) y
/-- What case A leaves in accumulator 1: its pieces read back. -/
def sout0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1)

/-- Case A's pieces for accumulator 2 cover it. -/
theorem scover0_A_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1 S1024x128.size (by sl_kernel_rfl) y
/-- What case A leaves in accumulator 2: its pieces read back. -/
def sout0_A_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1)

/-- Case A's pieces for accumulator 3 cover it. -/
theorem scover0_A_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.1 S1024x128.size (by sl_kernel_rfl) y
/-- What case A leaves in accumulator 3: its pieces read back. -/
def sout0_A_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.1)

/-- Case A's pieces for accumulator 4 cover it. -/
theorem scover0_A_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1 S1024x128.size (by sl_kernel_rfl) y
/-- What case A leaves in accumulator 4: its pieces read back. -/
def sout0_A_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1)

/-- Case A's pieces for accumulator 5 cover it. -/
theorem scover0_A_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1 S1024x128.size (by sl_kernel_rfl) y
/-- What case A leaves in accumulator 5: its pieces read back. -/
def sout0_A_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1)

/-- Case A's six accumulators together. -/
def sAll0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Acc F :=
  ⟨sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5⟩

/-- Case B's pieces for accumulator 0 cover it. -/
theorem scover0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1 S1024x128.size (by sl_kernel_rfl) y
/-- What case B leaves in accumulator 0: its pieces read back. -/
def sout0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1)

/-- Case B's pieces for accumulator 1 cover it. -/
theorem scover0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1 S1024x128.size (by sl_kernel_rfl) y
/-- What case B leaves in accumulator 1: its pieces read back. -/
def sout0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1)

/-- Case B's pieces for accumulator 2 cover it. -/
theorem scover0_B_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1 S1024x128.size (by sl_kernel_rfl) y
/-- What case B leaves in accumulator 2: its pieces read back. -/
def sout0_B_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1)

/-- Case B's pieces for accumulator 3 cover it. -/
theorem scover0_B_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1 S1024x128.size (by sl_kernel_rfl) y
/-- What case B leaves in accumulator 3: its pieces read back. -/
def sout0_B_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1)

/-- Case B's pieces for accumulator 4 cover it. -/
theorem scover0_B_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1 S1024x128.size (by sl_kernel_rfl) y
/-- What case B leaves in accumulator 4: its pieces read back. -/
def sout0_B_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1)

/-- Case B's pieces for accumulator 5 cover it. -/
theorem scover0_B_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1 S1024x128.size (by sl_kernel_rfl) y
/-- What case B leaves in accumulator 5: its pieces read back. -/
def sout0_B_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1)

/-- Case B's six accumulators together. -/
def sAll0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Acc F :=
  ⟨sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5⟩

/-- Case C's pieces for accumulator 0 cover it. -/
theorem scover0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.1 S1024x128.size (by sl_kernel_rfl) y
/-- What case C leaves in accumulator 0: its pieces read back. -/
def sout0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.1)

/-- Case C's pieces for accumulator 1 cover it. -/
theorem scover0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.1 S1024x128.size (by sl_kernel_rfl) y
/-- What case C leaves in accumulator 1: its pieces read back. -/
def sout0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.1)

/-- Case C's pieces for accumulator 2 cover it. -/
theorem scover0_C_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.1 S1024x128.size (by sl_kernel_rfl) y
/-- What case C leaves in accumulator 2: its pieces read back. -/
def sout0_C_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.1)

/-- Case C's pieces for accumulator 3 cover it. -/
theorem scover0_C_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.1 S1024x128.size (by sl_kernel_rfl) y
/-- What case C leaves in accumulator 3: its pieces read back. -/
def sout0_C_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.1)

/-- Case C's pieces for accumulator 4 cover it. -/
theorem scover0_C_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.1 S1024x128.size (by sl_kernel_rfl) y
/-- What case C leaves in accumulator 4: its pieces read back. -/
def sout0_C_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.1)

/-- Case C's pieces for accumulator 5 cover it. -/
theorem scover0_C_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.2.1 S1024x128.size (by sl_kernel_rfl) y
/-- What case C leaves in accumulator 5: its pieces read back. -/
def sout0_C_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.2.1)

/-- Case C's pieces for output window 6 cover its block. -/
theorem cover0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1 S1024x1.size (by sl_kernel_rfl) y
/-- What case C leaves in output window 6's staging buffer. -/
def out0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1)

/-- Case C's pieces for output window 7 cover its block. -/
theorem cover0_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1 S1024x1.size (by sl_kernel_rfl) y
/-- What case C leaves in output window 7's staging buffer. -/
def out0_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1)

/-- Case C's pieces for output window 8 cover its block. -/
theorem cover0_C_8 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1 S1024x1.size (by sl_kernel_rfl) y
/-- What case C leaves in output window 8's staging buffer. -/
def out0_C_8 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1)

/-- Case C's pieces for output window 9 cover its block. -/
theorem cover0_C_9 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1 S1024x1.size (by sl_kernel_rfl) y
/-- What case C leaves in output window 9's staging buffer. -/
def out0_C_9 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1)

/-- Case C's pieces for output window 10 cover its block. -/
theorem cover0_C_10 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1 S1024x1.size (by sl_kernel_rfl) y
/-- What case C leaves in output window 10's staging buffer. -/
def out0_C_10 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1)

/-- Case C's pieces for output window 11 cover its block. -/
theorem cover0_C_11 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1 S1024x1.size (by sl_kernel_rfl) y
/-- What case C leaves in output window 11's staging buffer. -/
def out0_C_11 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1)

/-- Case C's six accumulators together. -/
def sAll0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Acc F :=
  ⟨sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5⟩

/-- Case C's six output columns together. -/
def oAll0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Outs F :=
  ⟨out0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5⟩

end Cert.KernelIdeal.Hand

end
-- ==== Proof.HandShares.lean ====
/-
  Two input windows of the kernel read ONE array, the feature array (by row tile and by column tile): its full share
  is dealt in halves to the two windows, every other array is its window's whole. This module lists the buffers behind
  the windows' arrays and writes both the launch's account of them and the pipeline's as explicit chains.
-/
import proofs.«145610_j47124381171853_2_alg».proof.Proof.FrameKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (dats : (p : Fin 1) → (c : Dev nD) → Dat τ (Elt F) Unit ℕ (UR sig nD τ) ℕ (cfgs p) c)

/-- The share of its array each input window holds: the two windows on the feature array a half each. -/
def qs : Fin 12 → PosShare TreeShare := fun w => if w = 0 then fullShare.left else if w = 1 then fullShare.right else fullShare

theorem share0 (c : Dev nD) (hq : (dats 0 c).q = qs) : (dats 0 c).share 0 = fullShare.left := by unfold Dat.share; rw [hq]; rfl
theorem share1 (c : Dev nD) (hq : (dats 0 c).q = qs) : (dats 0 c).share 1 = fullShare.right := by unfold Dat.share; rw [hq]; rfl
theorem share2 (c : Dev nD) (hq : (dats 0 c).q = qs) : (dats 0 c).share 2 = fullShare := by unfold Dat.share; rw [hq]; rfl
theorem share3 (c : Dev nD) (hq : (dats 0 c).q = qs) : (dats 0 c).share 3 = fullShare := by unfold Dat.share; rw [hq]; rfl
theorem share4 (c : Dev nD) (hq : (dats 0 c).q = qs) : (dats 0 c).share 4 = fullShare := by unfold Dat.share; rw [hq]; rfl
theorem share5 (c : Dev nD) (hq : (dats 0 c).q = qs) : (dats 0 c).share 5 = fullShare := by unfold Dat.share; rw [hq]; rfl
theorem share6 (c : Dev nD) : (dats 0 c).share 6 = fullShare := by unfold Dat.share; rfl
theorem share7 (c : Dev nD) : (dats 0 c).share 7 = fullShare := by unfold Dat.share; rfl
theorem share8 (c : Dev nD) : (dats 0 c).share 8 = fullShare := by unfold Dat.share; rfl
theorem share9 (c : Dev nD) : (dats 0 c).share 9 = fullShare := by unfold Dat.share; rfl
theorem share10 (c : Dev nD) : (dats 0 c).share 10 = fullShare := by unfold Dat.share; rfl
theorem share11 (c : Dev nD) : (dats 0 c).share 11 = fullShare := by unfold Dat.share; rfl

/-- The distinct buffers behind the windows' arrays, listed. -/
theorem arrRefs_eq : Finset.univ.image (Pipeline.arrRef spec0) = [main_arg0, main_v4, main_v5, main_v0, main_v1, main_v6_0, main_v6_1, main_v6_2, main_v6_3, main_v6_4, main_v6_5].toFinset := by decide

/-- The windows' arrays, each a whole buffer, as points-tos of the buffers behind them. -/
theorem arrays_pts (c : Dev nD) (G : (w : Fin cfg0.W) → Buf (Elt F) ((cfg0.win w).arr.view.loc (c.tc : Thread nD τ))) :
    ((dats 0 c).arrays G : sProp 𝕄) = bigSep Finset.univ fun w : Fin 12 => (((c.tc : Thread nD τ).loc (Pipeline.arrRef spec0 w)) ↦{(dats 0 c).share w} G w : sProp 𝕄) := by
  unfold Dat.arrays
  exact bigSep_congr fun w _ => by rw [(arr_whole0 w).set_eq_univ]

/-- A buffer of the core at a share and contents. -/
abbrev pt (c : Dev nD) (b : Ref sig .tc) (q : PosShare TreeShare) (f : Buf (Elt F) ((c.tc : Thread nD τ).loc b)) : sProp 𝕄 :=
  ((c.tc : Thread nD τ).loc b) ↦{q} f

/-- The buffers behind the arrays, one by one. -/
theorem arrBufs_chain (c : Dev nD) (W : (b : Ref sig .tc) → Buf (Elt F) ((c.tc : Thread nD τ).loc b)) :
    (Pipeline.arrBufs spec0 c W : sProp 𝕄)
      = iprop(pt c main_arg0 fullShare (W main_arg0) ∗ pt c main_v4 fullShare (W main_v4) ∗ pt c main_v5 fullShare (W main_v5) ∗ pt c main_v0 fullShare (W main_v0) ∗ pt c main_v1 fullShare (W main_v1)
        ∗ pt c main_v6_0 fullShare (W main_v6_0) ∗ pt c main_v6_1 fullShare (W main_v6_1) ∗ pt c main_v6_2 fullShare (W main_v6_2) ∗ pt c main_v6_3 fullShare (W main_v6_3) ∗ pt c main_v6_4 fullShare (W main_v6_4) ∗ pt c main_v6_5 fullShare (W main_v6_5)) := by
  unfold Pipeline.arrBufs
  rw [bigSep_eq_bigSepL_of_eq _ arrRefs_eq (by decide)]
  rfl

set_option maxHeartbeats 1000000 in
/-- The windows' arrays, one by one, each at its share: the feature array twice, at its two halves. -/
theorem arrays_chain (c : Dev nD) (hq : (dats 0 c).q = qs) (G : (w : Fin cfg0.W) → Buf (Elt F) ((cfg0.win w).arr.view.loc (c.tc : Thread nD τ))) :
    ((dats 0 c).arrays G : sProp 𝕄)
      = iprop(pt c main_arg0 fullShare.left (G 0) ∗ pt c main_arg0 fullShare.right (G 1) ∗ pt c main_v4 fullShare (G 2) ∗ pt c main_v5 fullShare (G 3) ∗ pt c main_v0 fullShare (G 4) ∗ pt c main_v1 fullShare (G 5)
        ∗ pt c main_v6_0 fullShare (G 6) ∗ pt c main_v6_1 fullShare (G 7) ∗ pt c main_v6_2 fullShare (G 8) ∗ pt c main_v6_3 fullShare (G 9) ∗ pt c main_v6_4 fullShare (G 10) ∗ pt c main_v6_5 fullShare (G 11)) := by
  rw [arrays_pts, bigSep_W0]
  rw [share0 dats c hq, share1 dats c hq, share2 dats c hq, share3 dats c hq, share4 dats c hq, share5 dats c hq,
    share6, share7, share8, share9, share10, share11]

end Cert.KernelIdeal.Hand

end
-- ==== Proof.FrameData.lean ====
/-
  The frame's data for any float instance: what the six accumulators hold after each grid point (`sAt0`, by recursion
  on the point: a point at the first column tile of a row tile starts them afresh, any other adds to what the point
  before left) and what the six output columns hold at the last column tile of a row tile (`oAt0`); the pipeline's
  proof data over them; what the body is called with at a point and what it must return.
-/
import proofs.«145610_j47124381171853_2_alg».proof.Proof.FrameDefs
import proofs.«145610_j47124381171853_2_alg».proof.Proof.HandShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Model (Acc Outs)

/-! ## What the accumulators and the outputs hold after each point -/

/-- A placeholder for an output column at a point where the window is idle: nothing consults it. -/
def idleOut : Vec F S1024x1 .f32 := VO0_6.read (Elt F) (VO0_6.writes (Elt F) VO0_6.junk [])

/-- The six accumulators after the body at point `n`. -/
def sAt0 (c : Dev nD) : (n : ℕ) → n < cfg0.N → Acc F
  | 0, hn => sAll0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 16 = 0 then
      sAll0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 16 = 15 then
        sAll0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (sAt0 c n (Nat.lt_of_succ_lt hn)).totalE (sAt0 c n (Nat.lt_of_succ_lt hn)).sameE (sAt0 c n (Nat.lt_of_succ_lt hn)).totalD (sAt0 c n (Nat.lt_of_succ_lt hn)).sameD (sAt0 c n (Nat.lt_of_succ_lt hn)).sameC (sAt0 c n (Nat.lt_of_succ_lt hn)).diagD
      else
        sAll0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (sAt0 c n (Nat.lt_of_succ_lt hn)).totalE (sAt0 c n (Nat.lt_of_succ_lt hn)).sameE (sAt0 c n (Nat.lt_of_succ_lt hn)).totalD (sAt0 c n (Nat.lt_of_succ_lt hn)).sameD (sAt0 c n (Nat.lt_of_succ_lt hn)).sameC (sAt0 c n (Nat.lt_of_succ_lt hn)).diagD

theorem sAt0_A (c : Dev nD) (t : Fin cfg0.N) (h0 : t.val % 16 = 0) (h1 : ¬t.val % 16 = 15) :
    sAt0 m c t.val t.isLt = sAll0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem sAt0_B (c : Dev nD) (t : Fin cfg0.N) (h0 : ¬t.val % 16 = 0) (h1 : ¬t.val % 16 = 15) :
    sAt0 m c t.val t.isLt = sAll0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD := by
  obtain ⟨n, hn⟩ := t
  cases n with
  | zero => exact (by exfalso; (try dsimp only at h0); exact absurd (Nat.zero_mod _) h0)
  | succ n => exact (dif_neg h0).trans ((dif_neg h1).trans rfl)

theorem sAt0_C (c : Dev nD) (t : Fin cfg0.N) (h0 : ¬t.val % 16 = 0) (h1 : t.val % 16 = 15) :
    sAt0 m c t.val t.isLt = sAll0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD := by
  obtain ⟨n, hn⟩ := t
  cases n with
  | zero => exact (by exfalso; (try dsimp only at h0); exact absurd (Nat.zero_mod _) h0)
  | succ n => exact (dif_neg h0).trans ((dif_pos h1).trans rfl)

/-- The six output columns after the body at point `t`: stored at the last column tile of a row tile, from the
    accumulators the point before left; idle elsewhere. -/
def oAt0 (c : Dev nD) (t : Fin cfg0.N) : Outs F :=
  if h1 : t.val % 16 = 15 then
    oAll0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => (fun h => by omega) ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD
  else ⟨idleOut, idleOut, idleOut, idleOut, idleOut, idleOut⟩

theorem oAt0_C (c : Dev nD) (t : Fin cfg0.N) (h0 : ¬t.val % 16 = 0) (h1 : t.val % 16 = 15) :
    oAt0 m c t = oAll0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD := by
  unfold oAt0; rw [dif_pos h1]

/-- The region invariant before position `n`: before the first point the six accumulators at anything; afterwards
    each at what the point before left in it; and the generator register. -/
def PhiS (c : Dev nD) : (n : ℕ) → n ≤ cfg0.N → sProp 𝕄
  | 0, _ => Pipeline.ΦA spec0 c
  | n + 1, hn => iprop(iprop(owns (c : Thread nD τ) scM0_0 fullShare ((sAt0 m c n hn).totalE) ∗ owns (c : Thread nD τ) scM0_1 fullShare ((sAt0 m c n hn).sameE) ∗ owns (c : Thread nD τ) scM0_2 fullShare ((sAt0 m c n hn).totalD) ∗ owns (c : Thread nD τ) scM0_3 fullShare ((sAt0 m c n hn).sameD) ∗ owns (c : Thread nD τ) scM0_4 fullShare ((sAt0 m c n hn).sameC) ∗ owns (c : Thread nD τ) scM0_5 fullShare ((sAt0 m c n hn).diagD)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((sAt0 m c n hn).totalE) ∗ owns (c : Thread nD τ) scM0_1 fullShare ((sAt0 m c n hn).sameE) ∗ owns (c : Thread nD τ) scM0_2 fullShare ((sAt0 m c n hn).totalD) ∗ owns (c : Thread nD τ) scM0_3 fullShare ((sAt0 m c n hn).sameD) ∗ owns (c : Thread nD τ) scM0_4 fullShare ((sAt0 m c n hn).sameC) ∗ owns (c : Thread nD τ) scM0_5 fullShare ((sAt0 m c n hn).diagD)) ∗ (∃ r, prngReg c r)) := rfl
theorem PhiS_pos (c : Dev nD) (n : ℕ) (h : n ≤ cfg0.N) (hz : n ≠ 0) :
    PhiS m c n h = iprop(iprop(owns (c : Thread nD τ) scM0_0 fullShare ((sAt0 m c (n - 1) (by omega)).totalE) ∗ owns (c : Thread nD τ) scM0_1 fullShare ((sAt0 m c (n - 1) (by omega)).sameE) ∗ owns (c : Thread nD τ) scM0_2 fullShare ((sAt0 m c (n - 1) (by omega)).totalD) ∗ owns (c : Thread nD τ) scM0_3 fullShare ((sAt0 m c (n - 1) (by omega)).sameD) ∗ owns (c : Thread nD τ) scM0_4 fullShare ((sAt0 m c (n - 1) (by omega)).sameC) ∗ owns (c : Thread nD τ) scM0_5 fullShare ((sAt0 m c (n - 1) (by omega)).diagD)) ∗ (∃ r, prngReg c r)) := by
  cases n with
  | zero => exact absurd rfl hz
  | succ n => rfl

/-! ## The pipeline's proof data -/

/-- The arrays as the region finds them; after the body at point `t` each input's buffer at its block and the
    outputs' at `oAt0`; the invariant `PhiS`; nothing owed; the feature array's share dealt in halves to its two
    windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (oAt0 m c t).posLogit
    | ⟨7, _⟩ => (oAt0 m c t).negLogit
    | ⟨8, _⟩ => (oAt0 m c t).posDsum
    | ⟨9, _⟩ => (oAt0 m c t).negDsum
    | ⟨10, _⟩ => (oAt0 m c t).posCnt
    | ⟨11, _⟩ => (oAt0 m c t).negCnt
    | ⟨_ + 12, h⟩ => absurd h (Nat.not_lt.2 (Nat.le_add_left _ _))
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]
theorem q_eq (c : Dev nD) : (dats m 0 c).q = qs := rfl
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (oAt0 m c t).posLogit := by dsimp only [dats]
theorem after0_7 (c : Dev nD) (t : Fin cfg0.N) : (dats m 0 c).after 7 t = (oAt0 m c t).negLogit := by dsimp only [dats]
theorem after0_8 (c : Dev nD) (t : Fin cfg0.N) : (dats m 0 c).after 8 t = (oAt0 m c t).posDsum := by dsimp only [dats]
theorem after0_9 (c : Dev nD) (t : Fin cfg0.N) : (dats m 0 c).after 9 t = (oAt0 m c t).negDsum := by dsimp only [dats]
theorem after0_10 (c : Dev nD) (t : Fin cfg0.N) : (dats m 0 c).after 10 t = (oAt0 m c t).posCnt := by dsimp only [dats]
theorem after0_11 (c : Dev nD) (t : Fin cfg0.N) : (dats m 0 c).after 11 t = (oAt0 m c t).negCnt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.KernelIdeal.Hand

end
-- ==== Proof.FrameBodyA.lean ====
/-
  The kernel body's obligation at the grid points of case A of its two conditions: that case's run applies, the
  invariant hands the body the accumulators and takes them back at this point's contents.
-/
import proofs.«145610_j47124381171853_2_alg».proof.Proof.FrameData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Model (Acc Outs)

set_option maxHeartbeats 8000000 in
theorem sound_body_A (c : Dev nD) (t : Fin cfg0.N) (h0 : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  have h1 : ¬t.val % 16 = 15 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [Dat.leavesExact_idle (dats m 0 c) 11 t (idleAt0_11 t (fun h => h1 ((hcond0_1 t).mp h))) (noFlush0_11 t (fun h => h1 ((hcond0_1 t).mp h)))]
  rw [sAt0_A m c t h0 h1]
  unfold sAll0_A sout0_A_0 sout0_A_1 sout0_A_2 sout0_A_3 sout0_A_4 sout0_A_5; (try dsimp only)
  by_cases hz : t.val = 0
  ·
    rw [PhiS_castSucc m c t, PhiS_zero m c _ _ hz, PhiA0_eq]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.2 _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      ·
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS1]
        · unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS2]
        · unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS3]
        · unfold owns; iexists _; isplitr
          swap; · iexact HS3
          ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS4]
        · unfold owns; iexists _; isplitr
          swap; · iexact HS4
          ipureintro; exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        unfold owns; iexists _; isplitr
        swap; · iexact HS5
        ipureintro; exact View.read_writes_of_cover _ _ _ _ _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  ·
    rw [PhiS_castSucc m c t, PhiS_pos m c _ _ hz]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.2 _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      ·
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS1]
        · unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS2]
        · unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS3]
        · unfold owns; iexists _; isplitr
          swap; · iexact HS3
          ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS4]
        · unfold owns; iexists _; isplitr
          swap; · iexact HS4
          ipureintro; exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        unfold owns; iexists _; isplitr
        swap; · iexact HS5
        ipureintro; exact View.read_writes_of_cover _ _ _ _ _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.KernelIdeal.Hand

end
-- ==== Proof.FrameBodyB.lean ====
/-
  The kernel body's obligation at the grid points of case B of its two conditions: that case's run applies, the
  invariant hands the body the accumulators and takes them back at this point's contents.
-/
import proofs.«145610_j47124381171853_2_alg».proof.Proof.FrameData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Model (Acc Outs)

set_option maxHeartbeats 8000000 in
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  have hz : t.val ≠ 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [Dat.leavesExact_idle (dats m 0 c) 11 t (idleAt0_11 t (fun h => h1 ((hcond0_1 t).mp h))) (noFlush0_11 t (fun h => h1 ((hcond0_1 t).mp h)))]
  rw [sAt0_B m c t h0 h1]
  unfold sAll0_B sout0_B_0 sout0_B_1 sout0_B_2 sout0_B_3 sout0_B_4 sout0_B_5; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD).2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS1]
      · unfold owns; iexists _; isplitr
        swap; · iexact HS1
        ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS2]
      · unfold owns; iexists _; isplitr
        swap; · iexact HS2
        ipureintro; exact View.read_writes_of_cover _ _ _ _ _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS3]
      · unfold owns; iexists _; isplitr
        swap; · iexact HS3
        ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS4]
      · unfold owns; iexists _; isplitr
        swap; · iexact HS4
        ipureintro; exact View.read_writes_of_cover _ _ _ _ _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      unfold owns; iexists _; isplitr
      swap; · iexact HS5
      ipureintro; exact View.read_writes_of_cover _ _ _ _ _ (scover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.KernelIdeal.Hand

end
-- ==== Proof.FrameBodyC.lean ====
/-
  The kernel body's obligation at the grid points of case C of its two conditions: that case's run applies, the
  invariant hands the body the accumulators and takes them back at this point's contents.
-/
import proofs.«145610_j47124381171853_2_alg».proof.Proof.FrameData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Model (Acc Outs)

set_option maxHeartbeats 8000000 in
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  have hz : t.val ≠ 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t ((hcond0_1 t).mpr h1)], after0_6]
  rw [show (dats m 0 c).leavesExact 7 t = owns (c : Thread nD τ) (ms0_7 t) fullShare ((dats m 0 c).after 7 t) from by
    unfold Dat.leavesExact; rw [liveAt0_7 t ((hcond0_1 t).mpr h1)], after0_7]
  rw [show (dats m 0 c).leavesExact 8 t = owns (c : Thread nD τ) (ms0_8 t) fullShare ((dats m 0 c).after 8 t) from by
    unfold Dat.leavesExact; rw [liveAt0_8 t ((hcond0_1 t).mpr h1)], after0_8]
  rw [show (dats m 0 c).leavesExact 9 t = owns (c : Thread nD τ) (ms0_9 t) fullShare ((dats m 0 c).after 9 t) from by
    unfold Dat.leavesExact; rw [liveAt0_9 t ((hcond0_1 t).mpr h1)], after0_9]
  rw [show (dats m 0 c).leavesExact 10 t = owns (c : Thread nD τ) (ms0_10 t) fullShare ((dats m 0 c).after 10 t) from by
    unfold Dat.leavesExact; rw [liveAt0_10 t ((hcond0_1 t).mpr h1)], after0_10]
  rw [show (dats m 0 c).leavesExact 11 t = owns (c : Thread nD τ) (ms0_11 t) fullShare ((dats m 0 c).after 11 t) from by
    unfold Dat.leavesExact; rw [liveAt0_11 t ((hcond0_1 t).mpr h1)], after0_11]
  rw [PhiS_castSucc m c t, PhiS_pos m c _ _ hz]
  rw [sAt0_C m c t h0 h1, oAt0_C m c t h0 h1]
  unfold sAll0_C oAll0_C sout0_C_0 sout0_C_1 sout0_C_2 sout0_C_3 sout0_C_4 sout0_C_5 out0_C_6 out0_C_7 out0_C_8 out0_C_9 out0_C_10 out0_C_11; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, ⟨%e8, H8⟩, ⟨%e9, H9⟩, ⟨%e10, H10⟩, ⟨%e11, H11⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS1]
      · unfold owns; iexists _; isplitr
        swap; · iexact HS1
        ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS2]
      · unfold owns; iexists _; isplitr
        swap; · iexact HS2
        ipureintro; exact View.read_writes_of_cover _ _ _ _ _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS3]
      · unfold owns; iexists _; isplitr
        swap; · iexact HS3
        ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS4]
      · unfold owns; iexists _; isplitr
        swap; · iexact HS4
        ipureintro; exact View.read_writes_of_cover _ _ _ _ _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      unfold owns; iexists _; isplitr
      swap; · iexact HS5
      ipureintro; exact View.read_writes_of_cover _ _ _ _ _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  isplitl [H7]
  · unfold owns; iexists _; isplitr
    swap; · iexact H7
    ipureintro; exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  isplitl [H8]
  · unfold owns; iexists _; isplitr
    swap; · iexact H8
    ipureintro; exact View.read_writes_of_cover _ _ _ _ _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  isplitl [H9]
  · unfold owns; iexists _; isplitr
    swap; · iexact H9
    ipureintro; exact View.read_writes_of_cover _ _ _ _ _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  isplitl [H10]
  · unfold owns; iexists _; isplitr
    swap; · iexact H10
    ipureintro; exact View.read_writes_of_cover _ _ _ _ _ (cover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  unfold owns; iexists _; isplitr
  swap; · iexact H11
  ipureintro; exact View.read_writes_of_cover _ _ _ _ _ (cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)

end Cert.KernelIdeal.Hand

end
-- ==== Proof.Frame.lean ====
/-
  The frame of the kernel program for any float instance: the body's obligation at every point, by cases on the two
  conditions the body branches on, and the invariant's two ends.
-/
import proofs.«145610_j47124381171853_2_alg».proof.Proof.FrameBodyA
import proofs.«145610_j47124381171853_2_alg».proof.Proof.FrameBodyB
import proofs.«145610_j47124381171853_2_alg».proof.Proof.FrameBodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Model (Acc Outs)

/-- The body at any point: the closed forms say which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_body_A m c t h0
  · by_cases h1 : t.val % 16 = 15
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨⟨HS0, HS1, HS2, HS3, HS4, HS5⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

end Cert.KernelIdeal.Hand

end
-- ==== Proof.HandLaunch.lean ====
/-
  The launch of the kernel program when two of its input windows read ONE array: the array's full share is dealt in
  halves to the two windows at the region's entry; after the region the host operations run within the six output
  arrays and the buffers that bypass the region — they touch none of the input arrays — and every buffer is read back
  at the end.
-/
import proofs.«145610_j47124381171853_2_alg».proof.Proof.HandShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (dats : (p : Fin 1) → (c : Dev nD) → Dat τ (Elt F) Unit ℕ (UR sig nD τ) ℕ (cfgs p) c)

/-- From the buffers behind the arrays, each whole at the full share at the region-entry contents, to the windows'
    arrays at their shares: the feature array's share splits in its two halves. -/
theorem hsplit (c : Dev nD) (hq : (dats 0 c).q = qs) (hA : ∀ w, (dats 0 c).A w = V m c (Pipeline.arrRef spec0 w)) :
    (Pipeline.arrBufs spec0 c (V m c) : sProp 𝕄) ⊢ (dats 0 c).arrays ((dats 0 c).arrAt · 0) := by
  rw [arrBufs_chain, arrays_chain dats c hq]
  have e : ∀ w, (dats 0 c).arrAt w 0 = V m c (Pipeline.arrRef spec0 w) := fun w => hA w
  simp only [e]
  iintro ⟨H0, H4, H5, Hv0, Hv1, H60, H61, H62, H63, H64, H65⟩
  ihave Hs := (pointsTo_share (PosShare.mem_left_op_right fullShare)).1 $$ H0
  icases Hs with ⟨Hl, Hr⟩
  isplitl [Hl]; · iexact Hl
  isplitl [Hr]; · iexact Hr
  isplitl [H4]; · iexact H4
  isplitl [H5]; · iexact H5
  isplitl [Hv0]; · iexact Hv0
  isplitl [Hv1]; · iexact Hv1
  isplitl [H60]; · iexact H60
  isplitl [H61]; · iexact H61
  isplitl [H62]; · iexact H62
  isplitl [H63]; · iexact H63
  isplitl [H64]; · iexact H64
  iexact H65

/-! ## The host operations after the region -/

/-- The six output arrays. -/
def outRefs : Finset (Ref sig .tc) := [main_v6_0, main_v6_1, main_v6_2, main_v6_3, main_v6_4, main_v6_5].toFinset

/-- The buffers the operations after the region run within: the output arrays and the buffers that bypass the region. -/
def tailS : Finset (DevRef τ sig) :=
  (outRefs ∪ Pipeline.restRefs sig spec0).map ⟨Proc.devRef (sig := sig) .tc, Proc.devRef_injective _⟩

theorem out_disj_rest : Disjoint outRefs (Pipeline.restRefs sig spec0) :=
  Finset.disjoint_left.mpr fun b hb hr => (Finset.mem_sdiff.mp hr).2 (by
    revert b; decide)

/-- Those buffers held at a valuation: the six output arrays one by one, and the bypassing buffers. -/
theorem held_tailS (c : Dev nD) (Wv : Valuation τ sig (Elt F)) :
    (StableHlo.held (c.tc : Thread nD τ) tailS Wv : sProp 𝕄)
      = iprop((pt c main_v6_0 fullShare (Wv (Proc.devRef .tc main_v6_0)) ∗ pt c main_v6_1 fullShare (Wv (Proc.devRef .tc main_v6_1)) ∗ pt c main_v6_2 fullShare (Wv (Proc.devRef .tc main_v6_2))
          ∗ pt c main_v6_3 fullShare (Wv (Proc.devRef .tc main_v6_3)) ∗ pt c main_v6_4 fullShare (Wv (Proc.devRef .tc main_v6_4)) ∗ pt c main_v6_5 fullShare (Wv (Proc.devRef .tc main_v6_5)))
        ∗ Pipeline.unscopedRest spec0 c (fun b => Wv (Proc.devRef .tc b))) := by
  unfold StableHlo.held tailS Pipeline.unscopedRest
  rw [bigSep_map, bigSep_union out_disj_rest]
  congr 1
  unfold outRefs
  rw [bigSep_eq_bigSepL _ (by decide)]
  rfl

/-- An output array is the array of ONE window. -/
theorem out_inj : ∀ w : Fin 12, 6 ≤ w.val → ∀ w' : Fin 12, Pipeline.arrRef spec0 w' = Pipeline.arrRef spec0 w → w' = w := by decide

/-- The valuation that has the arrays at `A`, read at an output array, is `A` there. -/
theorem withArrays_out (c : Dev nD) (Vv : Valuation τ sig (Elt F))
    (A : (w : Fin 12) → Buf (Elt F) ((spec0 w).arr.view.loc (c.tc : Thread nD τ))) (w : Fin 12) (hw : 6 ≤ w.val) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 12) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := out_inj w hw w' (Proc.devRef_injective _ e)
  rfl

/-- No operation after the region writes an array of the pipeline. -/
theorem tail_keeps : ∀ op ∈ (hostOps1 : List (HloOp τ sig (Elt F))), ∀ w : Fin 12, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The five input arrays' buffers. -/
def inRefs : Finset (Ref sig .tc) := [main_arg0, main_v4, main_v5, main_v0, main_v1].toFinset

/-- An unscoped reference that is no input array is an output array or bypasses the region. -/
theorem mem_tailS_of (b : Ref sig .tc) (hs : b.isScoped = false) (hb : b ∉ inRefs) :
    Proc.devRef (τ := τ) .tc b ∈ tailS := by
  classical
  unfold tailS
  refine Finset.mem_map_of_mem _ ?_
  by_cases ho : b ∈ outRefs
  · exact Finset.mem_union_left _ ho
  · refine Finset.mem_union_right _ (Pipeline.mem_restRefs_of b hs fun w e => ?_)
    have : b ∈ Finset.univ.image (Pipeline.arrRef spec0) := Finset.mem_image.mpr ⟨w, Finset.mem_univ _, e⟩
    rw [arrRefs_eq, List.mem_toFinset] at this
    simp only [List.mem_cons, List.mem_nil_iff, or_false] at this
    simp only [inRefs, outRefs, List.mem_toFinset, List.mem_cons, List.mem_nil_iff, or_false, not_or] at hb ho
    tauto

/-- The operations after the region run within the output arrays and the bypassing buffers. -/
theorem tail_sub : ∀ op ∈ (hostOps1 : List (HloOp τ sig (Elt F))), op.bufs ⊆ tailS := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals
    intro b hb
    simp only [StableHlo.nullary_bufs, StableHlo.unary_bufs, StableHlo.binary_bufs, StableHlo.reshape_bufs, Finset.mem_insert, Finset.mem_singleton] at hb
    rcases hb with rfl | rfl | rfl <;> exact mem_tailS_of _ rfl (by decide)

/-- What the buffers hold when the region is left: the arrays at their final contents, every other buffer as it was
    when the region was entered. -/
abbrev Uexit (c : Dev nD) : Valuation τ sig (Elt F) :=
  Pipeline.withArrays spec0 c (V0 m c) (fun w => (dats 0 c).arrAt w cfg0.N)

theorem Uexit_rest (c : Dev nD) (b : Ref sig .tc) (hb : b ∈ Pipeline.restRefs sig spec0) :
    Uexit m dats c (Proc.devRef .tc b) = V0 m c (Proc.devRef .tc b) :=
  Pipeline.withArrays_of_ne spec0 c (V0 m c) _ b fun w e => (Finset.mem_sdiff.mp hb).2 (Finset.mem_image.mpr ⟨w, Finset.mem_univ _, e⟩)

set_option maxHeartbeats 1000000 in
theorem Uexit_out0 (c : Dev nD) : Uexit m dats c (Proc.devRef .tc main_v6_0) = (dats 0 c).arrAt 6 cfg0.N :=
  withArrays_out c (V0 m c) (fun w => (dats 0 c).arrAt w cfg0.N) 6 (by decide)
set_option maxHeartbeats 1000000 in
theorem Uexit_out1 (c : Dev nD) : Uexit m dats c (Proc.devRef .tc main_v6_1) = (dats 0 c).arrAt 7 cfg0.N :=
  withArrays_out c (V0 m c) (fun w => (dats 0 c).arrAt w cfg0.N) 7 (by decide)
set_option maxHeartbeats 1000000 in
theorem Uexit_out2 (c : Dev nD) : Uexit m dats c (Proc.devRef .tc main_v6_2) = (dats 0 c).arrAt 8 cfg0.N :=
  withArrays_out c (V0 m c) (fun w => (dats 0 c).arrAt w cfg0.N) 8 (by decide)
set_option maxHeartbeats 1000000 in
theorem Uexit_out3 (c : Dev nD) : Uexit m dats c (Proc.devRef .tc main_v6_3) = (dats 0 c).arrAt 9 cfg0.N :=
  withArrays_out c (V0 m c) (fun w => (dats 0 c).arrAt w cfg0.N) 9 (by decide)
set_option maxHeartbeats 1000000 in
theorem Uexit_out4 (c : Dev nD) : Uexit m dats c (Proc.devRef .tc main_v6_4) = (dats 0 c).arrAt 10 cfg0.N :=
  withArrays_out c (V0 m c) (fun w => (dats 0 c).arrAt w cfg0.N) 10 (by decide)
set_option maxHeartbeats 1000000 in
theorem Uexit_out5 (c : Dev nD) : Uexit m dats c (Proc.devRef .tc main_v6_5) = (dats 0 c).arrAt 11 cfg0.N :=
  withArrays_out c (V0 m c) (fun w => (dats 0 c).arrAt w cfg0.N) 11 (by decide)

/-- Six points-tos in a chain, rewritten one by one. -/
theorem chain6_congr {a0 a1 a2 a3 a4 a5 b0 b1 b2 b3 b4 b5 : sProp 𝕄} (h0 : a0 = b0) (h1 : a1 = b1) (h2 : a2 = b2) (h3 : a3 = b3)
    (h4 : a4 = b4) (h5 : a5 = b5) : iprop(a0 ∗ a1 ∗ a2 ∗ a3 ∗ a4 ∗ a5) = iprop(b0 ∗ b1 ∗ b2 ∗ b3 ∗ b4 ∗ b5) := by
  subst h0 h1 h2 h3 h4 h5; rfl

/-- The output arrays and the bypassing buffers, held at the region-exit contents. -/
theorem held_exit (c : Dev nD) :
    (StableHlo.held (c.tc : Thread nD τ) tailS (Uexit m dats c) : sProp 𝕄)
      = iprop((pt c main_v6_0 fullShare ((dats 0 c).arrAt 6 cfg0.N) ∗ pt c main_v6_1 fullShare ((dats 0 c).arrAt 7 cfg0.N) ∗ pt c main_v6_2 fullShare ((dats 0 c).arrAt 8 cfg0.N) ∗ pt c main_v6_3 fullShare ((dats 0 c).arrAt 9 cfg0.N) ∗ pt c main_v6_4 fullShare ((dats 0 c).arrAt 10 cfg0.N) ∗ pt c main_v6_5 fullShare ((dats 0 c).arrAt 11 cfg0.N))
        ∗ Pipeline.unscopedRest spec0 c (V m c)) := by
  rw [held_tailS]
  refine congrArg₂ (fun a b : sProp 𝕄 => iprop(a ∗ b)) (chain6_congr ?_ ?_ ?_ ?_ ?_ ?_) ?_
  · exact congrArg (pt c main_v6_0 fullShare) (Uexit_out0 m dats c)
  · exact congrArg (pt c main_v6_1 fullShare) (Uexit_out1 m dats c)
  · exact congrArg (pt c main_v6_2 fullShare) (Uexit_out2 m dats c)
  · exact congrArg (pt c main_v6_3 fullShare) (Uexit_out3 m dats c)
  · exact congrArg (pt c main_v6_4 fullShare) (Uexit_out4 m dats c)
  · exact congrArg (pt c main_v6_5 fullShare) (Uexit_out5 m dats c)
  · unfold Pipeline.unscopedRest
    exact bigSep_congr fun b hb => by
      show (((c.tc : Thread nD τ).loc b) ↦{fullShare} Uexit m dats c (Proc.devRef .tc b) : sProp 𝕄) = _
      rw [Uexit_rest m dats c b hb]

/-- The same after the operations that follow the region: they write no array. -/
theorem held_after (c : Dev nD) :
    (StableHlo.held (c.tc : Thread nD τ) tailS (StableHlo.after ([hostOps1] : List (List (HloOp τ sig (Elt F)))).flatten (Uexit m dats c)) : sProp 𝕄)
      = iprop((pt c main_v6_0 fullShare ((dats 0 c).arrAt 6 cfg0.N) ∗ pt c main_v6_1 fullShare ((dats 0 c).arrAt 7 cfg0.N) ∗ pt c main_v6_2 fullShare ((dats 0 c).arrAt 8 cfg0.N) ∗ pt c main_v6_3 fullShare ((dats 0 c).arrAt 9 cfg0.N) ∗ pt c main_v6_4 fullShare ((dats 0 c).arrAt 10 cfg0.N) ∗ pt c main_v6_5 fullShare ((dats 0 c).arrAt 11 cfg0.N))
        ∗ Pipeline.unscopedRest spec0 c (Pipeline.afterTail₀ cfgs dats 0 (V0 m) [hostOps1] c)) := by
  have hk : ∀ w : Fin 12, StableHlo.after ([hostOps1] : List (List (HloOp τ sig (Elt F)))).flatten (Uexit m dats c) (Proc.devRef .tc (Pipeline.arrRef spec0 w))
      = Uexit m dats c (Proc.devRef .tc (Pipeline.arrRef spec0 w)) := fun w =>
    StableHlo.after_of_forall_not_mem _ _ fun op hop => by
      simp only [List.flatten_cons, List.flatten_nil, List.append_nil] at hop
      exact tail_keeps op hop w
  rw [held_tailS]
  refine congrArg₂ (fun a b : sProp 𝕄 => iprop(a ∗ b)) (chain6_congr ?_ ?_ ?_ ?_ ?_ ?_) rfl
  · exact congrArg (pt c main_v6_0 fullShare) ((hk 6).trans (Uexit_out0 m dats c))
  · exact congrArg (pt c main_v6_1 fullShare) ((hk 7).trans (Uexit_out1 m dats c))
  · exact congrArg (pt c main_v6_2 fullShare) ((hk 8).trans (Uexit_out2 m dats c))
  · exact congrArg (pt c main_v6_3 fullShare) ((hk 9).trans (Uexit_out3 m dats c))
  · exact congrArg (pt c main_v6_4 fullShare) ((hk 10).trans (Uexit_out4 m dats c))
  · exact congrArg (pt c main_v6_5 fullShare) ((hk 11).trans (Uexit_out5 m dats c))

set_option backward.isDefEq.respectTransparency.types false in
set_option maxHeartbeats 2000000 in
/-- THE OPERATIONS AFTER THE REGION: from the region's exit — the arrays at their final contents, the bypassing buffers as
    at the entry — the operations run and hand back the arrays as they were and the bypassing buffers at their
    contents after the operations. -/
theorem htail (c : Dev nD) (hq : (dats 0 c).q = qs) (Q' : PUnit → sProp 𝕄) :
    iprop((iprop((dats 0 c).arrays ((dats 0 c).arrAt · cfg0.N)
              ∗ Pipeline.unscopedRestP Pipeline.Prefetch.none spec0 c (Pipeline.afterTail₀ cfgs dats 0 (V0 m) [hostOps1] c)) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_chain dats c hq, Pipeline.unscopedRestP_none, Pipeline.unscopedRestP_none]
  iintro ⟨Hk, Hb, ⟨Hl, Hr, H4, H5, Hv0, Hv1, H60, H61, H62, H63, H64, H65⟩, Hrest⟩
  ihave Hh := (Entails.of_eq (held_exit m dats c).symm) $$ [H60 H61 H62 H63 H64 H65 Hrest]
  · isplitr [Hrest]
    · isplitl [H60]; · iexact H60
      isplitl [H61]; · iexact H61
      isplitl [H62]; · iexact H62
      isplitl [H63]; · iexact H63
      isplitl [H64]; · iexact H64
      iexact H65
    iexact Hrest
  ihave Hw := (Pipeline.wp_seqs_then (fun q => (cfgs q).toPCfg (Val := Elt F)) defs₀ Variants.none c tailS [] (K := Q') [hostOps1]
      (fun ops ho op h => by
        simp only [List.mem_cons, List.mem_nil_iff, or_false] at ho; subst ho; exact tail_sub op h)
      (fun ops ho op h => by
        simp only [List.mem_cons, List.mem_nil_iff, or_false] at ho; subst ho
        exact (List.forall_iff_forall_mem.mp hostOps1_fresh) op h)
      (Uexit m dats c)) $$ [Hb Hh]
  · isplitl [Hb]; · iexact Hb
    iexact Hh
  iapply Hw
  iintro ⟨Hb, Hh⟩
  rw [Pipeline.chain_nil, wp_pure]
  ihave Hh := (Entails.of_eq (held_after m dats c)) $$ Hh
  imodintro
  iapply Hk
  icases Hh with ⟨⟨H60, H61, H62, H63, H64, H65⟩, Hrest⟩
  isplitr [Hrest]
  · isplitl [Hl]; · iexact Hl
    isplitl [Hr]; · iexact Hr
    isplitl [H4]; · iexact H4
    isplitl [H5]; · iexact H5
    isplitl [Hv0]; · iexact Hv0
    isplitl [Hv1]; · iexact Hv1
    isplitl [H60]; · iexact H60
    isplitl [H61]; · iexact H61
    isplitl [H62]; · iexact H62
    isplitl [H63]; · iexact H63
    isplitl [H64]; · iexact H64
    iexact H65
  iexact Hrest

/-! ## The run -/

set_option backward.isDefEq.respectTransparency.types false in
set_option maxHeartbeats 2000000 in
/-- THE FRAME RUN of the kernel program for proof data that deal the feature array's share in halves to its two windows:
    every weakly fair execution of @main terminates, nothing faulting, every array of the pipeline ends at what the
    library computes from the proof data and every other unscoped buffer at its contents after the operations that
    follow the region. -/
theorem run_frame_shared
    (hbody : ∀ c, Pipeline.BodyObligationLoose (dats 0 c) (defs₀ (F := F)) Variants.none () Set.univ)
    (hq : ∀ c, (dats 0 c).q = qs) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m dats c (hq c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m dats c (hq c) Q')
    (QY := fun c s => ∀ b ∈ Pipeline.restRefsP sig Pipeline.Prefetch.none spec0, s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Pipeline.afterTail₀ cfgs dats 0 (V0 m) [hostOps1] c) s')
      isplitl [HU] <;> iassumption)
    (hQ := fun s h c => ⟨(h c).1, Pipeline.rest_of_restP Pipeline.Prefetch.none spec0 (fun k => k.elim0) c (Pipeline.afterTail₀ cfgs dats 0 (V0 m) [hostOps1] c) s (fun k => k.elim0) (h c).2.1 (h c).2.2⟩)

end Cert.KernelIdeal.Hand

end
-- ==== Proof.FrameRun.lean ====
/-
  The run of the kernel program and its frame, for any float instance: the run instantiates the launch for shared
  arrays at the proof data of the frame; the two argument arrays end as they began — the feature array is an input
  window's array, which the pipeline never writes, and the labels bypass the region and no host operation writes them.
-/
import proofs.«145610_j47124381171853_2_alg».proof.Proof.Frame
import proofs.«145610_j47124381171853_2_alg».proof.Proof.HandLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the compiled mesh, for any float values, from any memory with zero counters: every weakly fair execution of
    @main terminates, nothing faulting; every array of the pipeline ends at what the library computes from the proof
    data, every other unscoped buffer at its contents after the host operations that follow the region. -/
theorem run_main : θ_run defs (onTc (τ := τ) (main (F := F))) (s₀ m ρ)
    (Pipeline.FramePost cfgs (dats m) 0 (Pipeline.afterTail₀ cfgs (dats m) 0 (V0 m) [hostOps1])) :=
  run_frame_shared m ρ (dats m) (fun c => (body_obligation m c).loose) (q_eq m) (fun _ _ => rfl) (A_eq m) (hin m) (hout m)

/-- No host operation before the region writes an argument. -/
theorem pre_keeps (b : Ref sig .tc) (hb : b = main_arg0 ∨ b = main_arg1) :
    ∀ op ∈ (hostOps0 : List (HloOp τ sig (Elt F))), Proc.devRef .tc b ∉ op.writes := by
  intro op hop
  simp only [hostOps0, List.mem_cons, List.mem_nil_iff, or_false] at hop
  rcases hop with rfl | rfl | rfl | rfl | rfl | rfl | rfl <;> rcases hb with rfl | rfl <;>
    simp only [StableHlo.nullary_writes, StableHlo.unary_writes, StableHlo.binary_writes, StableHlo.reshape_writes, Finset.mem_singleton] <;>
    exact StableHlo.devRef_ne_of_ne (by decide)

/-- Nor does one after it. -/
theorem post_keeps_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem V_main_arg0 (c : Dev nD) : V m c main_arg0 = m ((c : Thread nD τ).loc main_arg0) :=
  StableHlo.after_of_forall_not_mem (b := Proc.devRef .tc main_arg0) _ _ fun op hop => by
    simp only [List.flatten_cons, List.flatten_nil, List.append_nil] at hop
    exact pre_keeps main_arg0 (Or.inl rfl) op hop
theorem V_main_arg1 (c : Dev nD) : V m c main_arg1 = m ((c : Thread nD τ).loc main_arg1) :=
  StableHlo.after_of_forall_not_mem (b := Proc.devRef .tc main_arg1) _ _ fun op hop => by
    simp only [List.flatten_cons, List.flatten_nil, List.append_nil] at hop
    exact pre_keeps main_arg1 (Or.inr rfl) op hop

/-- The labels bypass the region. -/
theorem arg1_rest : main_arg1 ∈ Pipeline.restRefs sig spec0 := Pipeline.mem_restRefs_of main_arg1 rfl (by decide)

/-- And end as they began. -/
theorem afterTail_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ fun op hop => by
      simp only [List.flatten_cons, List.flatten_nil, List.append_nil] at hop
      exact post_keeps_arg1 op hop,
    Pipeline.withArrays_of_ne spec0 c (V0 m c) _ main_arg1 (by decide)]
  exact V_main_arg1 m c

/-- THE FRAME: the program runs to the end, faults nowhere, and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 arg1_rest).trans (afterTail_arg1 m c)⟩) (run_main m ρ)

end Cert.KernelIdeal.Hand

end
-- ==== Proof.BitsFrameKit.lean ====
/-
  What the frame of the kernel program rests on, for any float instance: the contents of the core's buffers when the
  region is entered (after the seven host operations before it), each input window's block at a grid point and the
  fact that its staging buffer holds that block at every point, the two conditions the body branches on in closed
  form over the grid's 128 points (the column tile is the first, `t % 16 = 0`; it is the last, `t % 16 = 15`),
  where the six output windows are idle, and the memrefs the body is called with.
-/
import proofs.«145610_j47124381171853_2_alg».proof.Proof.Gen.Kernel.Launch
import proofs.«145610_j47124381171853_2_alg».proof.Proof.Gen.Kernel.Skeleton
import proofs.«145610_j47124381171853_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the seven host operations before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The column tile is the first of its row tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The column tile is the last of its row tile. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Output window 6 is stored only at the last column tile: idle and not written back elsewhere. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Output window 7 is stored only at the last column tile: idle and not written back elsewhere. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Output window 8 is stored only at the last column tile: idle and not written back elsewhere. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Output window 9 is stored only at the last column tile: idle and not written back elsewhere. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
/-- Output window 10 is stored only at the last column tile: idle and not written back elsewhere. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
/-- Output window 11 is stored only at the last column tile: idle and not written back elsewhere. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev VO0_6 : View sig .tc .vmem S1024x1 .f32 := (Memref.whole cc0_stg6_0 : Memref sig .tc .vmem S1024x1 .f32).view
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev VO0_7 : View sig .tc .vmem S1024x1 .f32 := (Memref.whole cc0_stg7_0 : Memref sig .tc .vmem S1024x1 .f32).view
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
abbrev VO0_8 : View sig .tc .vmem S1024x1 .f32 := (Memref.whole cc0_stg8_0 : Memref sig .tc .vmem S1024x1 .f32).view
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)
abbrev VO0_9 : View sig .tc .vmem S1024x1 .f32 := (Memref.whole cc0_stg9_0 : Memref sig .tc .vmem S1024x1 .f32).view
abbrev ms0_9 (t : Fin cfg0.N) : Memref sig .tc .vmem S1024x1 .f32 := win0_9.stage (cfg0.slots t 9)
abbrev hs0_9 (t : Fin cfg0.N) : (ms0_9 t).IsWhole := hstage0_9 ((cfg0.slots t 9).cast nbuf0_9)
abbrev VO0_10 : View sig .tc .vmem S1024x1 .f32 := (Memref.whole cc0_stg10_0 : Memref sig .tc .vmem S1024x1 .f32).view
abbrev ms0_10 (t : Fin cfg0.N) : Memref sig .tc .vmem S1024x1 .f32 := win0_10.stage (cfg0.slots t 10)
abbrev hs0_10 (t : Fin cfg0.N) : (ms0_10 t).IsWhole := hstage0_10 ((cfg0.slots t 10).cast nbuf0_10)
abbrev VO0_11 : View sig .tc .vmem S1024x1 .f32 := (Memref.whole cc0_stg11_0 : Memref sig .tc .vmem S1024x1 .f32).view
abbrev ms0_11 (t : Fin cfg0.N) : Memref sig .tc .vmem S1024x1 .f32 := win0_11.stage (cfg0.slots t 11)
abbrev hs0_11 (t : Fin cfg0.N) : (ms0_11 t).IsWhole := hstage0_11 ((cfg0.slots t 11).cast nbuf0_11)
/-- Accumulator 0, a whole scoped buffer of the kernel's own, as a memref and as a view. -/
abbrev scM0_0 : Memref sig .tc .vmem S1024x128 .f32 := Memref.whole cc0_scratch0
abbrev VS0_0 : View sig .tc .vmem S1024x128 .f32 := scM0_0.view
/-- Accumulator 1, a whole scoped buffer of the kernel's own, as a memref and as a view. -/
abbrev scM0_1 : Memref sig .tc .vmem S1024x128 .f32 := Memref.whole cc0_scratch1
abbrev VS0_1 : View sig .tc .vmem S1024x128 .f32 := scM0_1.view
/-- Accumulator 2, a whole scoped buffer of the kernel's own, as a memref and as a view. -/
abbrev scM0_2 : Memref sig .tc .vmem S1024x128 .f32 := Memref.whole cc0_scratch2
abbrev VS0_2 : View sig .tc .vmem S1024x128 .f32 := scM0_2.view
/-- Accumulator 3, a whole scoped buffer of the kernel's own, as a memref and as a view. -/
abbrev scM0_3 : Memref sig .tc .vmem S1024x128 .f32 := Memref.whole cc0_scratch3
abbrev VS0_3 : View sig .tc .vmem S1024x128 .f32 := scM0_3.view
/-- Accumulator 4, a whole scoped buffer of the kernel's own, as a memref and as a view. -/
abbrev scM0_4 : Memref sig .tc .vmem S1024x128 .f32 := Memref.whole cc0_scratch4
abbrev VS0_4 : View sig .tc .vmem S1024x128 .f32 := scM0_4.view
/-- Accumulator 5, a whole scoped buffer of the kernel's own, as a memref and as a view. -/
abbrev scM0_5 : Memref sig .tc .vmem S1024x128 .f32 := Memref.whole cc0_scratch5
abbrev VS0_5 : View sig .tc .vmem S1024x128 .f32 := scM0_5.view

/-- What the region holds besides the windows before its first point and gives back after its last: the six
    accumulators at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.BitsRunA.lean ====
/-
  The kernel body's triple in case A of the two conditions it branches on (the column tile is the first and not the last: the accumulators are zeroed, then accumulated into; no output is stored).
  The body is a sequence of whole-buffer loads and stores over eighteen staging buffers: six input windows, six
  output windows (one column of 1024 rows each) and six carried accumulators (1024 rows by 128 lanes each). Stated
  as a subtype: the witness is, for each buffer the body stores into, the list of pieces its stores leave (last
  first); the property is that from whole buffers at the stated contents the body runs to any continuation that
  accepts the inputs unchanged, the untouched outputs unchanged, and every stored buffer with exactly those pieces
  written over whatever it held.
-/
import proofs.«145610_j47124381171853_2_alg».proof.Proof.BitsFrameKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in case A (first column tile: the six accumulators are zeroed, then accumulated into; the six outputs stay idle): on whole staging memrefs the body runs to the continuation, holding the
    inputs' buffers as they were and every stored buffer with the pieces its stores leave (last first). The pieces
    are the witness the run itself finds. -/
noncomputable def kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    Σ' (LS0 : List (View.Piece (Elt F) S1024x128 .f32)) (LS1 : List (View.Piece (Elt F) S1024x128 .f32)) (LS2 : List (View.Piece (Elt F) S1024x128 .f32)) (LS3 : List (View.Piece (Elt F) S1024x128 .f32)) (LS4 : List (View.Piece (Elt F) S1024x128 .f32)), { LS5 : List (View.Piece (Elt F) S1024x128 .f32) //
      ∀ (xi6 xi7 xi8 xi9 xi10 xi11 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (cc0__row_reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun xi6 xi7 xi8 xi9 xi10 xi11 E K => ?run⟩
  case run =>
    simp only [cc0__row_reduce_kernel_eq_skeleton]; unfold cc0__row_reduce_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Kernel.Hand

end
-- ==== Proof.BitsRunB.lean ====
/-
  The kernel body's triple in case B of the two conditions it branches on (the column tile is neither the first nor the last: the accumulators are accumulated into; no output is stored).
  The body is a sequence of whole-buffer loads and stores over eighteen staging buffers: six input windows, six
  output windows (one column of 1024 rows each) and six carried accumulators (1024 rows by 128 lanes each). Stated
  as a subtype: the witness is, for each buffer the body stores into, the list of pieces its stores leave (last
  first); the property is that from whole buffers at the stated contents the body runs to any continuation that
  accepts the inputs unchanged, the untouched outputs unchanged, and every stored buffer with exactly those pieces
  written over whatever it held.
-/
import proofs.«145610_j47124381171853_2_alg».proof.Proof.BitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in case B (a column tile that is neither first nor last: the six accumulators are accumulated into; the six outputs stay idle): on whole staging memrefs the body runs to the continuation, holding the
    inputs' buffers as they were and every stored buffer with the pieces its stores leave (last first). The pieces
    are the witness the run itself finds. -/
noncomputable def kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    Σ' (LS0 : List (View.Piece (Elt F) S1024x128 .f32)) (LS1 : List (View.Piece (Elt F) S1024x128 .f32)) (LS2 : List (View.Piece (Elt F) S1024x128 .f32)) (LS3 : List (View.Piece (Elt F) S1024x128 .f32)) (LS4 : List (View.Piece (Elt F) S1024x128 .f32)), { LS5 : List (View.Piece (Elt F) S1024x128 .f32) //
      ∀ (xi6 xi7 xi8 xi9 xi10 xi11 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (cc0__row_reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun xi6 xi7 xi8 xi9 xi10 xi11 E K => ?run⟩
  case run =>
    simp only [cc0__row_reduce_kernel_eq_skeleton]; unfold cc0__row_reduce_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Kernel.Hand

end
-- ==== Proof.BitsRunC.lean ====
/-
  The kernel body's triple in case C of the two conditions it branches on (the column tile is the last and not the first: the accumulators are accumulated into, then each output column is stored from their lane sums).
  The body is a sequence of whole-buffer loads and stores over eighteen staging buffers: six input windows, six
  output windows (one column of 1024 rows each) and six carried accumulators (1024 rows by 128 lanes each). Stated
  as a subtype: the witness is, for each buffer the body stores into, the list of pieces its stores leave (last
  first); the property is that from whole buffers at the stated contents the body runs to any continuation that
  accepts the inputs unchanged, the untouched outputs unchanged, and every stored buffer with exactly those pieces
  written over whatever it held.
-/
import proofs.«145610_j47124381171853_2_alg».proof.Proof.BitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in case C (last column tile: the six accumulators are accumulated into, then reduced along the lanes into the six output columns): on whole staging memrefs the body runs to the continuation, holding the
    inputs' buffers as they were and every stored buffer with the pieces its stores leave (last first). The pieces
    are the witness the run itself finds. -/
noncomputable def kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    Σ' (L6 : List (View.Piece (Elt F) S1024x1 .f32)) (L7 : List (View.Piece (Elt F) S1024x1 .f32)) (L8 : List (View.Piece (Elt F) S1024x1 .f32)) (L9 : List (View.Piece (Elt F) S1024x1 .f32)) (L10 : List (View.Piece (Elt F) S1024x1 .f32)) (L11 : List (View.Piece (Elt F) S1024x1 .f32)) (LS0 : List (View.Piece (Elt F) S1024x128 .f32)) (LS1 : List (View.Piece (Elt F) S1024x128 .f32)) (LS2 : List (View.Piece (Elt F) S1024x128 .f32)) (LS3 : List (View.Piece (Elt F) S1024x128 .f32)) (LS4 : List (View.Piece (Elt F) S1024x128 .f32)), { LS5 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (cc0__row_reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, ?_, ?_, fun E K => ?run⟩
  case run =>
    simp only [cc0__row_reduce_kernel_eq_skeleton]; unfold cc0__row_reduce_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Kernel.Hand

end
-- ==== Proof.BitsModel.lean ====
/-
  The kernel's arithmetic as pure functions, built from the named payloads of the kernel function's skeleton.

  At a grid point the body reads six input blocks — 1024 rows `xi` and 512 rows `xj` of the feature array, their
  squared norms `sqi` (a column) and `sqj` (a row), their labels `ti` and `tj` — and six accumulators of shape
  1024 × 128 (one lane-aligned partial sum per row and lane): the diagonal-free weights, those of same-class pairs,
  the distances, those of same-class pairs, the same-class indicator, and the diagonal's distances. `step` is what
  one point adds to them; at the first point of a row tile they start from zero (`zeroAcc`); at the last point of a
  row tile the six output columns are lane sums and differences of the accumulators (`outs`).
  `accAt` runs the recursion along the grid's 128 points in order (8 row tiles × 16 column tiles, the column tile
  moving fastest), the blocks read off whole arrays by `blocksAt`.
-/
import proofs.«145610_j47124381171853_2_alg».proof.Proof.Gen.Kernel.Skeleton
import Idealize.ShloMosaic.Lib.ValueIdx

noncomputable section

namespace Cert.Kernel.Model

open Idealize.ShloMosaic Idealize.ShloMosaic.ValueIdx Cert.Kernel Cert.Kernel.Gen

variable {F : FTy → Type} [FloatOps F]

/-- The six input blocks of one grid point. -/
structure Blocks (F : FTy → Type) where
  xi : Vec F S1024x128 .f32
  xj : Vec F S512x128 .f32
  sqi : Vec F S1024x1 .f32
  sqj : Vec F S1x512 .f32
  ti : Vec F S1024x1 .i32
  tj : Vec F S1x512 .i32

/-- The six accumulators carried from point to point within a row tile. -/
structure Acc (F : FTy → Type) where
  totalE : Vec F S1024x128 .f32
  sameE : Vec F S1024x128 .f32
  totalD : Vec F S1024x128 .f32
  sameD : Vec F S1024x128 .f32
  sameC : Vec F S1024x128 .f32
  diagD : Vec F S1024x128 .f32

/-- The six output columns a row tile ends with. -/
structure Outs (F : FTy → Type) where
  posLogit : Vec F S1024x1 .f32
  negLogit : Vec F S1024x1 .f32
  posDsum : Vec F S1024x1 .f32
  negDsum : Vec F S1024x1 .f32
  posCnt : Vec F S1024x1 .f32
  negCnt : Vec F S1024x1 .f32

/-- The accumulators at the start of a row tile: zeros. -/
def zeroAcc : Acc F := ⟨k0_pay13, k0_pay14, k0_pay15, k0_pay16, k0_pay17, k0_pay18⟩

/-- What one grid point adds to the accumulators. -/
def step (i : grid0.Coords) (b : Blocks F) (a : Acc F) : Acc F :=
  { totalE := k0_pay26 (BitVec.ofNat 32 (i 1).val) (k0_pay21 b.xi b.xj b.sqi b.sqj) (k0_pay22 i) 512#32 a.totalE
    sameE := k0_pay27 (BitVec.ofNat 32 (i 1).val) (k0_pay20 b.ti b.tj) (k0_pay21 b.xi b.xj b.sqi b.sqj) (k0_pay22 i) 512#32 a.sameE
    totalD := k0_pay28 (k0_pay19 b.xi b.xj b.sqi b.sqj) a.totalD
    sameD := k0_pay1 a.sameD (k0_pay29 (k0_pay19 b.xi b.xj b.sqi b.sqj) (k0_pay20 b.ti b.tj))
    sameC := k0_pay2 (k0_pay20 b.ti b.tj) a.sameC
    diagD := k0_pay3 (k0_pay25 (BitVec.ofNat 32 (i 1).val) (k0_pay19 b.xi b.xj b.sqi b.sqj) (k0_pay22 i) 512#32) a.diagD }

/-- The output columns from the accumulators a row tile ends with. -/
def outs (a : Acc F) : Outs F :=
  { posLogit := k0_pay7 a.sameE
    negLogit := k0_pay9 a.totalE a.sameE
    posDsum := k0_pay10 a.sameD a.diagD
    negDsum := k0_pay11 a.totalD a.sameD
    posCnt := k0_pay4 (k0_pay6 a.sameC) k0_pay12
    negCnt := k0_pay5 (k0_pay6 a.sameC) }

/-- Row `p` of the row tile of point `n`, as a row of the whole array. -/
def rowOf (n : ℕ) (hn : n < 128) (p : Fin 1024) : Fin 8192 := ⟨1024 * (n / 16) + p.val, by omega⟩
/-- Column `q` of the column tile of point `n`, as a row of the whole array. -/
def colOf (n : ℕ) (hn : n < 128) (q : Fin 512) : Fin 8192 := ⟨512 * (n % 16) + q.val, by omega⟩

/-- The blocks of point `n`, read off the feature array `x`, its squared norms as a column `sqr` and as a row `sqc`,
    and the labels as a column `tr` and as a row `tc`. -/
def blocksAt (x : Vec F S8192x128 .f32) (sqr : Vec F S8192x1 .f32) (sqc : Vec F S1x8192 .f32)
    (tr : Vec F S8192x1 .i32) (tc : Vec F S1x8192 .i32) (n : ℕ) (hn : n < 128) : Blocks F :=
  { xi := fun y => x (ix2 (rowOf n hn (y 0)) (y 1))
    xj := fun y => x (ix2 (colOf n hn (y 0)) (y 1))
    sqi := fun y => sqr (ix2 (rowOf n hn (y 0)) (y 1))
    sqj := fun y => sqc (ix2 (y 0) (colOf n hn (y 1)))
    ti := fun y => tr (ix2 (rowOf n hn (y 0)) (y 1))
    tj := fun y => tc (ix2 (y 0) (colOf n hn (y 1))) }

/-- The accumulators after point `n`: a point at the start of a row tile steps from zero, any other from what the
    point before left. -/
def accAt (x : Vec F S8192x128 .f32) (sqr : Vec F S8192x1 .f32) (sqc : Vec F S1x8192 .f32)
    (tr : Vec F S8192x1 .i32) (tc : Vec F S1x8192 .i32) : (n : ℕ) → (hn : n < 128) → Acc F
  | 0, hn => step (grid0.coords ⟨0, hn⟩) (blocksAt x sqr sqc tr tc 0 hn) zeroAcc
  | n + 1, hn =>
    if (n + 1) % 16 = 0 then step (grid0.coords ⟨n + 1, hn⟩) (blocksAt x sqr sqc tr tc (n + 1) hn) zeroAcc
    else step (grid0.coords ⟨n + 1, hn⟩) (blocksAt x sqr sqc tr tc (n + 1) hn) (accAt x sqr sqc tr tc n (Nat.lt_of_succ_lt hn))

end Cert.Kernel.Model

end
-- ==== Proof.BitsFrameDefs.lean ====
/-
  What each case of the kernel body leaves behind, read back from the pieces its run found: the six accumulators
  (in every case) and the six output columns (at the last column tile), with the facts that the pieces cover their
  buffers.
-/
import proofs.«145610_j47124381171853_2_alg».proof.Proof.BitsRunC
import proofs.«145610_j47124381171853_2_alg».proof.Proof.BitsModel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Model (Acc Outs)

/-- Case A's pieces for accumulator 0 cover it. -/
theorem scover0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1 S1024x128.size (by sl_kernel_rfl) y
/-- What case A leaves in accumulator 0: its pieces read back. -/
def sout0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).1)

/-- Case A's pieces for accumulator 1 cover it. -/
theorem scover0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1 S1024x128.size (by sl_kernel_rfl) y
/-- What case A leaves in accumulator 1: its pieces read back. -/
def sout0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1)

/-- Case A's pieces for accumulator 2 cover it. -/
theorem scover0_A_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1 S1024x128.size (by sl_kernel_rfl) y
/-- What case A leaves in accumulator 2: its pieces read back. -/
def sout0_A_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.1)

/-- Case A's pieces for accumulator 3 cover it. -/
theorem scover0_A_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.1 S1024x128.size (by sl_kernel_rfl) y
/-- What case A leaves in accumulator 3: its pieces read back. -/
def sout0_A_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.1)

/-- Case A's pieces for accumulator 4 cover it. -/
theorem scover0_A_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1 S1024x128.size (by sl_kernel_rfl) y
/-- What case A leaves in accumulator 4: its pieces read back. -/
def sout0_A_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1)

/-- Case A's pieces for accumulator 5 cover it. -/
theorem scover0_A_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1 S1024x128.size (by sl_kernel_rfl) y
/-- What case A leaves in accumulator 5: its pieces read back. -/
def sout0_A_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Vec F S1024x128 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1)

/-- Case A's six accumulators together. -/
def sAll0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) : Acc F :=
  ⟨sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5, sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5⟩

/-- Case B's pieces for accumulator 0 cover it. -/
theorem scover0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1 S1024x128.size (by sl_kernel_rfl) y
/-- What case B leaves in accumulator 0: its pieces read back. -/
def sout0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1)

/-- Case B's pieces for accumulator 1 cover it. -/
theorem scover0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1 S1024x128.size (by sl_kernel_rfl) y
/-- What case B leaves in accumulator 1: its pieces read back. -/
def sout0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1)

/-- Case B's pieces for accumulator 2 cover it. -/
theorem scover0_B_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1 S1024x128.size (by sl_kernel_rfl) y
/-- What case B leaves in accumulator 2: its pieces read back. -/
def sout0_B_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1)

/-- Case B's pieces for accumulator 3 cover it. -/
theorem scover0_B_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1 S1024x128.size (by sl_kernel_rfl) y
/-- What case B leaves in accumulator 3: its pieces read back. -/
def sout0_B_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1)

/-- Case B's pieces for accumulator 4 cover it. -/
theorem scover0_B_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1 S1024x128.size (by sl_kernel_rfl) y
/-- What case B leaves in accumulator 4: its pieces read back. -/
def sout0_B_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1)

/-- Case B's pieces for accumulator 5 cover it. -/
theorem scover0_B_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1 S1024x128.size (by sl_kernel_rfl) y
/-- What case B leaves in accumulator 5: its pieces read back. -/
def sout0_B_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1)

/-- Case B's six accumulators together. -/
def sAll0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Acc F :=
  ⟨sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5⟩

/-- Case C's pieces for accumulator 0 cover it. -/
theorem scover0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.1 S1024x128.size (by sl_kernel_rfl) y
/-- What case C leaves in accumulator 0: its pieces read back. -/
def sout0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.1)

/-- Case C's pieces for accumulator 1 cover it. -/
theorem scover0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.1 S1024x128.size (by sl_kernel_rfl) y
/-- What case C leaves in accumulator 1: its pieces read back. -/
def sout0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.1)

/-- Case C's pieces for accumulator 2 cover it. -/
theorem scover0_C_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.1 S1024x128.size (by sl_kernel_rfl) y
/-- What case C leaves in accumulator 2: its pieces read back. -/
def sout0_C_2 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.1)

/-- Case C's pieces for accumulator 3 cover it. -/
theorem scover0_C_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.1 S1024x128.size (by sl_kernel_rfl) y
/-- What case C leaves in accumulator 3: its pieces read back. -/
def sout0_C_3 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.1)

/-- Case C's pieces for accumulator 4 cover it. -/
theorem scover0_C_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.1 S1024x128.size (by sl_kernel_rfl) y
/-- What case C leaves in accumulator 4: its pieces read back. -/
def sout0_C_4 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.1)

/-- Case C's pieces for accumulator 5 cover it. -/
theorem scover0_C_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.2.1 S1024x128.size (by sl_kernel_rfl) y
/-- What case C leaves in accumulator 5: its pieces read back. -/
def sout0_C_5 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x128 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.2.2.2.2.2.2.1)

/-- Case C's pieces for output window 6 cover its block. -/
theorem cover0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1 S1024x1.size (by sl_kernel_rfl) y
/-- What case C leaves in output window 6's staging buffer. -/
def out0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).1)

/-- Case C's pieces for output window 7 cover its block. -/
theorem cover0_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1 S1024x1.size (by sl_kernel_rfl) y
/-- What case C leaves in output window 7's staging buffer. -/
def out0_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.1)

/-- Case C's pieces for output window 8 cover its block. -/
theorem cover0_C_8 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1 S1024x1.size (by sl_kernel_rfl) y
/-- What case C leaves in output window 8's staging buffer. -/
def out0_C_8 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.1)

/-- Case C's pieces for output window 9 cover its block. -/
theorem cover0_C_9 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1 S1024x1.size (by sl_kernel_rfl) y
/-- What case C leaves in output window 9's staging buffer. -/
def out0_C_9 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.1)

/-- Case C's pieces for output window 10 cover its block. -/
theorem cover0_C_10 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1 S1024x1.size (by sl_kernel_rfl) y
/-- What case C leaves in output window 10's staging buffer. -/
def out0_C_10 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.1)

/-- Case C's pieces for output window 11 cover its block. -/
theorem cover0_C_11 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1 S1024x1.size (by sl_kernel_rfl) y
/-- What case C leaves in output window 11's staging buffer. -/
def out0_C_11 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Vec F S1024x1 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5).2.2.2.2.2.1)

/-- Case C's six accumulators together. -/
def sAll0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Acc F :=
  ⟨sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5⟩

/-- Case C's six output columns together. -/
def oAll0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i) (x0 : Vec F S1024x128 .f32) (x1 : Vec F S512x128 .f32) (x2 : Vec F S1024x1 .f32) (x3 : Vec F S1x512 .f32) (x4 : Vec F S1024x1 .i32) (x5 : Vec F S1x512 .i32) (xs0 : Vec F S1024x128 .f32) (xs1 : Vec F S1024x128 .f32) (xs2 : Vec F S1024x128 .f32) (xs3 : Vec F S1024x128 .f32) (xs4 : Vec F S1024x128 .f32) (xs5 : Vec F S1024x128 .f32) : Outs F :=
  ⟨out0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5, out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5⟩

end Cert.Kernel.Hand

end
-- ==== Proof.BitsHandShares.lean ====
/-
  Two input windows of the kernel read ONE array, the feature array (by row tile and by column tile): its full share
  is dealt in halves to the two windows, every other array is its window's whole. This module lists the buffers behind
  the windows' arrays and writes both the launch's account of them and the pipeline's as explicit chains.
-/
import proofs.«145610_j47124381171853_2_alg».proof.Proof.BitsFrameKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (dats : (p : Fin 1) → (c : Dev nD) → Dat τ (Elt F) Unit ℕ (UR sig nD τ) ℕ (cfgs p) c)

/-- The share of its array each input window holds: the two windows on the feature array a half each. -/
def qs : Fin 12 → PosShare TreeShare := fun w => if w = 0 then fullShare.left else if w = 1 then fullShare.right else fullShare

theorem share0 (c : Dev nD) (hq : (dats 0 c).q = qs) : (dats 0 c).share 0 = fullShare.left := by unfold Dat.share; rw [hq]; rfl
theorem share1 (c : Dev nD) (hq : (dats 0 c).q = qs) : (dats 0 c).share 1 = fullShare.right := by unfold Dat.share; rw [hq]; rfl
theorem share2 (c : Dev nD) (hq : (dats 0 c).q = qs) : (dats 0 c).share 2 = fullShare := by unfold Dat.share; rw [hq]; rfl
theorem share3 (c : Dev nD) (hq : (dats 0 c).q = qs) : (dats 0 c).share 3 = fullShare := by unfold Dat.share; rw [hq]; rfl
theorem share4 (c : Dev nD) (hq : (dats 0 c).q = qs) : (dats 0 c).share 4 = fullShare := by unfold Dat.share; rw [hq]; rfl
theorem share5 (c : Dev nD) (hq : (dats 0 c).q = qs) : (dats 0 c).share 5 = fullShare := by unfold Dat.share; rw [hq]; rfl
theorem share6 (c : Dev nD) : (dats 0 c).share 6 = fullShare := by unfold Dat.share; rfl
theorem share7 (c : Dev nD) : (dats 0 c).share 7 = fullShare := by unfold Dat.share; rfl
theorem share8 (c : Dev nD) : (dats 0 c).share 8 = fullShare := by unfold Dat.share; rfl
theorem share9 (c : Dev nD) : (dats 0 c).share 9 = fullShare := by unfold Dat.share; rfl
theorem share10 (c : Dev nD) : (dats 0 c).share 10 = fullShare := by unfold Dat.share; rfl
theorem share11 (c : Dev nD) : (dats 0 c).share 11 = fullShare := by unfold Dat.share; rfl

/-- The distinct buffers behind the windows' arrays, listed. -/
theorem arrRefs_eq : Finset.univ.image (Pipeline.arrRef spec0) = [main_arg0, main_v4, main_v5, main_v0, main_v1, main_v6_0, main_v6_1, main_v6_2, main_v6_3, main_v6_4, main_v6_5].toFinset := by decide

/-- The windows' arrays, each a whole buffer, as points-tos of the buffers behind them. -/
theorem arrays_pts (c : Dev nD) (G : (w : Fin cfg0.W) → Buf (Elt F) ((cfg0.win w).arr.view.loc (c.tc : Thread nD τ))) :
    ((dats 0 c).arrays G : sProp 𝕄) = bigSep Finset.univ fun w : Fin 12 => (((c.tc : Thread nD τ).loc (Pipeline.arrRef spec0 w)) ↦{(dats 0 c).share w} G w : sProp 𝕄) := by
  unfold Dat.arrays
  exact bigSep_congr fun w _ => by rw [(arr_whole0 w).set_eq_univ]

/-- A buffer of the core at a share and contents. -/
abbrev pt (c : Dev nD) (b : Ref sig .tc) (q : PosShare TreeShare) (f : Buf (Elt F) ((c.tc : Thread nD τ).loc b)) : sProp 𝕄 :=
  ((c.tc : Thread nD τ).loc b) ↦{q} f

/-- The buffers behind the arrays, one by one. -/
theorem arrBufs_chain (c : Dev nD) (W : (b : Ref sig .tc) → Buf (Elt F) ((c.tc : Thread nD τ).loc b)) :
    (Pipeline.arrBufs spec0 c W : sProp 𝕄)
      = iprop(pt c main_arg0 fullShare (W main_arg0) ∗ pt c main_v4 fullShare (W main_v4) ∗ pt c main_v5 fullShare (W main_v5) ∗ pt c main_v0 fullShare (W main_v0) ∗ pt c main_v1 fullShare (W main_v1)
        ∗ pt c main_v6_0 fullShare (W main_v6_0) ∗ pt c main_v6_1 fullShare (W main_v6_1) ∗ pt c main_v6_2 fullShare (W main_v6_2) ∗ pt c main_v6_3 fullShare (W main_v6_3) ∗ pt c main_v6_4 fullShare (W main_v6_4) ∗ pt c main_v6_5 fullShare (W main_v6_5)) := by
  unfold Pipeline.arrBufs
  rw [bigSep_eq_bigSepL_of_eq _ arrRefs_eq (by decide)]
  rfl

set_option maxHeartbeats 1000000 in
/-- The windows' arrays, one by one, each at its share: the feature array twice, at its two halves. -/
theorem arrays_chain (c : Dev nD) (hq : (dats 0 c).q = qs) (G : (w : Fin cfg0.W) → Buf (Elt F) ((cfg0.win w).arr.view.loc (c.tc : Thread nD τ))) :
    ((dats 0 c).arrays G : sProp 𝕄)
      = iprop(pt c main_arg0 fullShare.left (G 0) ∗ pt c main_arg0 fullShare.right (G 1) ∗ pt c main_v4 fullShare (G 2) ∗ pt c main_v5 fullShare (G 3) ∗ pt c main_v0 fullShare (G 4) ∗ pt c main_v1 fullShare (G 5)
        ∗ pt c main_v6_0 fullShare (G 6) ∗ pt c main_v6_1 fullShare (G 7) ∗ pt c main_v6_2 fullShare (G 8) ∗ pt c main_v6_3 fullShare (G 9) ∗ pt c main_v6_4 fullShare (G 10) ∗ pt c main_v6_5 fullShare (G 11)) := by
  rw [arrays_pts, bigSep_W0]
  rw [share0 dats c hq, share1 dats c hq, share2 dats c hq, share3 dats c hq, share4 dats c hq, share5 dats c hq,
    share6, share7, share8, share9, share10, share11]

end Cert.Kernel.Hand

end
-- ==== Proof.BitsFrameData.lean ====
/-
  The frame's data for any float instance: what the six accumulators hold after each grid point (`sAt0`, by recursion
  on the point: a point at the first column tile of a row tile starts them afresh, any other adds to what the point
  before left) and what the six output columns hold at the last column tile of a row tile (`oAt0`); the pipeline's
  proof data over them; what the body is called with at a point and what it must return.
-/
import proofs.«145610_j47124381171853_2_alg».proof.Proof.BitsFrameDefs
import proofs.«145610_j47124381171853_2_alg».proof.Proof.BitsHandShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Model (Acc Outs)

/-! ## What the accumulators and the outputs hold after each point -/

/-- A placeholder for an output column at a point where the window is idle: nothing consults it. -/
def idleOut : Vec F S1024x1 .f32 := VO0_6.read (Elt F) (VO0_6.writes (Elt F) VO0_6.junk [])

/-- The six accumulators after the body at point `n`. -/
def sAt0 (c : Dev nD) : (n : ℕ) → n < cfg0.N → Acc F
  | 0, hn => sAll0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 16 = 0 then
      sAll0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 16 = 15 then
        sAll0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (sAt0 c n (Nat.lt_of_succ_lt hn)).totalE (sAt0 c n (Nat.lt_of_succ_lt hn)).sameE (sAt0 c n (Nat.lt_of_succ_lt hn)).totalD (sAt0 c n (Nat.lt_of_succ_lt hn)).sameD (sAt0 c n (Nat.lt_of_succ_lt hn)).sameC (sAt0 c n (Nat.lt_of_succ_lt hn)).diagD
      else
        sAll0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (sAt0 c n (Nat.lt_of_succ_lt hn)).totalE (sAt0 c n (Nat.lt_of_succ_lt hn)).sameE (sAt0 c n (Nat.lt_of_succ_lt hn)).totalD (sAt0 c n (Nat.lt_of_succ_lt hn)).sameD (sAt0 c n (Nat.lt_of_succ_lt hn)).sameC (sAt0 c n (Nat.lt_of_succ_lt hn)).diagD

theorem sAt0_A (c : Dev nD) (t : Fin cfg0.N) (h0 : t.val % 16 = 0) (h1 : ¬t.val % 16 = 15) :
    sAt0 m c t.val t.isLt = sAll0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem sAt0_B (c : Dev nD) (t : Fin cfg0.N) (h0 : ¬t.val % 16 = 0) (h1 : ¬t.val % 16 = 15) :
    sAt0 m c t.val t.isLt = sAll0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD := by
  obtain ⟨n, hn⟩ := t
  cases n with
  | zero => exact (by exfalso; (try dsimp only at h0); exact absurd (Nat.zero_mod _) h0)
  | succ n => exact (dif_neg h0).trans ((dif_neg h1).trans rfl)

theorem sAt0_C (c : Dev nD) (t : Fin cfg0.N) (h0 : ¬t.val % 16 = 0) (h1 : t.val % 16 = 15) :
    sAt0 m c t.val t.isLt = sAll0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD := by
  obtain ⟨n, hn⟩ := t
  cases n with
  | zero => exact (by exfalso; (try dsimp only at h0); exact absurd (Nat.zero_mod _) h0)
  | succ n => exact (dif_neg h0).trans ((dif_pos h1).trans rfl)

/-- The six output columns after the body at point `t`: stored at the last column tile of a row tile, from the
    accumulators the point before left; idle elsewhere. -/
def oAt0 (c : Dev nD) (t : Fin cfg0.N) : Outs F :=
  if h1 : t.val % 16 = 15 then
    oAll0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => (fun h => by omega) ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD
  else ⟨idleOut, idleOut, idleOut, idleOut, idleOut, idleOut⟩

theorem oAt0_C (c : Dev nD) (t : Fin cfg0.N) (h0 : ¬t.val % 16 = 0) (h1 : t.val % 16 = 15) :
    oAt0 m c t = oAll0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD := by
  unfold oAt0; rw [dif_pos h1]

/-- The region invariant before position `n`: before the first point the six accumulators at anything; afterwards
    each at what the point before left in it; and the generator register. -/
def PhiS (c : Dev nD) : (n : ℕ) → n ≤ cfg0.N → sProp 𝕄
  | 0, _ => Pipeline.ΦA spec0 c
  | n + 1, hn => iprop(iprop(owns (c : Thread nD τ) scM0_0 fullShare ((sAt0 m c n hn).totalE) ∗ owns (c : Thread nD τ) scM0_1 fullShare ((sAt0 m c n hn).sameE) ∗ owns (c : Thread nD τ) scM0_2 fullShare ((sAt0 m c n hn).totalD) ∗ owns (c : Thread nD τ) scM0_3 fullShare ((sAt0 m c n hn).sameD) ∗ owns (c : Thread nD τ) scM0_4 fullShare ((sAt0 m c n hn).sameC) ∗ owns (c : Thread nD τ) scM0_5 fullShare ((sAt0 m c n hn).diagD)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((sAt0 m c n hn).totalE) ∗ owns (c : Thread nD τ) scM0_1 fullShare ((sAt0 m c n hn).sameE) ∗ owns (c : Thread nD τ) scM0_2 fullShare ((sAt0 m c n hn).totalD) ∗ owns (c : Thread nD τ) scM0_3 fullShare ((sAt0 m c n hn).sameD) ∗ owns (c : Thread nD τ) scM0_4 fullShare ((sAt0 m c n hn).sameC) ∗ owns (c : Thread nD τ) scM0_5 fullShare ((sAt0 m c n hn).diagD)) ∗ (∃ r, prngReg c r)) := rfl
theorem PhiS_pos (c : Dev nD) (n : ℕ) (h : n ≤ cfg0.N) (hz : n ≠ 0) :
    PhiS m c n h = iprop(iprop(owns (c : Thread nD τ) scM0_0 fullShare ((sAt0 m c (n - 1) (by omega)).totalE) ∗ owns (c : Thread nD τ) scM0_1 fullShare ((sAt0 m c (n - 1) (by omega)).sameE) ∗ owns (c : Thread nD τ) scM0_2 fullShare ((sAt0 m c (n - 1) (by omega)).totalD) ∗ owns (c : Thread nD τ) scM0_3 fullShare ((sAt0 m c (n - 1) (by omega)).sameD) ∗ owns (c : Thread nD τ) scM0_4 fullShare ((sAt0 m c (n - 1) (by omega)).sameC) ∗ owns (c : Thread nD τ) scM0_5 fullShare ((sAt0 m c (n - 1) (by omega)).diagD)) ∗ (∃ r, prngReg c r)) := by
  cases n with
  | zero => exact absurd rfl hz
  | succ n => rfl

/-! ## The pipeline's proof data -/

/-- The arrays as the region finds them; after the body at point `t` each input's buffer at its block and the
    outputs' at `oAt0`; the invariant `PhiS`; nothing owed; the feature array's share dealt in halves to its two
    windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (oAt0 m c t).posLogit
    | ⟨7, _⟩ => (oAt0 m c t).negLogit
    | ⟨8, _⟩ => (oAt0 m c t).posDsum
    | ⟨9, _⟩ => (oAt0 m c t).negDsum
    | ⟨10, _⟩ => (oAt0 m c t).posCnt
    | ⟨11, _⟩ => (oAt0 m c t).negCnt
    | ⟨_ + 12, h⟩ => absurd h (Nat.not_lt.2 (Nat.le_add_left _ _))
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]
theorem q_eq (c : Dev nD) : (dats m 0 c).q = qs := rfl
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (oAt0 m c t).posLogit := by dsimp only [dats]
theorem after0_7 (c : Dev nD) (t : Fin cfg0.N) : (dats m 0 c).after 7 t = (oAt0 m c t).negLogit := by dsimp only [dats]
theorem after0_8 (c : Dev nD) (t : Fin cfg0.N) : (dats m 0 c).after 8 t = (oAt0 m c t).posDsum := by dsimp only [dats]
theorem after0_9 (c : Dev nD) (t : Fin cfg0.N) : (dats m 0 c).after 9 t = (oAt0 m c t).negDsum := by dsimp only [dats]
theorem after0_10 (c : Dev nD) (t : Fin cfg0.N) : (dats m 0 c).after 10 t = (oAt0 m c t).posCnt := by dsimp only [dats]
theorem after0_11 (c : Dev nD) (t : Fin cfg0.N) : (dats m 0 c).after 11 t = (oAt0 m c t).negCnt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.Kernel.Hand

end
-- ==== Proof.BitsFrameBodyA.lean ====
/-
  The kernel body's obligation at the grid points of case A of its two conditions: that case's run applies, the
  invariant hands the body the accumulators and takes them back at this point's contents.
-/
import proofs.«145610_j47124381171853_2_alg».proof.Proof.BitsFrameData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Model (Acc Outs)

set_option maxHeartbeats 8000000 in
theorem sound_body_A (c : Dev nD) (t : Fin cfg0.N) (h0 : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  have h1 : ¬t.val % 16 = 15 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [Dat.leavesExact_idle (dats m 0 c) 11 t (idleAt0_11 t (fun h => h1 ((hcond0_1 t).mp h))) (noFlush0_11 t (fun h => h1 ((hcond0_1 t).mp h)))]
  rw [sAt0_A m c t h0 h1]
  unfold sAll0_A sout0_A_0 sout0_A_1 sout0_A_2 sout0_A_3 sout0_A_4 sout0_A_5; (try dsimp only)
  by_cases hz : t.val = 0
  ·
    rw [PhiS_castSucc m c t, PhiS_zero m c _ _ hz, PhiA0_eq]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.2 _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      ·
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS1]
        · unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS2]
        · unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS3]
        · unfold owns; iexists _; isplitr
          swap; · iexact HS3
          ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS4]
        · unfold owns; iexists _; isplitr
          swap; · iexact HS4
          ipureintro; exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        unfold owns; iexists _; isplitr
        swap; · iexact HS5
        ipureintro; exact View.read_writes_of_cover _ _ _ _ _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  ·
    rw [PhiS_castSucc m c t, PhiS_pos m c _ _ hz]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.2 _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      ·
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS1]
        · unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS2]
        · unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS3]
        · unfold owns; iexists _; isplitr
          swap; · iexact HS3
          ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        isplitl [HS4]
        · unfold owns; iexists _; isplitr
          swap; · iexact HS4
          ipureintro; exact View.read_writes_of_cover _ _ _ _ _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
        unfold owns; iexists _; isplitr
        swap; · iexact HS5
        ipureintro; exact View.read_writes_of_cover _ _ _ _ _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.Kernel.Hand

end
-- ==== Proof.BitsFrameBodyB.lean ====
/-
  The kernel body's obligation at the grid points of case B of its two conditions: that case's run applies, the
  invariant hands the body the accumulators and takes them back at this point's contents.
-/
import proofs.«145610_j47124381171853_2_alg».proof.Proof.BitsFrameData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Model (Acc Outs)

set_option maxHeartbeats 8000000 in
theorem sound_body_B (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  have hz : t.val ≠ 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [Dat.leavesExact_idle (dats m 0 c) 10 t (idleAt0_10 t (fun h => h1 ((hcond0_1 t).mp h))) (noFlush0_10 t (fun h => h1 ((hcond0_1 t).mp h)))]
  rw [Dat.leavesExact_idle (dats m 0 c) 11 t (idleAt0_11 t (fun h => h1 ((hcond0_1 t).mp h))) (noFlush0_11 t (fun h => h1 ((hcond0_1 t).mp h)))]
  rw [sAt0_B m c t h0 h1]
  unfold sAll0_B sout0_B_0 sout0_B_1 sout0_B_2 sout0_B_3 sout0_B_4 sout0_B_5; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD).2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS1]
      · unfold owns; iexists _; isplitr
        swap; · iexact HS1
        ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS2]
      · unfold owns; iexists _; isplitr
        swap; · iexact HS2
        ipureintro; exact View.read_writes_of_cover _ _ _ _ _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS3]
      · unfold owns; iexists _; isplitr
        swap; · iexact HS3
        ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS4]
      · unfold owns; iexists _; isplitr
        swap; · iexact HS4
        ipureintro; exact View.read_writes_of_cover _ _ _ _ _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      unfold owns; iexists _; isplitr
      swap; · iexact HS5
      ipureintro; exact View.read_writes_of_cover _ _ _ _ _ (scover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.Kernel.Hand

end
-- ==== Proof.BitsFrameBodyC.lean ====
/-
  The kernel body's obligation at the grid points of case C of its two conditions: that case's run applies, the
  invariant hands the body the accumulators and takes them back at this point's contents.
-/
import proofs.«145610_j47124381171853_2_alg».proof.Proof.BitsFrameData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Model (Acc Outs)

set_option maxHeartbeats 8000000 in
theorem sound_body_C (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  have hz : t.val ≠ 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t ((hcond0_1 t).mpr h1)], after0_6]
  rw [show (dats m 0 c).leavesExact 7 t = owns (c : Thread nD τ) (ms0_7 t) fullShare ((dats m 0 c).after 7 t) from by
    unfold Dat.leavesExact; rw [liveAt0_7 t ((hcond0_1 t).mpr h1)], after0_7]
  rw [show (dats m 0 c).leavesExact 8 t = owns (c : Thread nD τ) (ms0_8 t) fullShare ((dats m 0 c).after 8 t) from by
    unfold Dat.leavesExact; rw [liveAt0_8 t ((hcond0_1 t).mpr h1)], after0_8]
  rw [show (dats m 0 c).leavesExact 9 t = owns (c : Thread nD τ) (ms0_9 t) fullShare ((dats m 0 c).after 9 t) from by
    unfold Dat.leavesExact; rw [liveAt0_9 t ((hcond0_1 t).mpr h1)], after0_9]
  rw [show (dats m 0 c).leavesExact 10 t = owns (c : Thread nD τ) (ms0_10 t) fullShare ((dats m 0 c).after 10 t) from by
    unfold Dat.leavesExact; rw [liveAt0_10 t ((hcond0_1 t).mpr h1)], after0_10]
  rw [show (dats m 0 c).leavesExact 11 t = owns (c : Thread nD τ) (ms0_11 t) fullShare ((dats m 0 c).after 11 t) from by
    unfold Dat.leavesExact; rw [liveAt0_11 t ((hcond0_1 t).mpr h1)], after0_11]
  rw [PhiS_castSucc m c t, PhiS_pos m c _ _ hz]
  rw [sAt0_C m c t h0 h1, oAt0_C m c t h0 h1]
  unfold sAll0_C oAll0_C sout0_C_0 sout0_C_1 sout0_C_2 sout0_C_3 sout0_C_4 sout0_C_5 out0_C_6 out0_C_7 out0_C_8 out0_C_9 out0_C_10 out0_C_11; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, ⟨%e8, H8⟩, ⟨%e9, H9⟩, ⟨%e10, H10⟩, ⟨%e11, H11⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      · unfold owns; iexists _; isplitr
        swap; · iexact HS0
        ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS1]
      · unfold owns; iexists _; isplitr
        swap; · iexact HS1
        ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS2]
      · unfold owns; iexists _; isplitr
        swap; · iexact HS2
        ipureintro; exact View.read_writes_of_cover _ _ _ _ _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS3]
      · unfold owns; iexists _; isplitr
        swap; · iexact HS3
        ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      isplitl [HS4]
      · unfold owns; iexists _; isplitr
        swap; · iexact HS4
        ipureintro; exact View.read_writes_of_cover _ _ _ _ _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
      unfold owns; iexists _; isplitr
      swap; · iexact HS5
      ipureintro; exact View.read_writes_of_cover _ _ _ _ _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  isplitl [H7]
  · unfold owns; iexists _; isplitr
    swap; · iexact H7
    ipureintro; exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  isplitl [H8]
  · unfold owns; iexists _; isplitr
    swap; · iexact H8
    ipureintro; exact View.read_writes_of_cover _ _ _ _ _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  isplitl [H9]
  · unfold owns; iexists _; isplitr
    swap; · iexact H9
    ipureintro; exact View.read_writes_of_cover _ _ _ _ _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  isplitl [H10]
  · unfold owns; iexists _; isplitr
    swap; · iexact H10
    ipureintro; exact View.read_writes_of_cover _ _ _ _ _ (cover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)
  unfold owns; iexists _; isplitr
  swap; · iexact H11
  ipureintro; exact View.read_writes_of_cover _ _ _ _ _ (cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (sAt0 m c (t.val - 1) (Nat.lt_of_le_of_lt (Nat.sub_le _ _) t.isLt)).totalE (sAt0 m c (t.val - 1) (Nat.lt_of_le_of_lt (Nat.sub_le _ _) t.isLt)).sameE (sAt0 m c (t.val - 1) (Nat.lt_of_le_of_lt (Nat.sub_le _ _) t.isLt)).totalD (sAt0 m c (t.val - 1) (Nat.lt_of_le_of_lt (Nat.sub_le _ _) t.isLt)).sameD (sAt0 m c (t.val - 1) (Nat.lt_of_le_of_lt (Nat.sub_le _ _) t.isLt)).sameC (sAt0 m c (t.val - 1) (Nat.lt_of_le_of_lt (Nat.sub_le _ _) t.isLt)).diagD)

end Cert.Kernel.Hand

end
-- ==== Proof.BitsFrame.lean ====
/-
  The frame of the kernel program for any float instance: the body's obligation at every point, by cases on the two
  conditions the body branches on, and the invariant's two ends.
-/
import proofs.«145610_j47124381171853_2_alg».proof.Proof.BitsFrameBodyA
import proofs.«145610_j47124381171853_2_alg».proof.Proof.BitsFrameBodyB
import proofs.«145610_j47124381171853_2_alg».proof.Proof.BitsFrameBodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Model (Acc Outs)

/-- The body at any point: the closed forms say which case the point is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_body_A m c t h0
  · by_cases h1 : t.val % 16 = 15
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨⟨HS0, HS1, HS2, HS3, HS4, HS5⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

end Cert.Kernel.Hand

end
-- ==== Proof.BitsHandLaunch.lean ====
/-
  The launch of the kernel program when two of its input windows read ONE array: the array's full share is dealt in
  halves to the two windows at the region's entry; after the region the host operations run within the six output
  arrays and the buffers that bypass the region — they touch none of the input arrays — and every buffer is read back
  at the end.
-/
import proofs.«145610_j47124381171853_2_alg».proof.Proof.BitsHandShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (dats : (p : Fin 1) → (c : Dev nD) → Dat τ (Elt F) Unit ℕ (UR sig nD τ) ℕ (cfgs p) c)

/-- From the buffers behind the arrays, each whole at the full share at the region-entry contents, to the windows'
    arrays at their shares: the feature array's share splits in its two halves. -/
theorem hsplit (c : Dev nD) (hq : (dats 0 c).q = qs) (hA : ∀ w, (dats 0 c).A w = V m c (Pipeline.arrRef spec0 w)) :
    (Pipeline.arrBufs spec0 c (V m c) : sProp 𝕄) ⊢ (dats 0 c).arrays ((dats 0 c).arrAt · 0) := by
  rw [arrBufs_chain, arrays_chain dats c hq]
  have e : ∀ w, (dats 0 c).arrAt w 0 = V m c (Pipeline.arrRef spec0 w) := fun w => hA w
  simp only [e]
  iintro ⟨H0, H4, H5, Hv0, Hv1, H60, H61, H62, H63, H64, H65⟩
  ihave Hs := (pointsTo_share (PosShare.mem_left_op_right fullShare)).1 $$ H0
  icases Hs with ⟨Hl, Hr⟩
  isplitl [Hl]; · iexact Hl
  isplitl [Hr]; · iexact Hr
  isplitl [H4]; · iexact H4
  isplitl [H5]; · iexact H5
  isplitl [Hv0]; · iexact Hv0
  isplitl [Hv1]; · iexact Hv1
  isplitl [H60]; · iexact H60
  isplitl [H61]; · iexact H61
  isplitl [H62]; · iexact H62
  isplitl [H63]; · iexact H63
  isplitl [H64]; · iexact H64
  iexact H65

/-! ## The host operations after the region -/

/-- The six output arrays. -/
def outRefs : Finset (Ref sig .tc) := [main_v6_0, main_v6_1, main_v6_2, main_v6_3, main_v6_4, main_v6_5].toFinset

/-- The buffers the operations after the region run within: the output arrays and the buffers that bypass the region. -/
def tailS : Finset (DevRef τ sig) :=
  (outRefs ∪ Pipeline.restRefs sig spec0).map ⟨Proc.devRef (sig := sig) .tc, Proc.devRef_injective _⟩

theorem out_disj_rest : Disjoint outRefs (Pipeline.restRefs sig spec0) :=
  Finset.disjoint_left.mpr fun b hb hr => (Finset.mem_sdiff.mp hr).2 (by
    revert b; decide)

/-- Those buffers held at a valuation: the six output arrays one by one, and the bypassing buffers. -/
theorem held_tailS (c : Dev nD) (Wv : Valuation τ sig (Elt F)) :
    (StableHlo.held (c.tc : Thread nD τ) tailS Wv : sProp 𝕄)
      = iprop((pt c main_v6_0 fullShare (Wv (Proc.devRef .tc main_v6_0)) ∗ pt c main_v6_1 fullShare (Wv (Proc.devRef .tc main_v6_1)) ∗ pt c main_v6_2 fullShare (Wv (Proc.devRef .tc main_v6_2))
          ∗ pt c main_v6_3 fullShare (Wv (Proc.devRef .tc main_v6_3)) ∗ pt c main_v6_4 fullShare (Wv (Proc.devRef .tc main_v6_4)) ∗ pt c main_v6_5 fullShare (Wv (Proc.devRef .tc main_v6_5)))
        ∗ Pipeline.unscopedRest spec0 c (fun b => Wv (Proc.devRef .tc b))) := by
  unfold StableHlo.held tailS Pipeline.unscopedRest
  rw [bigSep_map, bigSep_union out_disj_rest]
  congr 1
  unfold outRefs
  rw [bigSep_eq_bigSepL _ (by decide)]
  rfl

/-- An output array is the array of ONE window. -/
theorem out_inj : ∀ w : Fin 12, 6 ≤ w.val → ∀ w' : Fin 12, Pipeline.arrRef spec0 w' = Pipeline.arrRef spec0 w → w' = w := by decide

/-- The valuation that has the arrays at `A`, read at an output array, is `A` there. -/
theorem withArrays_out (c : Dev nD) (Vv : Valuation τ sig (Elt F))
    (A : (w : Fin 12) → Buf (Elt F) ((spec0 w).arr.view.loc (c.tc : Thread nD τ))) (w : Fin 12) (hw : 6 ≤ w.val) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 12) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := out_inj w hw w' (Proc.devRef_injective _ e)
  rfl

/-- No operation after the region writes an array of the pipeline. -/
theorem tail_keeps : ∀ op ∈ (hostOps1 : List (HloOp τ sig (Elt F))), ∀ w : Fin 12, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The five input arrays' buffers. -/
def inRefs : Finset (Ref sig .tc) := [main_arg0, main_v4, main_v5, main_v0, main_v1].toFinset

/-- An unscoped reference that is no input array is an output array or bypasses the region. -/
theorem mem_tailS_of (b : Ref sig .tc) (hs : b.isScoped = false) (hb : b ∉ inRefs) :
    Proc.devRef (τ := τ) .tc b ∈ tailS := by
  classical
  unfold tailS
  refine Finset.mem_map_of_mem _ ?_
  by_cases ho : b ∈ outRefs
  · exact Finset.mem_union_left _ ho
  · refine Finset.mem_union_right _ (Pipeline.mem_restRefs_of b hs fun w e => ?_)
    have : b ∈ Finset.univ.image (Pipeline.arrRef spec0) := Finset.mem_image.mpr ⟨w, Finset.mem_univ _, e⟩
    rw [arrRefs_eq, List.mem_toFinset] at this
    simp only [List.mem_cons, List.mem_nil_iff, or_false] at this
    simp only [inRefs, outRefs, List.mem_toFinset, List.mem_cons, List.mem_nil_iff, or_false, not_or] at hb ho
    tauto

/-- The operations after the region run within the output arrays and the bypassing buffers. -/
theorem tail_sub : ∀ op ∈ (hostOps1 : List (HloOp τ sig (Elt F))), op.bufs ⊆ tailS := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals
    intro b hb
    simp only [StableHlo.nullary_bufs, StableHlo.unary_bufs, StableHlo.binary_bufs, StableHlo.reshape_bufs, Finset.mem_insert, Finset.mem_singleton] at hb
    rcases hb with rfl | rfl | rfl <;> exact mem_tailS_of _ rfl (by decide)

/-- What the buffers hold when the region is left: the arrays at their final contents, every other buffer as it was
    when the region was entered. -/
abbrev Uexit (c : Dev nD) : Valuation τ sig (Elt F) :=
  Pipeline.withArrays spec0 c (V0 m c) (fun w => (dats 0 c).arrAt w cfg0.N)

theorem Uexit_rest (c : Dev nD) (b : Ref sig .tc) (hb : b ∈ Pipeline.restRefs sig spec0) :
    Uexit m dats c (Proc.devRef .tc b) = V0 m c (Proc.devRef .tc b) :=
  Pipeline.withArrays_of_ne spec0 c (V0 m c) _ b fun w e => (Finset.mem_sdiff.mp hb).2 (Finset.mem_image.mpr ⟨w, Finset.mem_univ _, e⟩)

set_option maxHeartbeats 1000000 in
theorem Uexit_out0 (c : Dev nD) : Uexit m dats c (Proc.devRef .tc main_v6_0) = (dats 0 c).arrAt 6 cfg0.N :=
  withArrays_out c (V0 m c) (fun w => (dats 0 c).arrAt w cfg0.N) 6 (by decide)
set_option maxHeartbeats 1000000 in
theorem Uexit_out1 (c : Dev nD) : Uexit m dats c (Proc.devRef .tc main_v6_1) = (dats 0 c).arrAt 7 cfg0.N :=
  withArrays_out c (V0 m c) (fun w => (dats 0 c).arrAt w cfg0.N) 7 (by decide)
set_option maxHeartbeats 1000000 in
theorem Uexit_out2 (c : Dev nD) : Uexit m dats c (Proc.devRef .tc main_v6_2) = (dats 0 c).arrAt 8 cfg0.N :=
  withArrays_out c (V0 m c) (fun w => (dats 0 c).arrAt w cfg0.N) 8 (by decide)
set_option maxHeartbeats 1000000 in
theorem Uexit_out3 (c : Dev nD) : Uexit m dats c (Proc.devRef .tc main_v6_3) = (dats 0 c).arrAt 9 cfg0.N :=
  withArrays_out c (V0 m c) (fun w => (dats 0 c).arrAt w cfg0.N) 9 (by decide)
set_option maxHeartbeats 1000000 in
theorem Uexit_out4 (c : Dev nD) : Uexit m dats c (Proc.devRef .tc main_v6_4) = (dats 0 c).arrAt 10 cfg0.N :=
  withArrays_out c (V0 m c) (fun w => (dats 0 c).arrAt w cfg0.N) 10 (by decide)
set_option maxHeartbeats 1000000 in
theorem Uexit_out5 (c : Dev nD) : Uexit m dats c (Proc.devRef .tc main_v6_5) = (dats 0 c).arrAt 11 cfg0.N :=
  withArrays_out c (V0 m c) (fun w => (dats 0 c).arrAt w cfg0.N) 11 (by decide)

/-- Six points-tos in a chain, rewritten one by one. -/
theorem chain6_congr {a0 a1 a2 a3 a4 a5 b0 b1 b2 b3 b4 b5 : sProp 𝕄} (h0 : a0 = b0) (h1 : a1 = b1) (h2 : a2 = b2) (h3 : a3 = b3)
    (h4 : a4 = b4) (h5 : a5 = b5) : iprop(a0 ∗ a1 ∗ a2 ∗ a3 ∗ a4 ∗ a5) = iprop(b0 ∗ b1 ∗ b2 ∗ b3 ∗ b4 ∗ b5) := by
  subst h0 h1 h2 h3 h4 h5; rfl

/-- The output arrays and the bypassing buffers, held at the region-exit contents. -/
theorem held_exit (c : Dev nD) :
    (StableHlo.held (c.tc : Thread nD τ) tailS (Uexit m dats c) : sProp 𝕄)
      = iprop((pt c main_v6_0 fullShare ((dats 0 c).arrAt 6 cfg0.N) ∗ pt c main_v6_1 fullShare ((dats 0 c).arrAt 7 cfg0.N) ∗ pt c main_v6_2 fullShare ((dats 0 c).arrAt 8 cfg0.N) ∗ pt c main_v6_3 fullShare ((dats 0 c).arrAt 9 cfg0.N) ∗ pt c main_v6_4 fullShare ((dats 0 c).arrAt 10 cfg0.N) ∗ pt c main_v6_5 fullShare ((dats 0 c).arrAt 11 cfg0.N))
        ∗ Pipeline.unscopedRest spec0 c (V m c)) := by
  rw [held_tailS]
  refine congrArg₂ (fun a b : sProp 𝕄 => iprop(a ∗ b)) (chain6_congr ?_ ?_ ?_ ?_ ?_ ?_) ?_
  · exact congrArg (pt c main_v6_0 fullShare) (Uexit_out0 m dats c)
  · exact congrArg (pt c main_v6_1 fullShare) (Uexit_out1 m dats c)
  · exact congrArg (pt c main_v6_2 fullShare) (Uexit_out2 m dats c)
  · exact congrArg (pt c main_v6_3 fullShare) (Uexit_out3 m dats c)
  · exact congrArg (pt c main_v6_4 fullShare) (Uexit_out4 m dats c)
  · exact congrArg (pt c main_v6_5 fullShare) (Uexit_out5 m dats c)
  · unfold Pipeline.unscopedRest
    exact bigSep_congr fun b hb => by
      show (((c.tc : Thread nD τ).loc b) ↦{fullShare} Uexit m dats c (Proc.devRef .tc b) : sProp 𝕄) = _
      rw [Uexit_rest m dats c b hb]

/-- The same after the operations that follow the region: they write no array. -/
theorem held_after (c : Dev nD) :
    (StableHlo.held (c.tc : Thread nD τ) tailS (StableHlo.after ([hostOps1] : List (List (HloOp τ sig (Elt F)))).flatten (Uexit m dats c)) : sProp 𝕄)
      = iprop((pt c main_v6_0 fullShare ((dats 0 c).arrAt 6 cfg0.N) ∗ pt c main_v6_1 fullShare ((dats 0 c).arrAt 7 cfg0.N) ∗ pt c main_v6_2 fullShare ((dats 0 c).arrAt 8 cfg0.N) ∗ pt c main_v6_3 fullShare ((dats 0 c).arrAt 9 cfg0.N) ∗ pt c main_v6_4 fullShare ((dats 0 c).arrAt 10 cfg0.N) ∗ pt c main_v6_5 fullShare ((dats 0 c).arrAt 11 cfg0.N))
        ∗ Pipeline.unscopedRest spec0 c (Pipeline.afterTail₀ cfgs dats 0 (V0 m) [hostOps1] c)) := by
  have hk : ∀ w : Fin 12, StableHlo.after ([hostOps1] : List (List (HloOp τ sig (Elt F)))).flatten (Uexit m dats c) (Proc.devRef .tc (Pipeline.arrRef spec0 w))
      = Uexit m dats c (Proc.devRef .tc (Pipeline.arrRef spec0 w)) := fun w =>
    StableHlo.after_of_forall_not_mem _ _ fun op hop => by
      simp only [List.flatten_cons, List.flatten_nil, List.append_nil] at hop
      exact tail_keeps op hop w
  rw [held_tailS]
  refine congrArg₂ (fun a b : sProp 𝕄 => iprop(a ∗ b)) (chain6_congr ?_ ?_ ?_ ?_ ?_ ?_) rfl
  · exact congrArg (pt c main_v6_0 fullShare) ((hk 6).trans (Uexit_out0 m dats c))
  · exact congrArg (pt c main_v6_1 fullShare) ((hk 7).trans (Uexit_out1 m dats c))
  · exact congrArg (pt c main_v6_2 fullShare) ((hk 8).trans (Uexit_out2 m dats c))
  · exact congrArg (pt c main_v6_3 fullShare) ((hk 9).trans (Uexit_out3 m dats c))
  · exact congrArg (pt c main_v6_4 fullShare) ((hk 10).trans (Uexit_out4 m dats c))
  · exact congrArg (pt c main_v6_5 fullShare) ((hk 11).trans (Uexit_out5 m dats c))

set_option backward.isDefEq.respectTransparency.types false in
set_option maxHeartbeats 2000000 in
/-- THE OPERATIONS AFTER THE REGION: from the region's exit — the arrays at their final contents, the bypassing buffers as
    at the entry — the operations run and hand back the arrays as they were and the bypassing buffers at their
    contents after the operations. -/
theorem htail (c : Dev nD) (hq : (dats 0 c).q = qs) (Q' : PUnit → sProp 𝕄) :
    iprop((iprop((dats 0 c).arrays ((dats 0 c).arrAt · cfg0.N)
              ∗ Pipeline.unscopedRestP Pipeline.Prefetch.none spec0 c (Pipeline.afterTail₀ cfgs dats 0 (V0 m) [hostOps1] c)) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_chain dats c hq, Pipeline.unscopedRestP_none, Pipeline.unscopedRestP_none]
  iintro ⟨Hk, Hb, ⟨Hl, Hr, H4, H5, Hv0, Hv1, H60, H61, H62, H63, H64, H65⟩, Hrest⟩
  ihave Hh := (Entails.of_eq (held_exit m dats c).symm) $$ [H60 H61 H62 H63 H64 H65 Hrest]
  · isplitr [Hrest]
    · isplitl [H60]; · iexact H60
      isplitl [H61]; · iexact H61
      isplitl [H62]; · iexact H62
      isplitl [H63]; · iexact H63
      isplitl [H64]; · iexact H64
      iexact H65
    iexact Hrest
  ihave Hw := (Pipeline.wp_seqs_then (fun q => (cfgs q).toPCfg (Val := Elt F)) defs₀ Variants.none c tailS [] (K := Q') [hostOps1]
      (fun ops ho op h => by
        simp only [List.mem_cons, List.mem_nil_iff, or_false] at ho; subst ho; exact tail_sub op h)
      (fun ops ho op h => by
        simp only [List.mem_cons, List.mem_nil_iff, or_false] at ho; subst ho
        exact (List.forall_iff_forall_mem.mp hostOps1_fresh) op h)
      (Uexit m dats c)) $$ [Hb Hh]
  · isplitl [Hb]; · iexact Hb
    iexact Hh
  iapply Hw
  iintro ⟨Hb, Hh⟩
  rw [Pipeline.chain_nil, wp_pure]
  ihave Hh := (Entails.of_eq (held_after m dats c)) $$ Hh
  imodintro
  iapply Hk
  icases Hh with ⟨⟨H60, H61, H62, H63, H64, H65⟩, Hrest⟩
  isplitr [Hrest]
  · isplitl [Hl]; · iexact Hl
    isplitl [Hr]; · iexact Hr
    isplitl [H4]; · iexact H4
    isplitl [H5]; · iexact H5
    isplitl [Hv0]; · iexact Hv0
    isplitl [Hv1]; · iexact Hv1
    isplitl [H60]; · iexact H60
    isplitl [H61]; · iexact H61
    isplitl [H62]; · iexact H62
    isplitl [H63]; · iexact H63
    isplitl [H64]; · iexact H64
    iexact H65
  iexact Hrest

/-! ## The run -/

set_option backward.isDefEq.respectTransparency.types false in
set_option maxHeartbeats 2000000 in
/-- THE FRAME RUN of the kernel program for proof data that deal the feature array's share in halves to its two windows:
    every weakly fair execution of @main terminates, nothing faulting, every array of the pipeline ends at what the
    library computes from the proof data and every other unscoped buffer at its contents after the operations that
    follow the region. -/
theorem run_frame_shared
    (hbody : ∀ c, Pipeline.BodyObligationLoose (dats 0 c) (defs₀ (F := F)) Variants.none () Set.univ)
    (hq : ∀ c, (dats 0 c).q = qs) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m dats c (hq c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m dats c (hq c) Q')
    (QY := fun c s => ∀ b ∈ Pipeline.restRefsP sig Pipeline.Prefetch.none spec0, s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Pipeline.afterTail₀ cfgs dats 0 (V0 m) [hostOps1] c) s')
      isplitl [HU] <;> iassumption)
    (hQ := fun s h c => ⟨(h c).1, Pipeline.rest_of_restP Pipeline.Prefetch.none spec0 (fun k => k.elim0) c (Pipeline.afterTail₀ cfgs dats 0 (V0 m) [hostOps1] c) s (fun k => k.elim0) (h c).2.1 (h c).2.2⟩)

end Cert.Kernel.Hand

end
-- ==== Proof.BitsFrameRun.lean ====
/-
  The run of the kernel program and its frame, for any float instance: the run instantiates the launch for shared
  arrays at the proof data of the frame; the two argument arrays end as they began — the feature array is an input
  window's array, which the pipeline never writes, and the labels bypass the region and no host operation writes them.
-/
import proofs.«145610_j47124381171853_2_alg».proof.Proof.BitsFrame
import proofs.«145610_j47124381171853_2_alg».proof.Proof.BitsHandLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the compiled mesh, for any float values, from any memory with zero counters: every weakly fair execution of
    @main terminates, nothing faulting; every array of the pipeline ends at what the library computes from the proof
    data, every other unscoped buffer at its contents after the host operations that follow the region. -/
theorem run_main : θ_run defs (onTc (τ := τ) (main (F := F))) (s₀ m ρ)
    (Pipeline.FramePost cfgs (dats m) 0 (Pipeline.afterTail₀ cfgs (dats m) 0 (V0 m) [hostOps1])) :=
  run_frame_shared m ρ (dats m) (fun c => (body_obligation m c).loose) (q_eq m) (fun _ _ => rfl) (A_eq m) (hin m) (hout m)

/-- No host operation before the region writes an argument. -/
theorem pre_keeps (b : Ref sig .tc) (hb : b = main_arg0 ∨ b = main_arg1) :
    ∀ op ∈ (hostOps0 : List (HloOp τ sig (Elt F))), Proc.devRef .tc b ∉ op.writes := by
  intro op hop
  simp only [hostOps0, List.mem_cons, List.mem_nil_iff, or_false] at hop
  rcases hop with rfl | rfl | rfl | rfl | rfl | rfl | rfl <;> rcases hb with rfl | rfl <;>
    simp only [StableHlo.nullary_writes, StableHlo.unary_writes, StableHlo.binary_writes, StableHlo.reshape_writes, Finset.mem_singleton] <;>
    exact StableHlo.devRef_ne_of_ne (by decide)

/-- Nor does one after it. -/
theorem post_keeps_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

theorem V_main_arg0 (c : Dev nD) : V m c main_arg0 = m ((c : Thread nD τ).loc main_arg0) :=
  StableHlo.after_of_forall_not_mem (b := Proc.devRef .tc main_arg0) _ _ fun op hop => by
    simp only [List.flatten_cons, List.flatten_nil, List.append_nil] at hop
    exact pre_keeps main_arg0 (Or.inl rfl) op hop
theorem V_main_arg1 (c : Dev nD) : V m c main_arg1 = m ((c : Thread nD τ).loc main_arg1) :=
  StableHlo.after_of_forall_not_mem (b := Proc.devRef .tc main_arg1) _ _ fun op hop => by
    simp only [List.flatten_cons, List.flatten_nil, List.append_nil] at hop
    exact pre_keeps main_arg1 (Or.inr rfl) op hop

/-- The labels bypass the region. -/
theorem arg1_rest : main_arg1 ∈ Pipeline.restRefs sig spec0 := Pipeline.mem_restRefs_of main_arg1 rfl (by decide)

/-- And end as they began. -/
theorem afterTail_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ fun op hop => by
      simp only [List.flatten_cons, List.flatten_nil, List.append_nil] at hop
      exact post_keeps_arg1 op hop,
    Pipeline.withArrays_of_ne spec0 c (V0 m c) _ main_arg1 (by decide)]
  exact V_main_arg1 m c

/-- THE FRAME: the program runs to the end, faults nowhere, and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 arg1_rest).trans (afterTail_arg1 m c)⟩) (run_main m ρ)

end Cert.Kernel.Hand

end
-- ==== Proof.FinalArrays.lean ====
/-
  The kernel's six output arrays after the whole run, each as one function of the index, from the pipeline's proof
  data. Output window w has blocks of 1024 rows, its block index at grid point t is (t / 16, 0), and it is written
  back exactly at the points with t % 16 = 15, the last column tile of a row tile. So row r of the array was written
  by the point 16·(r / 1024) + 15, from row r % 1024 of the column the body left there; these points' blocks cover
  the array. Stated over any proof data whose buffer for the window after point t is the column of a family `o`
  of output columns, for every float instance.
-/
import proofs.«145610_j47124381171853_2_alg».proof.Proof.FrameKit
import proofs.«145610_j47124381171853_2_alg».proof.Proof.Model
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable {c : Dev nD} (dat : Dat τ (Elt F) Unit ℕ (UR sig nD τ) ℕ cfg0 c) (o : Fin cfg0.N → Cert.KernelIdeal.Model.Outs F)

/-- Output window 6's block index at each of the grid's points. -/
theorem out_idx_facts6 : ∀ t : Fin cfg0.N, win0_6.index t (0 : Fin 2) = t.val / 16 ∧ win0_6.index t (1 : Fin 2) = 0 :=
  (by decide +kernel : ∀ t : Fin grid0.N, _)

/-- Output window 7's block index at each of the grid's points. -/
theorem out_idx_facts7 : ∀ t : Fin cfg0.N, win0_7.index t (0 : Fin 2) = t.val / 16 ∧ win0_7.index t (1 : Fin 2) = 0 :=
  (by decide +kernel : ∀ t : Fin grid0.N, _)

/-- Output window 8's block index at each of the grid's points. -/
theorem out_idx_facts8 : ∀ t : Fin cfg0.N, win0_8.index t (0 : Fin 2) = t.val / 16 ∧ win0_8.index t (1 : Fin 2) = 0 :=
  (by decide +kernel : ∀ t : Fin grid0.N, _)

/-- Output window 9's block index at each of the grid's points. -/
theorem out_idx_facts9 : ∀ t : Fin cfg0.N, win0_9.index t (0 : Fin 2) = t.val / 16 ∧ win0_9.index t (1 : Fin 2) = 0 :=
  (by decide +kernel : ∀ t : Fin grid0.N, _)

/-- Output window 10's block index at each of the grid's points. -/
theorem out_idx_facts10 : ∀ t : Fin cfg0.N, win0_10.index t (0 : Fin 2) = t.val / 16 ∧ win0_10.index t (1 : Fin 2) = 0 :=
  (by decide +kernel : ∀ t : Fin grid0.N, _)

/-- Output window 11's block index at each of the grid's points. -/
theorem out_idx_facts11 : ∀ t : Fin cfg0.N, win0_11.index t (0 : Fin 2) = t.val / 16 ∧ win0_11.index t (1 : Fin 2) = 0 :=
  (by decide +kernel : ∀ t : Fin grid0.N, _)

/-- An index of output array 0 is in point `t`'s block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v6_0).slice (win0_6.rect t)).set ↔ _
  rw [View.set_slice_whole, Rect.mem_set_unit]
  exact Iff.rfl

/-- The first output array after the run: row r holds row r % 1024 of the posLogit column the body left at the last column tile of r's row tile. -/
theorem final6_of (hafter : ∀ t, dat.after 6 t = (o t).posLogit) :
    dat.arrAt 6 cfg0.N = fun idx : S8192x1.Idx =>
      (o ⟨16 * ((idx 0).val / 1024) + 15, by have h : (idx 0).val < 8192 := (idx 0).isLt; have : cfg0.N = 128 := N_0; omega⟩).posLogit
        (ix2 ⟨(idx 0).val % 1024, Nat.mod_lt _ (by decide)⟩ (idx 1)) := by
  refine dat.arrAt_eq_of_cover 6 _ (fun t hf => ?_) (fun i => ?_)
  · have ht : t.val % 16 = 15 := (flush0_6 t).1 hf
    have hN : cfg0.N = 128 := N_0
    have htl := t.isLt
    obtain ⟨i0, i1⟩ := out_idx_facts6 t
    show (cfg0.win 6).cut (grid0.coords t) (dat.after 6 t) = _
    rw [hafter]
    funext j
    have hj0 : (j 0).val < 1024 := (j 0).isLt
    have hj1 : (j 1).val < 1 := (j 1).isLt
    have e0 : ((((cfg0.win 6).blk t).view.emb j) 0).val = win0_6.index t (0 : Fin 2) * 1024 + 1 * (j 0).val := rfl
    have e1 : ((((cfg0.win 6).blk t).view.emb j) 1).val = win0_6.index t (1 : Fin 2) * 1 + 1 * (j 1).val := rfl
    rw [i0] at e0
    rw [i1] at e1
    refine congrArg₂ (fun (t' : Fin cfg0.N) (j' : S1024x1.Idx) => (o t').posLogit j') (Fin.ext ?_) (funext fun a => Fin.ext ?_)
    · show t.val = 16 * (((((cfg0.win 6).blk t).view.emb j) 0).val / 1024) + 15
      rw [e0]; omega
    · match a with
      | ⟨0, _⟩ =>
        show (j 0).val = ((((cfg0.win 6).blk t).view.emb j) 0).val % 1024
        rw [e0]; omega
      | ⟨1, _⟩ =>
        show (j 1).val = ((((cfg0.win 6).blk t).view.emb j) 1).val
        rw [e1]; omega
  · have hi0 : (i 0).val < 8192 := (i 0).isLt
    have hi1 : (i 1).val < 1 := (i 1).isLt
    have hN : cfg0.N = 128 := N_0
    refine ⟨⟨16 * ((i 0).val / 1024) + 15, by omega⟩, (flush0_6 _).2 (by show (16 * ((i 0).val / 1024) + 15) % 16 = 15; omega), ?_⟩
    obtain ⟨i0, i1⟩ := out_idx_facts6 ⟨16 * ((i 0).val / 1024) + 15, by omega⟩
    rw [mem_blk6]
    intro a
    match a with
    | ⟨0, _⟩ =>
      show win0_6.index _ (0 : Fin 2) * 1024 ≤ (i 0).val ∧ (i 0).val < win0_6.index _ (0 : Fin 2) * 1024 + 1024
      rw [i0]
      show (16 * ((i 0).val / 1024) + 15) / 16 * 1024 ≤ (i 0).val ∧ (i 0).val < (16 * ((i 0).val / 1024) + 15) / 16 * 1024 + 1024
      omega
    | ⟨1, _⟩ =>
      show win0_6.index _ (1 : Fin 2) * 1 ≤ (i 1).val ∧ (i 1).val < win0_6.index _ (1 : Fin 2) * 1 + 1
      rw [i1]; omega

/-- An index of output array 1 is in point `t`'s block iff each coordinate is in the block's range on its axis. -/
theorem mem_blk7 (t : Fin cfg0.N) (i : S8192x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v6_1).slice (win0_7.rect t)).set ↔ _
  rw [View.set_slice_whole, Rect.mem_set_unit]
  exact Iff.rfl

/-- The second output array after the run, likewise from the negLogit columns. -/
theorem final7_of (hafter : ∀ t, dat.after 7 t = (o t).negLogit) :
    dat.arrAt 7 cfg0.N = fun idx : S8192x1.Idx =>
      (o ⟨16 * ((idx 0).val / 1024) + 15, by have h : (idx 0).val < 8192 := (idx 0).isLt; have : cfg0.N = 128 := N_0; omega⟩).negLogit
        (ix2 ⟨(idx 0).val % 1024, Nat.mod_lt _ (by decide)⟩ (idx 1)) := by
  refine dat.arrAt_eq_of_cover 7 _ (fun t hf => ?_) (fun i => ?_)
  · have ht : t.val % 16 = 15 := (flush0_7 t).1 hf
    have hN : cfg0.N = 128 := N_0
    have htl := t.isLt
    obtain ⟨i0, i1⟩ := out_idx_facts7 t
    show (cfg0.win 7).cut (grid0.coords t) (dat.after 7 t) = _
    rw [hafter]
    funext j
    have hj0 : (j 0).val < 1024 := (j 0).isLt
    have hj1 : (j 1).val < 1 := (j 1).isLt
    have e0 : ((((cfg0.win 7).blk t).view.emb j) 0).val = win0_7.index t (0 : Fin 2) * 1024 + 1 * (j 0).val := rfl
    have e1 : ((((cfg0.win 7).blk t).view.emb j) 1).val = win0_7.index t (1 : Fin 2) * 1 + 1 * (j 1).val := rfl
    rw [i0] at e0
    rw [i1] at e1
    refine congrArg₂ (fun (t' : Fin cfg0.N) (j' : S1024x1.Idx) => (o t').negLogit j') (Fin.ext ?_) (funext fun a => Fin.ext ?_)
    · show t.val = 16 * (((((cfg0.win 7).blk t).view.emb j) 0).val / 1024) + 15
      rw [e0]; omega
    · match a with
      | ⟨0, _⟩ =>
        show (j 0).val = ((((cfg0.win 7).blk t).view.emb j) 0).val % 1024
        rw [e0]; omega
      | ⟨1, _⟩ =>
        show (j 1).val = ((((cfg0.win 7).blk t).view.emb j) 1).val
        rw [e1]; omega
  · have hi0 : (i 0).val < 8192 := (i 0).isLt
    have hi1 : (i 1).val < 1 := (i 1).isLt
    have hN : cfg0.N = 128 := N_0
    refine ⟨⟨16 * ((i 0).val / 1024) + 15, by omega⟩, (flush0_7 _).2 (by show (16 * ((i 0).val / 1024) + 15) % 16 = 15; omega), ?_⟩
    obtain ⟨i0, i1⟩ := out_idx_facts7 ⟨16 * ((i 0).val / 1024) + 15, by omega⟩
    rw [mem_blk7]
    intro a
    match a with
    | ⟨0, _⟩ =>
      show win0_7.index _ (0 : Fin 2) * 1024 ≤ (i 0).val ∧ (i 0).val < win0_7.index _ (0 : Fin 2) * 1024 + 1024
      rw [i0]
      show (16 * ((i 0).val / 1024) + 15) / 16 * 1024 ≤ (i 0).val ∧ (i 0).val < (16 * ((i 0).val / 1024) + 15) / 16 * 1024 + 1024
      omega
    | ⟨1, _⟩ =>
      show win0_7.index _ (1 : Fin 2) * 1 ≤ (i 1).val ∧ (i 1).val < win0_7.index _ (1 : Fin 2) * 1 + 1
      rw [i1]; omega

/-- An index of output array 2 is in point `t`'s block iff each coordinate is in the block's range on its axis. -/
theorem mem_blk8 (t : Fin cfg0.N) (i : S8192x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v6_2).slice (win0_8.rect t)).set ↔ _
  rw [View.set_slice_whole, Rect.mem_set_unit]
  exact Iff.rfl

/-- The third output array after the run, likewise from the posDsum columns. -/
theorem final8_of (hafter : ∀ t, dat.after 8 t = (o t).posDsum) :
    dat.arrAt 8 cfg0.N = fun idx : S8192x1.Idx =>
      (o ⟨16 * ((idx 0).val / 1024) + 15, by have h : (idx 0).val < 8192 := (idx 0).isLt; have : cfg0.N = 128 := N_0; omega⟩).posDsum
        (ix2 ⟨(idx 0).val % 1024, Nat.mod_lt _ (by decide)⟩ (idx 1)) := by
  refine dat.arrAt_eq_of_cover 8 _ (fun t hf => ?_) (fun i => ?_)
  · have ht : t.val % 16 = 15 := (flush0_8 t).1 hf
    have hN : cfg0.N = 128 := N_0
    have htl := t.isLt
    obtain ⟨i0, i1⟩ := out_idx_facts8 t
    show (cfg0.win 8).cut (grid0.coords t) (dat.after 8 t) = _
    rw [hafter]
    funext j
    have hj0 : (j 0).val < 1024 := (j 0).isLt
    have hj1 : (j 1).val < 1 := (j 1).isLt
    have e0 : ((((cfg0.win 8).blk t).view.emb j) 0).val = win0_8.index t (0 : Fin 2) * 1024 + 1 * (j 0).val := rfl
    have e1 : ((((cfg0.win 8).blk t).view.emb j) 1).val = win0_8.index t (1 : Fin 2) * 1 + 1 * (j 1).val := rfl
    rw [i0] at e0
    rw [i1] at e1
    refine congrArg₂ (fun (t' : Fin cfg0.N) (j' : S1024x1.Idx) => (o t').posDsum j') (Fin.ext ?_) (funext fun a => Fin.ext ?_)
    · show t.val = 16 * (((((cfg0.win 8).blk t).view.emb j) 0).val / 1024) + 15
      rw [e0]; omega
    · match a with
      | ⟨0, _⟩ =>
        show (j 0).val = ((((cfg0.win 8).blk t).view.emb j) 0).val % 1024
        rw [e0]; omega
      | ⟨1, _⟩ =>
        show (j 1).val = ((((cfg0.win 8).blk t).view.emb j) 1).val
        rw [e1]; omega
  · have hi0 : (i 0).val < 8192 := (i 0).isLt
    have hi1 : (i 1).val < 1 := (i 1).isLt
    have hN : cfg0.N = 128 := N_0
    refine ⟨⟨16 * ((i 0).val / 1024) + 15, by omega⟩, (flush0_8 _).2 (by show (16 * ((i 0).val / 1024) + 15) % 16 = 15; omega), ?_⟩
    obtain ⟨i0, i1⟩ := out_idx_facts8 ⟨16 * ((i 0).val / 1024) + 15, by omega⟩
    rw [mem_blk8]
    intro a
    match a with
    | ⟨0, _⟩ =>
      show win0_8.index _ (0 : Fin 2) * 1024 ≤ (i 0).val ∧ (i 0).val < win0_8.index _ (0 : Fin 2) * 1024 + 1024
      rw [i0]
      show (16 * ((i 0).val / 1024) + 15) / 16 * 1024 ≤ (i 0).val ∧ (i 0).val < (16 * ((i 0).val / 1024) + 15) / 16 * 1024 + 1024
      omega
    | ⟨1, _⟩ =>
      show win0_8.index _ (1 : Fin 2) * 1 ≤ (i 1).val ∧ (i 1).val < win0_8.index _ (1 : Fin 2) * 1 + 1
      rw [i1]; omega

/-- An index of output array 3 is in point `t`'s block iff each coordinate is in the block's range on its axis. -/
theorem mem_blk9 (t : Fin cfg0.N) (i : S8192x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v6_3).slice (win0_9.rect t)).set ↔ _
  rw [View.set_slice_whole, Rect.mem_set_unit]
  exact Iff.rfl

/-- The fourth output array after the run, likewise from the negDsum columns. -/
theorem final9_of (hafter : ∀ t, dat.after 9 t = (o t).negDsum) :
    dat.arrAt 9 cfg0.N = fun idx : S8192x1.Idx =>
      (o ⟨16 * ((idx 0).val / 1024) + 15, by have h : (idx 0).val < 8192 := (idx 0).isLt; have : cfg0.N = 128 := N_0; omega⟩).negDsum
        (ix2 ⟨(idx 0).val % 1024, Nat.mod_lt _ (by decide)⟩ (idx 1)) := by
  refine dat.arrAt_eq_of_cover 9 _ (fun t hf => ?_) (fun i => ?_)
  · have ht : t.val % 16 = 15 := (flush0_9 t).1 hf
    have hN : cfg0.N = 128 := N_0
    have htl := t.isLt
    obtain ⟨i0, i1⟩ := out_idx_facts9 t
    show (cfg0.win 9).cut (grid0.coords t) (dat.after 9 t) = _
    rw [hafter]
    funext j
    have hj0 : (j 0).val < 1024 := (j 0).isLt
    have hj1 : (j 1).val < 1 := (j 1).isLt
    have e0 : ((((cfg0.win 9).blk t).view.emb j) 0).val = win0_9.index t (0 : Fin 2) * 1024 + 1 * (j 0).val := rfl
    have e1 : ((((cfg0.win 9).blk t).view.emb j) 1).val = win0_9.index t (1 : Fin 2) * 1 + 1 * (j 1).val := rfl
    rw [i0] at e0
    rw [i1] at e1
    refine congrArg₂ (fun (t' : Fin cfg0.N) (j' : S1024x1.Idx) => (o t').negDsum j') (Fin.ext ?_) (funext fun a => Fin.ext ?_)
    · show t.val = 16 * (((((cfg0.win 9).blk t).view.emb j) 0).val / 1024) + 15
      rw [e0]; omega
    · match a with
      | ⟨0, _⟩ =>
        show (j 0).val = ((((cfg0.win 9).blk t).view.emb j) 0).val % 1024
        rw [e0]; omega
      | ⟨1, _⟩ =>
        show (j 1).val = ((((cfg0.win 9).blk t).view.emb j) 1).val
        rw [e1]; omega
  · have hi0 : (i 0).val < 8192 := (i 0).isLt
    have hi1 : (i 1).val < 1 := (i 1).isLt
    have hN : cfg0.N = 128 := N_0
    refine ⟨⟨16 * ((i 0).val / 1024) + 15, by omega⟩, (flush0_9 _).2 (by show (16 * ((i 0).val / 1024) + 15) % 16 = 15; omega), ?_⟩
    obtain ⟨i0, i1⟩ := out_idx_facts9 ⟨16 * ((i 0).val / 1024) + 15, by omega⟩
    rw [mem_blk9]
    intro a
    match a with
    | ⟨0, _⟩ =>
      show win0_9.index _ (0 : Fin 2) * 1024 ≤ (i 0).val ∧ (i 0).val < win0_9.index _ (0 : Fin 2) * 1024 + 1024
      rw [i0]
      show (16 * ((i 0).val / 1024) + 15) / 16 * 1024 ≤ (i 0).val ∧ (i 0).val < (16 * ((i 0).val / 1024) + 15) / 16 * 1024 + 1024
      omega
    | ⟨1, _⟩ =>
      show win0_9.index _ (1 : Fin 2) * 1 ≤ (i 1).val ∧ (i 1).val < win0_9.index _ (1 : Fin 2) * 1 + 1
      rw [i1]; omega

/-- An index of output array 4 is in point `t`'s block iff each coordinate is in the block's range on its axis. -/
theorem mem_blk10 (t : Fin cfg0.N) (i : S8192x1.Idx) :
    i ∈ ((cfg0.win 10).blk t).view.set ↔ ∀ a : Fin 2, win0_10.index t a * S1024x1.size a ≤ (i a).val ∧ (i a).val < win0_10.index t a * S1024x1.size a + S1024x1.size a := by
  show i ∈ ((View.whole main_v6_4).slice (win0_10.rect t)).set ↔ _
  rw [View.set_slice_whole, Rect.mem_set_unit]
  exact Iff.rfl

/-- The fifth output array after the run, likewise from the posCnt columns. -/
theorem final10_of (hafter : ∀ t, dat.after 10 t = (o t).posCnt) :
    dat.arrAt 10 cfg0.N = fun idx : S8192x1.Idx =>
      (o ⟨16 * ((idx 0).val / 1024) + 15, by have h : (idx 0).val < 8192 := (idx 0).isLt; have : cfg0.N = 128 := N_0; omega⟩).posCnt
        (ix2 ⟨(idx 0).val % 1024, Nat.mod_lt _ (by decide)⟩ (idx 1)) := by
  refine dat.arrAt_eq_of_cover 10 _ (fun t hf => ?_) (fun i => ?_)
  · have ht : t.val % 16 = 15 := (flush0_10 t).1 hf
    have hN : cfg0.N = 128 := N_0
    have htl := t.isLt
    obtain ⟨i0, i1⟩ := out_idx_facts10 t
    show (cfg0.win 10).cut (grid0.coords t) (dat.after 10 t) = _
    rw [hafter]
    funext j
    have hj0 : (j 0).val < 1024 := (j 0).isLt
    have hj1 : (j 1).val < 1 := (j 1).isLt
    have e0 : ((((cfg0.win 10).blk t).view.emb j) 0).val = win0_10.index t (0 : Fin 2) * 1024 + 1 * (j 0).val := rfl
    have e1 : ((((cfg0.win 10).blk t).view.emb j) 1).val = win0_10.index t (1 : Fin 2) * 1 + 1 * (j 1).val := rfl
    rw [i0] at e0
    rw [i1] at e1
    refine congrArg₂ (fun (t' : Fin cfg0.N) (j' : S1024x1.Idx) => (o t').posCnt j') (Fin.ext ?_) (funext fun a => Fin.ext ?_)
    · show t.val = 16 * (((((cfg0.win 10).blk t).view.emb j) 0).val / 1024) + 15
      rw [e0]; omega
    · match a with
      | ⟨0, _⟩ =>
        show (j 0).val = ((((cfg0.win 10).blk t).view.emb j) 0).val % 1024
        rw [e0]; omega
      | ⟨1, _⟩ =>
        show (j 1).val = ((((cfg0.win 10).blk t).view.emb j) 1).val
        rw [e1]; omega
  · have hi0 : (i 0).val < 8192 := (i 0).isLt
    have hi1 : (i 1).val < 1 := (i 1).isLt
    have hN : cfg0.N = 128 := N_0
    refine ⟨⟨16 * ((i 0).val / 1024) + 15, by omega⟩, (flush0_10 _).2 (by show (16 * ((i 0).val / 1024) + 15) % 16 = 15; omega), ?_⟩
    obtain ⟨i0, i1⟩ := out_idx_facts10 ⟨16 * ((i 0).val / 1024) + 15, by omega⟩
    rw [mem_blk10]
    intro a
    match a with
    | ⟨0, _⟩ =>
      show win0_10.index _ (0 : Fin 2) * 1024 ≤ (i 0).val ∧ (i 0).val < win0_10.index _ (0 : Fin 2) * 1024 + 1024
      rw [i0]
      show (16 * ((i 0).val / 1024) + 15) / 16 * 1024 ≤ (i 0).val ∧ (i 0).val < (16 * ((i 0).val / 1024) + 15) / 16 * 1024 + 1024
      omega
    | ⟨1, _⟩ =>
      show win0_10.index _ (1 : Fin 2) * 1 ≤ (i 1).val ∧ (i 1).val < win0_10.index _ (1 : Fin 2) * 1 + 1
      rw [i1]; omega

/-- An index of output array 5 is in point `t`'s block iff each coordinate is in the block's range on its axis. -/
theorem mem_blk11 (t : Fin cfg0.N) (i : S8192x1.Idx) :
    i ∈ ((cfg0.win 11).blk t).view.set ↔ ∀ a : Fin 2, win0_11.index t a * S1024x1.size a ≤ (i a).val ∧ (i a).val < win0_11.index t a * S1024x1.size a + S1024x1.size a := by
  show i ∈ ((View.whole main_v6_5).slice (win0_11.rect t)).set ↔ _
  rw [View.set_slice_whole, Rect.mem_set_unit]
  exact Iff.rfl

/-- The sixth output array after the run, likewise from the negCnt columns. -/
theorem final11_of (hafter : ∀ t, dat.after 11 t = (o t).negCnt) :
    dat.arrAt 11 cfg0.N = fun idx : S8192x1.Idx =>
      (o ⟨16 * ((idx 0).val / 1024) + 15, by have h : (idx 0).val < 8192 := (idx 0).isLt; have : cfg0.N = 128 := N_0; omega⟩).negCnt
        (ix2 ⟨(idx 0).val % 1024, Nat.mod_lt _ (by decide)⟩ (idx 1)) := by
  refine dat.arrAt_eq_of_cover 11 _ (fun t hf => ?_) (fun i => ?_)
  · have ht : t.val % 16 = 15 := (flush0_11 t).1 hf
    have hN : cfg0.N = 128 := N_0
    have htl := t.isLt
    obtain ⟨i0, i1⟩ := out_idx_facts11 t
    show (cfg0.win 11).cut (grid0.coords t) (dat.after 11 t) = _
    rw [hafter]
    funext j
    have hj0 : (j 0).val < 1024 := (j 0).isLt
    have hj1 : (j 1).val < 1 := (j 1).isLt
    have e0 : ((((cfg0.win 11).blk t).view.emb j) 0).val = win0_11.index t (0 : Fin 2) * 1024 + 1 * (j 0).val := rfl
    have e1 : ((((cfg0.win 11).blk t).view.emb j) 1).val = win0_11.index t (1 : Fin 2) * 1 + 1 * (j 1).val := rfl
    rw [i0] at e0
    rw [i1] at e1
    refine congrArg₂ (fun (t' : Fin cfg0.N) (j' : S1024x1.Idx) => (o t').negCnt j') (Fin.ext ?_) (funext fun a => Fin.ext ?_)
    · show t.val = 16 * (((((cfg0.win 11).blk t).view.emb j) 0).val / 1024) + 15
      rw [e0]; omega
    · match a with
      | ⟨0, _⟩ =>
        show (j 0).val = ((((cfg0.win 11).blk t).view.emb j) 0).val % 1024
        rw [e0]; omega
      | ⟨1, _⟩ =>
        show (j 1).val = ((((cfg0.win 11).blk t).view.emb j) 1).val
        rw [e1]; omega
  · have hi0 : (i 0).val < 8192 := (i 0).isLt
    have hi1 : (i 1).val < 1 := (i 1).isLt
    have hN : cfg0.N = 128 := N_0
    refine ⟨⟨16 * ((i 0).val / 1024) + 15, by omega⟩, (flush0_11 _).2 (by show (16 * ((i 0).val / 1024) + 15) % 16 = 15; omega), ?_⟩
    obtain ⟨i0, i1⟩ := out_idx_facts11 ⟨16 * ((i 0).val / 1024) + 15, by omega⟩
    rw [mem_blk11]
    intro a
    match a with
    | ⟨0, _⟩ =>
      show win0_11.index _ (0 : Fin 2) * 1024 ≤ (i 0).val ∧ (i 0).val < win0_11.index _ (0 : Fin 2) * 1024 + 1024
      rw [i0]
      show (16 * ((i 0).val / 1024) + 15) / 16 * 1024 ≤ (i 0).val ∧ (i 0).val < (16 * ((i 0).val / 1024) + 15) / 16 * 1024 + 1024
      omega
    | ⟨1, _⟩ =>
      show win0_11.index _ (1 : Fin 2) * 1 ≤ (i 1).val ∧ (i 1).val < win0_11.index _ (1 : Fin 2) * 1 + 1
      rw [i1]; omega

end Cert.KernelIdeal.Hand

end
-- ==== Proof.FinalArraysRun.lean ====
/-
  The six output arrays after the whole run, for the kernel's own proof data: row r of each holds row r % 1024 of the
  column the body left at the last column tile of r's row tile.
-/
import proofs.«145610_j47124381171853_2_alg».proof.Proof.FrameData
import proofs.«145610_j47124381171853_2_alg».proof.Proof.FinalArrays

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The first output array after the kernel's run: row r holds row r % 1024 of the posLogit column the body left at the last column tile of r's row tile. -/
theorem final6 (c : Dev nD) : (dats m 0 c).arrAt 6 cfg0.N = fun idx : S8192x1.Idx =>
    (oAt0 m c ⟨16 * ((idx 0).val / 1024) + 15, by have h : (idx 0).val < 8192 := (idx 0).isLt; have : cfg0.N = 128 := N_0; omega⟩).posLogit
      (ix2 ⟨(idx 0).val % 1024, Nat.mod_lt _ (by decide)⟩ (idx 1)) :=
  final6_of (dats m 0 c) (oAt0 m c) (after0_6 m c)

/-- The second output array after the kernel's run, likewise from the negLogit columns. -/
theorem final7 (c : Dev nD) : (dats m 0 c).arrAt 7 cfg0.N = fun idx : S8192x1.Idx =>
    (oAt0 m c ⟨16 * ((idx 0).val / 1024) + 15, by have h : (idx 0).val < 8192 := (idx 0).isLt; have : cfg0.N = 128 := N_0; omega⟩).negLogit
      (ix2 ⟨(idx 0).val % 1024, Nat.mod_lt _ (by decide)⟩ (idx 1)) :=
  final7_of (dats m 0 c) (oAt0 m c) (after0_7 m c)

/-- The third output array after the kernel's run, likewise from the posDsum columns. -/
theorem final8 (c : Dev nD) : (dats m 0 c).arrAt 8 cfg0.N = fun idx : S8192x1.Idx =>
    (oAt0 m c ⟨16 * ((idx 0).val / 1024) + 15, by have h : (idx 0).val < 8192 := (idx 0).isLt; have : cfg0.N = 128 := N_0; omega⟩).posDsum
      (ix2 ⟨(idx 0).val % 1024, Nat.mod_lt _ (by decide)⟩ (idx 1)) :=
  final8_of (dats m 0 c) (oAt0 m c) (after0_8 m c)

/-- The fourth output array after the kernel's run, likewise from the negDsum columns. -/
theorem final9 (c : Dev nD) : (dats m 0 c).arrAt 9 cfg0.N = fun idx : S8192x1.Idx =>
    (oAt0 m c ⟨16 * ((idx 0).val / 1024) + 15, by have h : (idx 0).val < 8192 := (idx 0).isLt; have : cfg0.N = 128 := N_0; omega⟩).negDsum
      (ix2 ⟨(idx 0).val % 1024, Nat.mod_lt _ (by decide)⟩ (idx 1)) :=
  final9_of (dats m 0 c) (oAt0 m c) (after0_9 m c)

/-- The fifth output array after the kernel's run, likewise from the posCnt columns. -/
theorem final10 (c : Dev nD) : (dats m 0 c).arrAt 10 cfg0.N = fun idx : S8192x1.Idx =>
    (oAt0 m c ⟨16 * ((idx 0).val / 1024) + 15, by have h : (idx 0).val < 8192 := (idx 0).isLt; have : cfg0.N = 128 := N_0; omega⟩).posCnt
      (ix2 ⟨(idx 0).val % 1024, Nat.mod_lt _ (by decide)⟩ (idx 1)) :=
  final10_of (dats m 0 c) (oAt0 m c) (after0_10 m c)

/-- The sixth output array after the kernel's run, likewise from the negCnt columns. -/
theorem final11 (c : Dev nD) : (dats m 0 c).arrAt 11 cfg0.N = fun idx : S8192x1.Idx =>
    (oAt0 m c ⟨16 * ((idx 0).val / 1024) + 15, by have h : (idx 0).val < 8192 := (idx 0).isLt; have : cfg0.N = 128 := N_0; omega⟩).negCnt
      (ix2 ⟨(idx 0).val % 1024, Nat.mod_lt _ (by decide)⟩ (idx 1)) :=
  final11_of (dats m 0 c) (oAt0 m c) (after0_11 m c)

end Cert.KernelIdeal.Hand

end
-- ==== Proof.FrameModelPieces.lean ====
/-
  The pieces each case of the kernel body leaves ARE the terms of the pure model: read back, the six accumulators
  after a point are one step of the model from what they held before (from zero at the first column tile), and at
  the last column tile the six output columns are the model's outputs of the stepped accumulators. Each buffer ends
  with one store through the whole-buffer rectangle (two at the first column tile, the zero store beneath), so its
  contents are that store's payload; the payload's loads read whole buffers, hence their stated contents.
-/
import proofs.«145610_j47124381171853_2_alg».proof.Proof.FrameDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-two rectangle, as the constant function. -/
private theorem hz : (![0, 0] : Fin 2 → Nat) = fun _ => 0 := funext fun a => by fin_cases a <;> rfl

/-- Case A: accumulator 0 ends with the model's step, read at its field. -/
theorem sout0_A_0_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = (Model.step i ⟨x0, x1, x2, x3, x4, x5⟩ Model.zeroAcc).totalE := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case A: accumulator 1 ends with the model's step, read at its field. -/
theorem sout0_A_1_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = (Model.step i ⟨x0, x1, x2, x3, x4, x5⟩ Model.zeroAcc).sameE := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case A: accumulator 2 ends with the model's step, read at its field. -/
theorem sout0_A_2_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = (Model.step i ⟨x0, x1, x2, x3, x4, x5⟩ Model.zeroAcc).totalD := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case A: accumulator 3 ends with the model's step, read at its field. -/
theorem sout0_A_3_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = (Model.step i ⟨x0, x1, x2, x3, x4, x5⟩ Model.zeroAcc).sameD := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case A: accumulator 4 ends with the model's step, read at its field. -/
theorem sout0_A_4_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = (Model.step i ⟨x0, x1, x2, x3, x4, x5⟩ Model.zeroAcc).sameC := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case A: accumulator 5 ends with the model's step, read at its field. -/
theorem sout0_A_5_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = (Model.step i ⟨x0, x1, x2, x3, x4, x5⟩ Model.zeroAcc).diagD := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case A: the six accumulators together are the model's step from zero. -/
theorem sAll0_A_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) :
    sAll0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 = Model.step i ⟨x0, x1, x2, x3, x4, x5⟩ Model.zeroAcc := by
  unfold sAll0_A
  rw [sout0_A_0_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5,
    sout0_A_1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5,
    sout0_A_2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5,
    sout0_A_3_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5,
    sout0_A_4_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5,
    sout0_A_5_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5]

/-- Case B: accumulator 0 ends with the model's step, read at its field. -/
theorem sout0_B_0_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).totalE := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_B
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case B: accumulator 1 ends with the model's step, read at its field. -/
theorem sout0_B_1_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).sameE := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_B
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case B: accumulator 2 ends with the model's step, read at its field. -/
theorem sout0_B_2_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).totalD := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_B
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case B: accumulator 3 ends with the model's step, read at its field. -/
theorem sout0_B_3_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).sameD := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_B
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case B: accumulator 4 ends with the model's step, read at its field. -/
theorem sout0_B_4_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).sameC := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_B
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case B: accumulator 5 ends with the model's step, read at its field. -/
theorem sout0_B_5_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).diagD := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_B
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case B: the six accumulators together are the model's step. -/
theorem sAll0_B_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : ¬cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sAll0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = Model.step i ⟨x0, x1, x2, x3, x4, x5⟩ ⟨xs0, xs1, xs2, xs3, xs4, xs5⟩ := by
  unfold sAll0_B
  rw [sout0_B_0_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_B_1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_B_2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_B_3_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_B_4_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_B_5_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5]

/-- Case C: accumulator 0 ends with the model's step, read at its field. -/
theorem sout0_C_0_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).totalE := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: accumulator 1 ends with the model's step, read at its field. -/
theorem sout0_C_1_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).sameE := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: accumulator 2 ends with the model's step, read at its field. -/
theorem sout0_C_2_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).totalD := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: accumulator 3 ends with the model's step, read at its field. -/
theorem sout0_C_3_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).sameD := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: accumulator 4 ends with the model's step, read at its field. -/
theorem sout0_C_4_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).sameC := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: accumulator 5 ends with the model's step, read at its field. -/
theorem sout0_C_5_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.step i ⟨x0, x1, x2, x3, x4, x5⟩ ⟨xs0, xs1, xs2, xs3, xs4, xs5⟩).diagD := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: the six accumulators together are the model's step. -/
theorem sAll0_C_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    sAll0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = Model.step i ⟨x0, x1, x2, x3, x4, x5⟩ ⟨xs0, xs1, xs2, xs3, xs4, xs5⟩ := by
  unfold sAll0_C
  rw [sout0_C_0_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_C_1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_C_2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_C_3_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_C_4_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    sout0_C_5_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5]

/-- Case C: output column 0 is the model's output of the stepped accumulators, read at its field. -/
theorem out0_C_6_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.outs (Model.step i ⟨x0, x1, x2, x3, x4, x5⟩ ⟨xs0, xs1, xs2, xs3, xs4, xs5⟩)).posLogit := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x1) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: output column 1 is the model's output of the stepped accumulators, read at its field. -/
theorem out0_C_7_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.outs (Model.step i ⟨x0, x1, x2, x3, x4, x5⟩ ⟨xs0, xs1, xs2, xs3, xs4, xs5⟩)).negLogit := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x1) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: output column 2 is the model's output of the stepped accumulators, read at its field. -/
theorem out0_C_8_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.outs (Model.step i ⟨x0, x1, x2, x3, x4, x5⟩ ⟨xs0, xs1, xs2, xs3, xs4, xs5⟩)).posDsum := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x1) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: output column 3 is the model's output of the stepped accumulators, read at its field. -/
theorem out0_C_9_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.outs (Model.step i ⟨x0, x1, x2, x3, x4, x5⟩ ⟨xs0, xs1, xs2, xs3, xs4, xs5⟩)).negDsum := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x1) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: output column 4 is the model's output of the stepped accumulators, read at its field. -/
theorem out0_C_10_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.outs (Model.step i ⟨x0, x1, x2, x3, x4, x5⟩ ⟨xs0, xs1, xs2, xs3, xs4, xs5⟩)).posCnt := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x1) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: output column 5 is the model's output of the stepped accumulators, read at its field. -/
theorem out0_C_11_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = (Model.outs (Model.step i ⟨x0, x1, x2, x3, x4, x5⟩ ⟨xs0, xs1, xs2, xs3, xs4, xs5⟩)).negCnt := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5)]
  unfold kernelRun0_C
  dsimp only
  sl_unfold_words
  rw [View.canon_unit_zero (S := S1024x1) hz]
  simp only [View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1024x128) hz, View.ld_unit_zero (S := S512x128) hz, View.ld_unit_zero (S := S1024x1) hz, View.ld_unit_zero (S := S1x512) hz]
  rfl

/-- Case C: the six output columns together are the model's outputs of the stepped accumulators. -/
theorem oAll0_C_eq (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (hc0 : ¬cond0_0 i) (hc1 : cond0_1 i)
    (x0 : Vec F S1024x128 .f32) (x1 : Vec F S512x128 .f32) (x2 : Vec F S1024x1 .f32) (x3 : Vec F S1x512 .f32) (x4 : Vec F S1024x1 .i32) (x5 : Vec F S1x512 .i32) (xs0 xs1 xs2 xs3 xs4 xs5 : Vec F S1024x128 .f32) :
    oAll0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5 = Model.outs (Model.step i ⟨x0, x1, x2, x3, x4, x5⟩ ⟨xs0, xs1, xs2, xs3, xs4, xs5⟩) := by
  unfold oAll0_C
  rw [out0_C_6_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    out0_C_7_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    out0_C_8_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    out0_C_9_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    out0_C_10_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5,
    out0_C_11_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs1 xs2 xs3 xs4 xs5]

end Cert.KernelIdeal.Hand

end
-- ==== Proof.KHostBlocks.lean ====
/-
  The six input windows' blocks at a grid point, read off the arrays as the region finds them, are the blocks the
  kernel's model reads: at point t (row tile t / 16, column tile t % 16) window 0 is rows 1024·(t / 16) + p of the
  feature array, window 1 its rows 512·(t % 16) + q, windows 2 and 4 the same rows of the squared-norm column and of
  the label column, windows 3 and 5 the same columns of the squared-norm row and of the label row. The windows' block
  indices are decided once over the grid's 128 points. For every float instance.
-/
import proofs.«145610_j47124381171853_2_alg».proof.Proof.FrameKit
import proofs.«145610_j47124381171853_2_alg».proof.Proof.Model

set_option maxRecDepth 16384

noncomputable section

namespace Cert.KHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (c : Dev nD)

/-- The six input windows' block indices at each of the grid's points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16 :=
  (by decide +kernel : ∀ t : Fin grid0.N, _)

/-- Window 0's block: the row tile's 1024 rows of the feature array. -/
theorem iblk0 (t : Fin cfg0.N) : iblk m c 0 t = (Cert.KernelIdeal.Model.blocksAt (V m c main_arg0) (V m c main_v4) (V m c main_v5) (V m c main_v0) (V m c main_v1) t.val (by have := t.isLt; have : cfg0.N = 128 := N_0; omega)).xi := by
  funext y
  unfold iblk
  show V m c main_arg0 (((cfg0.win 0).blk t).view.emb y) = V m c main_arg0 _
  refine congrArg _ (funext fun a => Fin.ext ?_)
  obtain ⟨e0, e1, -⟩ := idx_facts t
  match a with
  | ⟨0, _⟩ =>
    show win0_0.index t (0 : Fin 2) * 1024 + 1 * (y 0).val = 1024 * (t.val / 16) + (y 0).val
    rw [e0]; omega
  | ⟨1, _⟩ =>
    show win0_0.index t (1 : Fin 2) * 128 + 1 * (y 1).val = (y 1).val
    rw [e1]; omega

/-- Window 1's block: the column tile's 512 rows of the feature array. -/
theorem iblk1 (t : Fin cfg0.N) : iblk m c 1 t = (Cert.KernelIdeal.Model.blocksAt (V m c main_arg0) (V m c main_v4) (V m c main_v5) (V m c main_v0) (V m c main_v1) t.val (by have := t.isLt; have : cfg0.N = 128 := N_0; omega)).xj := by
  funext y
  unfold iblk
  show V m c main_arg0 (((cfg0.win 1).blk t).view.emb y) = V m c main_arg0 _
  refine congrArg _ (funext fun a => Fin.ext ?_)
  obtain ⟨-, -, e0, e1, -⟩ := idx_facts t
  match a with
  | ⟨0, _⟩ =>
    show win0_1.index t (0 : Fin 2) * 512 + 1 * (y 0).val = 512 * (t.val % 16) + (y 0).val
    rw [e0]; omega
  | ⟨1, _⟩ =>
    show win0_1.index t (1 : Fin 2) * 128 + 1 * (y 1).val = (y 1).val
    rw [e1]; omega

/-- Window 2's block: the row tile's part of the squared-norm column. -/
theorem iblk2 (t : Fin cfg0.N) : iblk m c 2 t = (Cert.KernelIdeal.Model.blocksAt (V m c main_arg0) (V m c main_v4) (V m c main_v5) (V m c main_v0) (V m c main_v1) t.val (by have := t.isLt; have : cfg0.N = 128 := N_0; omega)).sqi := by
  funext y
  unfold iblk
  show V m c main_v4 (((cfg0.win 2).blk t).view.emb y) = V m c main_v4 _
  refine congrArg _ (funext fun a => Fin.ext ?_)
  obtain ⟨-, -, -, -, e0, e1, -⟩ := idx_facts t
  match a with
  | ⟨0, _⟩ =>
    show win0_2.index t (0 : Fin 2) * 1024 + 1 * (y 0).val = 1024 * (t.val / 16) + (y 0).val
    rw [e0]; omega
  | ⟨1, _⟩ =>
    show win0_2.index t (1 : Fin 2) * 1 + 1 * (y 1).val = (y 1).val
    rw [e1]; omega

/-- Window 3's block: the column tile's part of the squared-norm row. -/
theorem iblk3 (t : Fin cfg0.N) : iblk m c 3 t = (Cert.KernelIdeal.Model.blocksAt (V m c main_arg0) (V m c main_v4) (V m c main_v5) (V m c main_v0) (V m c main_v1) t.val (by have := t.isLt; have : cfg0.N = 128 := N_0; omega)).sqj := by
  funext y
  unfold iblk
  show V m c main_v5 (((cfg0.win 3).blk t).view.emb y) = V m c main_v5 _
  refine congrArg _ (funext fun a => Fin.ext ?_)
  obtain ⟨-, -, -, -, -, -, e0, e1, -⟩ := idx_facts t
  match a with
  | ⟨0, _⟩ =>
    show win0_3.index t (0 : Fin 2) * 1 + 1 * (y 0).val = (y 0).val
    rw [e0]; omega
  | ⟨1, _⟩ =>
    show win0_3.index t (1 : Fin 2) * 512 + 1 * (y 1).val = 512 * (t.val % 16) + (y 1).val
    rw [e1]; omega

/-- Window 4's block: the row tile's part of the label column. -/
theorem iblk4 (t : Fin cfg0.N) : iblk m c 4 t = (Cert.KernelIdeal.Model.blocksAt (V m c main_arg0) (V m c main_v4) (V m c main_v5) (V m c main_v0) (V m c main_v1) t.val (by have := t.isLt; have : cfg0.N = 128 := N_0; omega)).ti := by
  funext y
  unfold iblk
  show V m c main_v0 (((cfg0.win 4).blk t).view.emb y) = V m c main_v0 _
  refine congrArg _ (funext fun a => Fin.ext ?_)
  obtain ⟨-, -, -, -, -, -, -, -, e0, e1, -⟩ := idx_facts t
  match a with
  | ⟨0, _⟩ =>
    show win0_4.index t (0 : Fin 2) * 1024 + 1 * (y 0).val = 1024 * (t.val / 16) + (y 0).val
    rw [e0]; omega
  | ⟨1, _⟩ =>
    show win0_4.index t (1 : Fin 2) * 1 + 1 * (y 1).val = (y 1).val
    rw [e1]; omega

/-- Window 5's block: the column tile's part of the label row. -/
theorem iblk5 (t : Fin cfg0.N) : iblk m c 5 t = (Cert.KernelIdeal.Model.blocksAt (V m c main_arg0) (V m c main_v4) (V m c main_v5) (V m c main_v0) (V m c main_v1) t.val (by have := t.isLt; have : cfg0.N = 128 := N_0; omega)).tj := by
  funext y
  unfold iblk
  show V m c main_v1 (((cfg0.win 5).blk t).view.emb y) = V m c main_v1 _
  refine congrArg _ (funext fun a => Fin.ext ?_)
  obtain ⟨-, -, -, -, -, -, -, -, -, -, e0, e1⟩ := idx_facts t
  match a with
  | ⟨0, _⟩ =>
    show win0_5.index t (0 : Fin 2) * 1 + 1 * (y 0).val = (y 0).val
    rw [e0]; omega
  | ⟨1, _⟩ =>
    show win0_5.index t (1 : Fin 2) * 512 + 1 * (y 1).val = 512 * (t.val % 16) + (y 1).val
    rw [e1]; omega

end Cert.KHost

end
-- ==== Proof.FrameModelAcc.lean ====
/-
  The kernel's accumulators and outputs along the grid ARE the pure model's. After each of the grid's 128 points
  (8 row tiles by 16 column tiles, the column tile moving fastest) the six accumulators are what the model's
  recursion gives there — a step from zero at the first column tile of a row tile, a step from the point before
  elsewhere —, the blocks being those the model reads off the whole arrays; and at the last column tile of a row
  tile the six output columns are the model's outputs of those accumulators. By induction on the point, by cases on
  its column tile.
-/
import proofs.«145610_j47124381171853_2_alg».proof.Proof.FrameData
import proofs.«145610_j47124381171853_2_alg».proof.Proof.FrameModelPieces
import proofs.«145610_j47124381171853_2_alg».proof.Proof.KHostBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The model's recursion, one point at a time -/

/-- At the first column tile of a later row tile the model steps from zero. -/
theorem accAt_succ_first (x : Vec F S8192x128 .f32) (sqr : Vec F S8192x1 .f32) (sqc : Vec F S1x8192 .f32)
    (tr : Vec F S8192x1 .i32) (tc : Vec F S1x8192 .i32) (n : ℕ) (hn : n + 1 < 128) (h0 : (n + 1) % 16 = 0) :
    Model.accAt x sqr sqc tr tc (n + 1) hn
      = Model.step (grid0.coords ⟨n + 1, hn⟩) (Model.blocksAt x sqr sqc tr tc (n + 1) hn) Model.zeroAcc := by
  show (if (n + 1) % 16 = 0 then _ else _) = _
  exact if_pos h0

/-- At any other column tile it steps from what the point before left. -/
theorem accAt_succ_next (x : Vec F S8192x128 .f32) (sqr : Vec F S8192x1 .f32) (sqc : Vec F S1x8192 .f32)
    (tr : Vec F S8192x1 .i32) (tc : Vec F S1x8192 .i32) (n : ℕ) (hn : n + 1 < 128) (h0 : ¬(n + 1) % 16 = 0) :
    Model.accAt x sqr sqc tr tc (n + 1) hn
      = Model.step (grid0.coords ⟨n + 1, hn⟩) (Model.blocksAt x sqr sqc tr tc (n + 1) hn)
          (Model.accAt x sqr sqc tr tc n (Nat.lt_of_succ_lt hn)) := by
  show (if (n + 1) % 16 = 0 then _ else _) = _
  exact if_neg h0

/-! ## The blocks -/

/-- The six input blocks of a grid point are the model's blocks, read off the whole arrays. -/
theorem blocks_eq (c : Dev nD) (t : Fin cfg0.N) (ht : t.val < 128) :
    (⟨iblk m c 0 t, iblk m c 1 t, iblk m c 2 t, iblk m c 3 t, iblk m c 4 t, iblk m c 5 t⟩ : Model.Blocks F)
      = Model.blocksAt (V m c main_arg0) (V m c main_v4) (V m c main_v5) (V m c main_v0) (V m c main_v1) t.val ht := by
  rw [Cert.KHost.iblk0 m c t, Cert.KHost.iblk1 m c t, Cert.KHost.iblk2 m c t, Cert.KHost.iblk3 m c t,
    Cert.KHost.iblk4 m c t, Cert.KHost.iblk5 m c t]

/-! ## The accumulators along the grid -/

/-- After every grid point the six accumulators are the model's. -/
theorem sAt0_eq_accAt (c : Dev nD) : ∀ (n : ℕ) (hn : n < cfg0.N) (hn' : n < 128),
    sAt0 m c n hn = Model.accAt (V m c main_arg0) (V m c main_v4) (V m c main_v5) (V m c main_v0) (V m c main_v1) n hn' := by
  intro n
  induction n with
  | zero =>
    intro hn hn'
    refine (sAt0_A m c ⟨0, hn⟩ (Nat.zero_mod _) (by show ¬(0 % 16 = 15); decide)).trans ?_
    rw [sAll0_A_eq, blocks_eq m c ⟨0, hn⟩ hn']
    rfl
  | succ n ih =>
    intro hn hn'
    by_cases h0 : (n + 1) % 16 = 0
    · refine (sAt0_A m c ⟨n + 1, hn⟩ h0 (by show ¬(n + 1) % 16 = 15; omega)).trans ?_
      rw [sAll0_A_eq, blocks_eq m c ⟨n + 1, hn⟩ hn', accAt_succ_first _ _ _ _ _ n hn' h0]
    · have e := ih (Nat.lt_of_succ_lt hn) (Nat.lt_of_succ_lt hn')
      by_cases h1 : (n + 1) % 16 = 15
      · refine (sAt0_C m c ⟨n + 1, hn⟩ h0 h1).trans ?_
        rw [sAll0_C_eq, blocks_eq m c ⟨n + 1, hn⟩ hn', accAt_succ_next _ _ _ _ _ n hn' h0]
        exact congrArg (Model.step _ _) e
      · refine (sAt0_B m c ⟨n + 1, hn⟩ h0 h1).trans ?_
        rw [sAll0_B_eq, blocks_eq m c ⟨n + 1, hn⟩ hn', accAt_succ_next _ _ _ _ _ n hn' h0]
        exact congrArg (Model.step _ _) e

/-! ## The outputs at the last column tile -/

/-- At the last column tile of a row tile the six output columns are the model's outputs of the accumulators the
    point leaves. -/
theorem oAt0_eq_outs_sAt0 (c : Dev nD) (t : Fin cfg0.N) (h1 : t.val % 16 = 15) :
    oAt0 m c t = Model.outs (sAt0 m c t.val t.isLt) := by
  have h0 : ¬t.val % 16 = 0 := by omega
  rw [oAt0_C m c t h0 h1, sAt0_C m c t h0 h1, oAll0_C_eq, sAll0_C_eq]

/-- Hence they are the model's outputs of the model's accumulators there. -/
theorem oAt0_eq_outs_accAt (c : Dev nD) (t : Fin cfg0.N) (h1 : t.val % 16 = 15) (ht : t.val < 128) :
    oAt0 m c t = Model.outs (Model.accAt (V m c main_arg0) (V m c main_v4) (V m c main_v5) (V m c main_v0) (V m c main_v1) t.val ht) := by
  rw [oAt0_eq_outs_sAt0 m c t h1, sAt0_eq_accAt m c t.val t.isLt ht]

/-- The same with one bound: the grid has 128 points. -/
theorem sAt0_eq_accAt' (c : Dev nD) (n : ℕ) (hn : n < cfg0.N) :
    sAt0 m c n hn = Model.accAt (V m c main_arg0) (V m c main_v4) (V m c main_v5) (V m c main_v0) (V m c main_v1) n hn :=
  sAt0_eq_accAt m c n hn hn

end Cert.KernelIdeal.Hand

end
-- ==== Proof.KMathSums.lean ====
import Idealize.ShloMosaic.Lib.ValueIdx

noncomputable section

open scoped BigOperators

namespace Cert.KMath

/-! Finite sums: a sum over 8192 positions split as 16 tiles × 4 chunks × 128 lanes, the running sum of a recursion
    that restarts every 16 steps, and the cast of a finite real sum to the extended reals. -/

/-- A sum over `m · n` positions splits by quotient and remainder. -/
theorem sum_fin_mul {M : Type*} [AddCommMonoid M] (m n : ℕ) (f : ℕ → M) :
    ∑ c : Fin (m * n), f c.val = ∑ a : Fin m, ∑ b : Fin n, f (n * a.val + b.val) := by
  rw [← Equiv.sum_comp finProdFinEquiv (fun c : Fin (m * n) => f c.val), Fintype.sum_prod_type]
  refine Finset.sum_congr rfl fun a _ => Finset.sum_congr rfl fun b _ => ?_
  show f (b.val + n * a.val) = f (n * a.val + b.val)
  rw [add_comm]

/-- 8192 positions as 16 tiles of 4 chunks of 128 lanes: position `512·j + (128·q + l)`. -/
theorem sum_8192 {M : Type*} [AddCommMonoid M] (f : ℕ → M) :
    ∑ c : Fin 8192, f c.val
      = ∑ j : Fin 16, ∑ q : Fin 4, ∑ l : Fin 128, f (512 * j.val + (128 * q.val + l.val)) := by
  have h1 := sum_fin_mul 16 512 f
  have h2 : ∀ j : Fin 16, ∑ b : Fin 512, f (512 * j.val + b.val)
      = ∑ q : Fin 4, ∑ l : Fin 128, f (512 * j.val + (128 * q.val + l.val)) :=
    fun j => sum_fin_mul 4 128 (fun b => f (512 * j.val + b))
  exact h1.trans (Finset.sum_congr rfl fun j _ => h2 j)

/-- The same with the lanes summed last. -/
theorem sum_lanes {M : Type*} [AddCommMonoid M] (f : ℕ → M) :
    ∑ l : Fin 128, ∑ j : Fin 16, ∑ q : Fin 4, f (512 * j.val + (128 * q.val + l.val)) = ∑ c : Fin 8192, f c.val := by
  rw [sum_8192, Finset.sum_comm]
  exact Finset.sum_congr rfl fun j _ => Finset.sum_comm

/-- A recursion that adds `g n` at step `n` and restarts from nothing at every multiple of 16 holds, after step `n`,
    the sum of `g` from the last multiple of 16 up to `n`. -/
theorem fold_inv {M : Type*} [AddCommMonoid M] (N : ℕ) (A : (n : ℕ) → n < N → M) (g : ℕ → M)
    (h0 : ∀ hn, A 0 hn = g 0)
    (hs : ∀ n (hn : n + 1 < N), A (n + 1) hn
      = if (n + 1) % 16 = 0 then g (n + 1) else A n (Nat.lt_of_succ_lt hn) + g (n + 1)) :
    ∀ n (hn : n < N), A n hn = ∑ m ∈ Finset.Ico (16 * (n / 16)) (n + 1), g m := by
  intro n
  induction n with
  | zero => intro hn; rw [h0]; simp
  | succ n ih =>
    intro hn
    rw [hs n hn]
    split_ifs with h
    · have e : 16 * ((n + 1) / 16) = n + 1 := by omega
      rw [e]; simp
    · have e : 16 * ((n + 1) / 16) = 16 * (n / 16) := by omega
      rw [e, Finset.sum_Ico_succ_top (by omega), ih]

/-- At the last step of a run of 16 that is the sum over the whole run. -/
theorem fold_last {M : Type*} [AddCommMonoid M] (g : ℕ → M) (i : ℕ) :
    ∑ m ∈ Finset.Ico (16 * ((16 * i + 15) / 16)) (16 * i + 15 + 1), g m = ∑ j : Fin 16, g (16 * i + j.val) := by
  have e : 16 * ((16 * i + 15) / 16) = 16 * i := by omega
  have e' : 16 * i + 15 + 1 - 16 * i = 16 := by omega
  rw [e, Finset.sum_Ico_eq_sum_range, e', Finset.sum_range]

/-- The cast of a finite sum of reals is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.KMath

end
-- ==== Proof.KMathPayAcc.lean ====
import proofs.«145610_j47124381171853_2_alg».proof.Proof.Gen.KernelIdeal.Skeleton
import Idealize.ShloMosaic.Lib.ValueLayout
import Idealize.ShloMosaic.PureOps.Ideal.Laws

noncomputable section

open scoped BigOperators

namespace Cert.KMath

open Idealize.ShloMosaic Idealize.ShloMosaic.ValueIdx Cert.KernelIdeal Cert.KernelIdeal.Gen

/-! The accumulator payloads read at an index: one step adds, at row p and lane l, the four entries of the tile's row p
    at columns 128·q + l; the output columns are sums over the 128 lanes. -/

/-- Column `128·q + l` of a 512-column tile. -/
abbrev col4 (q : Fin 4) (l : Fin 128) : Fin 512 := ⟨128 * q.val + l.val, by omega⟩

/-- The 1024×512 tile viewed as 1024×4×128: entry (p, q, l) is entry (p, 128·q + l). -/
theorem reshape_apply {α : Type} (T : S1024x512.Idx → α) (p : Fin 1024) (q : Fin 4) (l : Fin 128) :
    shapeCast S1024x4x128 T shapeCasts_S1024x512_S1024x4x128 (ix3 p q l) = T (ix2 p (col4 q l)) :=
  shapeCast_apply T _ _ _ (by
    rw [Shape.rowMajor_val_two, Shape.rowMajor_val_three]
    show p.val * 512 + (128 * q.val + l.val) = (p.val * 4 + q.val) * 128 + l.val
    omega)

/-- The sum over the middle axis of a 1024×4×128 array into zero, at (p, l). -/
theorem sumMid_apply (V : FVec Ideal S1024x4x128 .f32) (p : Fin 1024) (l : Fin 128) :
    multiReduction (F := Ideal) .add [1] S1024x128 V 0x00000000#32 reduces_S1024x4x128_S1024x128 (.inl rfl) rfl (ix2 p l)
      = ∑ q : Fin 4, V (ix3 p q l) := by
  refine (Ideal.multiReduction_add_single V _ reduces_S1024x4x128_S1024x128 _ _ (ix2 p l)).trans ?_
  refine Finset.sum_congr rfl fun q _ => congrArg V (funext fun a => ?_)
  match a with
  | ⟨0, _⟩ => rfl
  | ⟨1, _⟩ => rfl
  | ⟨2, _⟩ => rfl

/-- One accumulation step of a tile `T` onto `prev`, at (p, l). -/
theorem accum_apply (prev : Vec Ideal S1024x128 .f32) (T : FVec Ideal S1024x512 .f32) (p : Fin 1024) (l : Fin 128) :
    shapeCast S1024x128 (addf prev (multiReduction (F := Ideal) .add [1] S1024x128
        (shapeCast S1024x4x128 T shapeCasts_S1024x512_S1024x4x128) 0x00000000#32 reduces_S1024x4x128_S1024x128 (.inl rfl) rfl))
      shapeCasts_S1024x128_S1024x128 (ix2 p l)
      = prev (ix2 p l) + ∑ q : Fin 4, T (ix2 p (col4 q l)) := by
  rw [shapeCast_self]
  show prev (ix2 p l) + multiReduction (F := Ideal) .add [1] S1024x128 _ 0x00000000#32 reduces_S1024x4x128_S1024x128 (.inl rfl) rfl (ix2 p l) = _
  rw [sumMid_apply]
  exact congrArg (prev (ix2 p l) + ·) (Finset.sum_congr rfl fun q _ => reshape_apply T p q l)

/-- The sum over the 128 lanes into zero, as a column, at row p. -/
theorem laneSum_apply (V : Vec Ideal S1024x128 .f32) (p : Fin 1024) (u : Fin 1) :
    shapeCast S1024x1 (multiReduction (F := Ideal) .add [1] S1024 V 0x00000000#32 reduces_S1024x128_S1024 (.inl rfl) rfl)
      shapeCasts_S1024_S1024x1 (ix2 p u) = ∑ l : Fin 128, V (ix2 p l) := by
  have hu : u.val = 0 := by omega
  rw [shapeCast_apply _ shapeCasts_S1024_S1024x1 (ix2 p u) (ix1 p) (by
    rw [Shape.rowMajor_val_one, Shape.rowMajor_val_two]
    show p.val = p.val * 1 + u.val
    omega)]
  refine (Ideal.multiReduction_add_single (φ := .f32) V _ reduces_S1024x128_S1024 _ _ (ix1 p)).trans ?_
  refine Finset.sum_congr rfl fun l _ => congrArg V (funext fun a => ?_)
  match a with
  | ⟨0, _⟩ => rfl
  | ⟨1, _⟩ => rfl

theorem pay26_apply (arg1 : BitVec 32) (v31 : FVec Ideal S1024x512 .f32) (v35 : IVec S1024x512 32) (c512 : BitVec 32)
    (v45 : Vec Ideal S1024x128 .f32) (p : Fin 1024) (l : Fin 128) :
    k0_pay26 (F := Ideal) arg1 v31 v35 c512 v45 (ix2 p l)
      = v45 (ix2 p l) + ∑ q : Fin 4, k0_pay24 (F := Ideal) arg1 v31 v35 c512 (ix2 p (col4 q l)) :=
  accum_apply v45 _ p l

theorem pay27_apply (arg1 : BitVec 32) (v26 : IVec S1024x512 1) (v31 : FVec Ideal S1024x512 .f32) (v35 : IVec S1024x512 32)
    (c512 : BitVec 32) (v52 : Vec Ideal S1024x128 .f32) (p : Fin 1024) (l : Fin 128) :
    k0_pay27 (F := Ideal) arg1 v26 v31 v35 c512 v52 (ix2 p l)
      = v52 (ix2 p l) + ∑ q : Fin 4, Scalar.select (v26 (ix2 p (col4 q l)))
          (k0_pay24 (F := Ideal) arg1 v31 v35 c512 (ix2 p (col4 q l))) (Ideal.ofBits .f32 0x00000000#32) :=
  accum_apply v52 _ p l

theorem pay28_apply (v19 : FVec Ideal S1024x512 .f32) (v61 : Vec Ideal S1024x128 .f32) (p : Fin 1024) (l : Fin 128) :
    k0_pay28 (F := Ideal) v19 v61 (ix2 p l) = v61 (ix2 p l) + ∑ q : Fin 4, v19 (ix2 p (col4 q l)) :=
  accum_apply v61 v19 p l

theorem pay1_29_apply (v68 : Vec Ideal S1024x128 .f32) (v19 : FVec Ideal S1024x512 .f32) (v26 : IVec S1024x512 1)
    (p : Fin 1024) (l : Fin 128) :
    k0_pay1 (F := Ideal) v68 (k0_pay29 (F := Ideal) v19 v26) (ix2 p l)
      = v68 (ix2 p l) + ∑ q : Fin 4, Scalar.select (v26 (ix2 p (col4 q l))) (v19 (ix2 p (col4 q l)))
          (Ideal.ofBits .f32 0x00000000#32) :=
  accum_apply v68 _ p l

theorem pay2_apply (v26 : IVec S1024x512 1) (v77 : Vec Ideal S1024x128 .f32) (p : Fin 1024) (l : Fin 128) :
    k0_pay2 (F := Ideal) v26 v77 (ix2 p l)
      = v77 (ix2 p l) + ∑ q : Fin 4, ((((v26 (ix2 p (col4 q l))).setWidth 32).toInt : ℝ) : EReal) :=
  accum_apply v77 _ p l

theorem pay3_apply (v44 : FVec Ideal S1024x512 .f32) (v86 : Vec Ideal S1024x128 .f32) (p : Fin 1024) (l : Fin 128) :
    k0_pay3 (F := Ideal) v44 v86 (ix2 p l) = v86 (ix2 p l) + ∑ q : Fin 4, v44 (ix2 p (col4 q l)) :=
  accum_apply v86 v44 p l

/-- The zero accumulators. -/
theorem zero13 (j : S1024x128.Idx) : k0_pay13 (F := Ideal) j = 0 := by
  unfold k0_pay13; rw [shapeCast_self]; exact Ideal.ofBits_zero_f32
theorem zero14 (j : S1024x128.Idx) : k0_pay14 (F := Ideal) j = 0 := by
  unfold k0_pay14; rw [shapeCast_self]; exact Ideal.ofBits_zero_f32
theorem zero15 (j : S1024x128.Idx) : k0_pay15 (F := Ideal) j = 0 := by
  unfold k0_pay15; rw [shapeCast_self]; exact Ideal.ofBits_zero_f32
theorem zero16 (j : S1024x128.Idx) : k0_pay16 (F := Ideal) j = 0 := by
  unfold k0_pay16; rw [shapeCast_self]; exact Ideal.ofBits_zero_f32
theorem zero17 (j : S1024x128.Idx) : k0_pay17 (F := Ideal) j = 0 := by
  unfold k0_pay17; rw [shapeCast_self]; exact Ideal.ofBits_zero_f32
theorem zero18 (j : S1024x128.Idx) : k0_pay18 (F := Ideal) j = 0 := by
  unfold k0_pay18; rw [shapeCast_self]; exact Ideal.ofBits_zero_f32

/-- The lane sums. -/
theorem pay6_apply (V : Vec Ideal S1024x128 .f32) (p : Fin 1024) (u : Fin 1) :
    k0_pay6 (F := Ideal) V (ix2 p u) = ∑ l : Fin 128, V (ix2 p l) := laneSum_apply V p u
theorem pay7_apply (V : Vec Ideal S1024x128 .f32) (p : Fin 1024) (u : Fin 1) :
    k0_pay7 (F := Ideal) V (ix2 p u) = ∑ l : Fin 128, V (ix2 p l) := laneSum_apply V p u
theorem pay8_apply (V : Vec Ideal S1024x128 .f32) (p : Fin 1024) (u : Fin 1) :
    k0_pay8 (F := Ideal) V (ix2 p u) = ∑ l : Fin 128, V (ix2 p l) := laneSum_apply V p u

/-- The output columns. -/
theorem pay9_apply (v99 v102 : Vec Ideal S1024x128 .f32) (p : Fin 1024) (u : Fin 1) :
    k0_pay9 (F := Ideal) v99 v102 (ix2 p u)
      = Ideal.ofBits .f32 0x3F000000#32 * (∑ l : Fin 128, v99 (ix2 p l) - ∑ l : Fin 128, v102 (ix2 p l)) := by
  rw [← laneSum_apply v99 p u, ← pay7_apply v102 p u]; rfl
theorem pay10_apply (v108 v111 : Vec Ideal S1024x128 .f32) (p : Fin 1024) (u : Fin 1) :
    k0_pay10 (F := Ideal) v108 v111 (ix2 p u) = ∑ l : Fin 128, v108 (ix2 p l) - ∑ l : Fin 128, v111 (ix2 p l) := by
  rw [← pay8_apply v108 p u, ← laneSum_apply v111 p u]; rfl
theorem pay11_apply (v105 v108 : Vec Ideal S1024x128 .f32) (p : Fin 1024) (u : Fin 1) :
    k0_pay11 (F := Ideal) v105 v108 (ix2 p u) = ∑ l : Fin 128, v105 (ix2 p l) - ∑ l : Fin 128, v108 (ix2 p l) := by
  rw [← laneSum_apply v105 p u, ← pay8_apply v108 p u]; rfl
theorem pay4_apply (v98 v123 : FVec Ideal S1024x1 .f32) (j : S1024x1.Idx) :
    k0_pay4 (F := Ideal) v98 v123 j = v98 j - v123 j := rfl
theorem pay5_apply (v98 : FVec Ideal S1024x1 .f32) (j : S1024x1.Idx) :
    k0_pay5 (F := Ideal) v98 j = Ideal.ofBits .f32 0x46000000#32 - v98 j := rfl
theorem pay12_apply (j : S1024x1.Idx) : k0_pay12 (F := Ideal) j = Ideal.ofBits .f32 0x3F800000#32 := rfl

end Cert.KMath

end
-- ==== Proof.KMathFold.lean ====
import proofs.«145610_j47124381171853_2_alg».proof.Proof.Model
import proofs.«145610_j47124381171853_2_alg».proof.Proof.KMathSums
import proofs.«145610_j47124381171853_2_alg».proof.Proof.KMathPayAcc

noncomputable section

open scoped BigOperators

namespace Cert.KMath

open Idealize.ShloMosaic Idealize.ShloMosaic.ValueIdx Cert.KernelIdeal Cert.KernelIdeal.Gen

open Cert.KernelIdeal.Model

/-! The recursion along a row tile's 16 points: a quantity of the accumulators that every step increases by an amount
    depending on the point only, and that is zero on the zero accumulators, is after the row tile's last point the sum
    of the 16 amounts; summed over the lanes, with the amounts sums over 4 chunks of a function of (row, column), it is
    the function's sum over all 8192 columns of the row. -/

variable (x : Vec Ideal S8192x128 .f32) (sqr : Vec Ideal S8192x1 .f32) (sqc : Vec Ideal S1x8192 .f32)
  (tr : Vec Ideal S8192x1 .i32) (tc : Vec Ideal S1x8192 .i32)

theorem accAt_field (π : Acc Ideal → EReal) (G : (n : ℕ) → n < 128 → EReal) (hzero : π zeroAcc = 0)
    (hstep : ∀ n (hn : n < 128) a, π (step (grid0.coords ⟨n, hn⟩) (blocksAt x sqr sqc tr tc n hn) a) = π a + G n hn) :
    ∀ n (hn : n < 128), π (accAt x sqr sqc tr tc n hn)
      = ∑ m ∈ Finset.Ico (16 * (n / 16)) (n + 1), (if h : m < 128 then G m h else 0) := by
  refine fold_inv 128 (fun n hn => π (accAt x sqr sqc tr tc n hn)) (fun m => if h : m < 128 then G m h else 0) ?_ ?_
  · intro hn
    show π (step (grid0.coords ⟨0, hn⟩) (blocksAt x sqr sqc tr tc 0 hn) zeroAcc) = _
    rw [hstep, hzero, zero_add, dif_pos hn]
  · intro n hn
    show π (accAt x sqr sqc tr tc (n + 1) hn) = _
    rw [accAt, dif_pos hn]
    by_cases h : (n + 1) % 16 = 0
    · rw [if_pos h, if_pos h, hstep, hzero, zero_add]
    · rw [if_neg h, if_neg h, hstep]

/-- The row of the whole array that row `p` of a row tile is does not depend on the column tile. -/
theorem rowOf_eq (i : Fin 8) (j : Fin 16) (p : Fin 1024) (h : 16 * i.val + j.val < 128) (h' : 16 * i.val + 15 < 128) :
    rowOf (16 * i.val + j.val) h p = rowOf (16 * i.val + 15) h' p := Fin.ext (by
  show 1024 * ((16 * i.val + j.val) / 16) + p.val = 1024 * ((16 * i.val + 15) / 16) + p.val
  omega)

/-- Column `128·q + l` of column tile `j` is column `512·j + (128·q + l)` of the whole array. -/
theorem colOf_val (i : Fin 8) (j : Fin 16) (q : Fin 4) (l : Fin 128) (h : 16 * i.val + j.val < 128) :
    (colOf (16 * i.val + j.val) h (col4 q l)).val = 512 * j.val + (128 * q.val + l.val) := by
  show 512 * ((16 * i.val + j.val) % 16) + (128 * q.val + l.val) = _
  omega

/-- A function of a column extended by zero to every natural. -/
def extend (ψ : Fin 8192 → EReal) : ℕ → EReal := fun c => if h : c < 8192 then ψ ⟨c, h⟩ else 0
theorem extend_val (ψ : Fin 8192 → EReal) (c : Fin 8192) : extend ψ c.val = ψ c := dif_pos c.isLt
theorem extend_of_lt (ψ : Fin 8192 → EReal) (c : ℕ) (h : c < 8192) : extend ψ c = ψ ⟨c, h⟩ := dif_pos h

theorem rowTotal (π : Fin 128 → Acc Ideal → EReal) (φ : Fin 8192 → Fin 8192 → EReal) (p : Fin 1024)
    (hzero : ∀ l, π l zeroAcc = 0)
    (hstep : ∀ l n (hn : n < 128) a, π l (step (grid0.coords ⟨n, hn⟩) (blocksAt x sqr sqc tr tc n hn) a)
      = π l a + ∑ q : Fin 4, φ (rowOf n hn p) (colOf n hn (col4 q l)))
    (i : Fin 8) (h' : 16 * i.val + 15 < 128) :
    ∑ l : Fin 128, π l (accAt x sqr sqc tr tc (16 * i.val + 15) h')
      = ∑ c : Fin 8192, φ (rowOf (16 * i.val + 15) h' p) c := by
  refine Eq.trans ?_ ((sum_lanes (extend (φ (rowOf (16 * i.val + 15) h' p)))).trans
    (Finset.sum_congr rfl fun c _ => extend_val _ c))
  refine Finset.sum_congr rfl fun l _ => ?_
  rw [accAt_field x sqr sqc tr tc (π l) (fun n hn => ∑ q : Fin 4, φ (rowOf n hn p) (colOf n hn (col4 q l)))
    (hzero l) (hstep l) (16 * i.val + 15) h', fold_last]
  refine Finset.sum_congr rfl fun j _ => ?_
  have hj : 16 * i.val + j.val < 128 := by omega
  rw [dif_pos hj]
  refine Finset.sum_congr rfl fun q _ => ?_
  have hc : 512 * j.val + (128 * q.val + l.val) < 8192 := by omega
  rw [extend_of_lt _ _ hc, rowOf_eq i j p hj h']
  exact congrArg _ (Fin.ext (colOf_val i j q l hj))

end Cert.KMath

end
-- ==== Proof.Spec.lean ====
/-
  The mathematics both programs compute, as functions of the two argument arrays: `x`, 8192 rows of 128 extended
  reals, and `t`, 8192 class labels (32-bit words).

  For rows `r`, `c`:  sq r = Σ_k x[r,k]²,  dot r c = Σ_k x[r,k]·x[c,k],
  dist r c = √(max(ε, sq r + sq c − 2·dot r c)),  e r c = exp(α·(1 − dist r c)),  same r c ⇔ t[r] = t[c].
  Per row: the sum of `e` over the OTHER rows of the same class (posLogit), half the sum of `e` over the rows of another
  class (negLogit), the same two sums of `dist` (posDsum, negDsum), and how many rows each sum ranges over
  (posCnt, negCnt). The four results: the mean over rows of −log(posLogit / (posLogit + negLogit)), the constant one,
  and the two mean distances Σ posDsum / Σ posCnt and Σ negDsum / Σ negCnt.
  The float literals stay the patterns the programs print (`Ideal.ofBits`): the same word on both sides is never evaluated.
-/
import Idealize.ShloMosaic.PureOps.Ideal
import Idealize.ShloMosaic.Lib.ValueIdx

noncomputable section

open scoped BigOperators

namespace Cert.Spec

open Idealize.ShloMosaic Idealize.ShloMosaic.ValueIdx

/-- The feature array: 8192 rows of 128 extended reals. -/
abbrev Xs : Type := (⟨2, ![8192, 128]⟩ : Shape).Idx → EReal
/-- The labels: one 32-bit word per row. -/
abbrev Ts : Type := (⟨1, ![8192]⟩ : Shape).Idx → BitVec 32

/-- The literals, as the patterns both programs print: 2, 1e-12 (as f32), 1, 50, 1/2, 8192. -/
def two : EReal := Ideal.ofBits .f32 0x40000000#32
def eps : EReal := Ideal.ofBits .f32 0x2B8CBCCC#32
def one : EReal := Ideal.ofBits .f32 0x3F800000#32
def alpha : EReal := Ideal.ofBits .f32 0x42480000#32
def half : EReal := Ideal.ofBits .f32 0x3F000000#32
def nF : EReal := Ideal.ofBits .f32 0x46000000#32

/-- A row's squared norm. -/
def sq (x : Xs) (r : Fin 8192) : EReal := ∑ k : Fin 128, x (ix2 r k) * x (ix2 r k)
/-- Two rows' inner product. -/
def dot (x : Xs) (r c : Fin 8192) : EReal := ∑ k : Fin 128, x (ix2 r k) * x (ix2 c k)
/-- Their clipped Euclidean distance. -/
def dist (x : Xs) (r c : Fin 8192) : EReal := Ideal.sqrt (max eps (sq x r + sq x c - two * dot x r c))
/-- The exponential weight of the pair. -/
def e (x : Xs) (r c : Fin 8192) : EReal := Ideal.exp (alpha * (one - dist x r c))
/-- The two rows carry one label. -/
def same (t : Ts) (r c : Fin 8192) : Prop := t (ix1 r) = t (ix1 c)

instance (t : Ts) (r c : Fin 8192) : Decidable (same t r c) := by unfold same; infer_instance

/-- Per row: the weights of the other rows of its class, -/
def posLogit (x : Xs) (t : Ts) (r : Fin 8192) : EReal := ∑ c : Fin 8192, if same t r c ∧ r ≠ c then e x r c else 0
/-- half the weights of the rows of another class, -/
def negLogit (x : Xs) (t : Ts) (r : Fin 8192) : EReal := (∑ c : Fin 8192, if ¬ same t r c then e x r c else 0) * half
/-- the distances to the other rows of its class, -/
def posDsum (x : Xs) (t : Ts) (r : Fin 8192) : EReal := ∑ c : Fin 8192, if same t r c ∧ r ≠ c then dist x r c else 0
/-- the distances to the rows of another class, -/
def negDsum (x : Xs) (t : Ts) (r : Fin 8192) : EReal := ∑ c : Fin 8192, if ¬ same t r c then dist x r c else 0
/-- how many other rows its class has, -/
def posCnt (t : Ts) (r : Fin 8192) : EReal := (((Finset.univ.filter fun c : Fin 8192 => same t r c ∧ r ≠ c).card : ℝ) : EReal)
/-- and how many rows are of another class. -/
def negCnt (t : Ts) (r : Fin 8192) : EReal := (((Finset.univ.filter fun c : Fin 8192 => ¬ same t r c).card : ℝ) : EReal)

/-- The four results. -/
def loss (x : Xs) (t : Ts) : EReal :=
  Ideal.div (∑ r : Fin 8192, -(Ideal.log (Ideal.div (posLogit x t r) (posLogit x t r + negLogit x t r)))) nF
def prec : EReal := one
def posD (x : Xs) (t : Ts) : EReal := Ideal.div (∑ r : Fin 8192, posDsum x t r) (∑ r : Fin 8192, posCnt t r)
def negD (x : Xs) (t : Ts) : EReal := Ideal.div (∑ r : Fin 8192, negDsum x t r) (∑ r : Fin 8192, negCnt t r)

end Cert.Spec

end
-- ==== Proof.KMathDot.lean ====
import proofs.«145610_j47124381171853_2_alg».proof.Proof.Gen.KernelIdeal.Skeleton
import Idealize.ShloMosaic.Lib.ValueLayout
import Idealize.ShloMosaic.PureOps.Ideal.Laws

noncomputable section

open scoped BigOperators

namespace Cert.KMath

open Idealize.ShloMosaic Idealize.ShloMosaic.ValueIdx Cert.KernelIdeal Cert.KernelIdeal.Gen

/-! The block product read at an index: entry (p, c) of the 1024×128 block times the transposed 512×128 block is the
    inner product of row p of the first with row c of the second. -/

/-- The dimension numbers of the block product. -/
abbrev D := dot_S1024x128_S128x512_S1024x512_1_0_0_1_n_n

theorem lhs0 (i : S1024x512.Idx) (q : D.contr.Idx) : (D.lhsIdx i q 0).val = (i 0).val := by
  unfold DotDims.lhsIdx
  rw [dif_neg (show ¬(0 : Fin S1024x128.rank) ∈ D.lhsBatch by decide), dif_pos (show (0 : Fin S1024x128.rank) ∈ D.lhsNonContracting by decide)]
  rfl
theorem lhs1 (i : S1024x512.Idx) (q : D.contr.Idx) : (D.lhsIdx i q 1).val = (q ⟨0, by decide⟩).val :=
  D.lhsIdx_val_of_single rfl i q
theorem rhs0 (i : S1024x512.Idx) (q : D.contr.Idx) : (D.rhsIdx i q 0).val = (q ⟨0, by decide⟩).val :=
  D.rhsIdx_val_of_single rfl i q
theorem rhs1 (i : S1024x512.Idx) (q : D.contr.Idx) : (D.rhsIdx i q 1).val = (i 1).val := by
  unfold DotDims.rhsIdx
  rw [dif_neg (show ¬(1 : Fin S128x512.rank) ∈ D.rhsBatch by decide), dif_pos (show (1 : Fin S128x512.rank) ∈ D.rhsNonContracting by decide)]
  rfl

/-- The product into the zero block, at (p, c): Σ_k a[p,k] · b[c,k]. -/
theorem matmul_tile (v3 : Vec Ideal S1024x128 .f32) (v4 : Vec Ideal S512x128 .f32) (p : Fin 1024) (c : Fin 512) :
    matmul (F := Ideal) (φ₁ := .f32) (φ₂ := .f32) D (some .fp32) v3 (transpose S128x512 [1, 0] v4 transposes_S512x128_p1_0_S128x512)
      (constant (F := Ideal) S1024x512 .f32 0x00000000#32) (ix2 p c) = ∑ k : Fin 128, v3 (ix2 p k) * v4 (ix2 c k) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p c) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p c) ((contrEquiv1 D 128 rfl rfl).symm k) = ix2 k c := funext fun a => Fin.ext (by
    match a with
    | ⟨0, _⟩ => exact (rhs0 _ _).trans hk
    | ⟨1, _⟩ => exact rhs1 _ _)
  rw [el, er, transpose_ix2_apply]

end Cert.KMath

end
-- ==== Proof.KMathPayTile.lean ====
import proofs.«145610_j47124381171853_2_alg».proof.Proof.KMathDot
import Idealize.ShloMosaic.Lib.Affine

noncomputable section

open scoped BigOperators

namespace Cert.KMath

open Idealize.ShloMosaic Idealize.ShloMosaic.ValueIdx Cert.KernelIdeal Cert.KernelIdeal.Gen

/-! The tile payloads read at an index (p, c) of the 1024×512 tile. -/

/-- The distance tile: √(max(ε, a[p] + b[c] − 2·Σ_k x[p,k]·y[c,k])). -/
theorem pay19_apply (v3 : Vec Ideal S1024x128 .f32) (v4 : Vec Ideal S512x128 .f32) (v7 : Vec Ideal S1024x1 .f32)
    (v9 : Vec Ideal S1x512 .f32) (p : Fin 1024) (c : Fin 512) :
    k0_pay19 (F := Ideal) v3 v4 v7 v9 (ix2 p c)
      = Ideal.sqrt (max (Ideal.ofBits .f32 0x2B8CBCCC#32)
          (v7 (ix2 p 0) + v9 (ix2 0 c) - Ideal.ofBits .f32 0x40000000#32 * ∑ k : Fin 128, v3 (ix2 p k) * v4 (ix2 c k))) := by
  have hm := matmul_tile v3 v4 p c
  have h7 : broadcastTo S1024x512 (shapeCast S1024x1 v7 shapeCasts_S1024x1_S1024x1) broadcasts_S1024x1_S1024x512 (ix2 p c)
      = v7 (ix2 p 0) := by
    rw [shapeCast_self]
    exact broadcastTo_apply _ _ _ _ (fun a => match a with | ⟨0, _⟩ => rfl | ⟨1, _⟩ => rfl)
  have h9 : broadcastTo S1024x512 (shapeCast S1x512 v9 shapeCasts_S1x512_S1x512) broadcasts_S1x512_S1024x512 (ix2 p c)
      = v9 (ix2 0 c) := by
    rw [shapeCast_self]
    exact broadcastTo_1b_ab_apply _ _ p c
  rw [← hm, ← h7, ← h9]
  rfl

/-- The same-label mask: the comparison of the row's label with the column's. -/
theorem pay20_apply (v20 : Vec Ideal S1024x1 .i32) (v22 : Vec Ideal S1x512 .i32) (p : Fin 1024) (c : Fin 512) :
    k0_pay20 (F := Ideal) v20 v22 (ix2 p c) = IntOp.cmpi .eq (v20 (ix2 p 0)) (v22 (ix2 0 c)) := by
  have h7 : broadcastTo S1024x512 (shapeCast S1024x1 v20 shapeCasts_S1024x1_S1024x1) broadcasts_S1024x1_S1024x512 (ix2 p c)
      = v20 (ix2 p 0) := by
    rw [shapeCast_self]
    exact broadcastTo_apply _ _ _ _ (fun a => match a with | ⟨0, _⟩ => rfl | ⟨1, _⟩ => rfl)
  have h9 : broadcastTo S1024x512 (shapeCast S1x512 v22 shapeCasts_S1x512_S1x512) broadcasts_S1x512_S1024x512 (ix2 p c)
      = v22 (ix2 0 c) := by
    rw [shapeCast_self]
    exact broadcastTo_1b_ab_apply _ _ p c
  rw [← h7, ← h9]
  rfl

/-- The weight tile: exp(α·(1 − dist)). -/
theorem pay21_apply (v3 : Vec Ideal S1024x128 .f32) (v4 : Vec Ideal S512x128 .f32) (v7 : Vec Ideal S1024x1 .f32)
    (v9 : Vec Ideal S1x512 .f32) (j : S1024x512.Idx) :
    k0_pay21 (F := Ideal) v3 v4 v7 v9 j
      = Ideal.exp (Ideal.ofBits .f32 0x42480000#32 * (Ideal.ofBits .f32 0x3F800000#32 - k0_pay19 (F := Ideal) v3 v4 v7 v9 j)) := rfl

/-- The row-index word: 1024·(row tile) + p. -/
theorem pay22_apply (i : grid0.Coords) (p : Fin 1024) (c : Fin 512) :
    k0_pay22 i (ix2 p c) = BitVec.ofNat 32 ((i 0).val * 1024 + p.val) := by
  unfold k0_pay22
  show IntOp.addi (IntOp.muli (BitVec.ofNat 32 (i 0).val) 1024#32) (iota .tc S1024x512 32 [0] iota_S1024x512_d0_w32 (ix2 p c)) = _
  rw [iota_single_apply]
  show BitVec.ofNat 32 (i 0).val * BitVec.ofNat 32 1024 + BitVec.ofNat 32 p.val = _
  rw [← BitVec.ofNat_mul, ← BitVec.ofNat_add]

/-- The diagonal mask: the row-index word against the column-index word 512·(column tile) + c. -/
theorem pay23_apply (a : ℕ) (v35 : IVec S1024x512 32) (p : Fin 1024) (c : Fin 512) :
    k0_pay23 (BitVec.ofNat 32 a) v35 512#32 (ix2 p c)
      = IntOp.cmpi .eq (v35 (ix2 p c)) (BitVec.ofNat 32 (a * 512 + c.val)) := by
  unfold k0_pay23
  show IntOp.cmpi .eq (v35 (ix2 p c)) (IntOp.addi (IntOp.muli (BitVec.ofNat 32 a) 512#32) (iota .tc S1024x512 32 [1] iota_S1024x512_d1_w32 (ix2 p c))) = _
  rw [iota_single_apply]
  show IntOp.cmpi .eq (v35 (ix2 p c)) (BitVec.ofNat 32 a * BitVec.ofNat 32 512 + BitVec.ofNat 32 c.val) = _
  rw [← BitVec.ofNat_mul, ← BitVec.ofNat_add]

/-- The weights off the diagonal: zero where the mask is set. -/
theorem pay24_apply (arg1 : BitVec 32) (v31 : FVec Ideal S1024x512 .f32) (v35 : IVec S1024x512 32) (c512 : BitVec 32)
    (j : S1024x512.Idx) :
    k0_pay24 (F := Ideal) arg1 v31 v35 c512 j
      = Scalar.select (k0_pay23 arg1 v35 c512 j) (Ideal.ofBits .f32 0x00000000#32) (v31 j) := rfl

/-- The distances on the diagonal: zero where the mask is not set. -/
theorem pay25_apply (arg1 : BitVec 32) (v19 : FVec Ideal S1024x512 .f32) (v35 : IVec S1024x512 32) (c512 : BitVec 32)
    (j : S1024x512.Idx) :
    k0_pay25 (F := Ideal) arg1 v19 v35 c512 j
      = Scalar.select (k0_pay23 arg1 v35 c512 j) (v19 j) (Ideal.ofBits .f32 0x00000000#32) := rfl

/-- Two words of naturals below 8192 are equal iff the naturals are. -/
theorem ofNat32_inj {x y : ℕ} (hx : x < 8192) (hy : y < 8192) : BitVec.ofNat 32 x = BitVec.ofNat 32 y ↔ x = y := by
  constructor
  · intro h
    have h' := congrArg BitVec.toNat h
    simp only [BitVec.toNat_ofNat] at h'
    omega
  · rintro rfl; rfl

end Cert.KMath

end
-- ==== Proof.KMathPoint.lean ====
import proofs.«145610_j47124381171853_2_alg».proof.Proof.Model
import proofs.«145610_j47124381171853_2_alg».proof.Proof.Spec
import proofs.«145610_j47124381171853_2_alg».proof.Proof.KMathPayTile
import proofs.«145610_j47124381171853_2_alg».proof.Proof.KMathPayAcc

noncomputable section

open scoped BigOperators

namespace Cert.KMath

open Idealize.ShloMosaic Idealize.ShloMosaic.ValueIdx Cert.KernelIdeal Cert.KernelIdeal.Gen

open Cert.KernelIdeal.Model

/-! The tile payloads at point n of the grid, in the specification's terms: entry (p, c) of a tile concerns row
    `rowOf n p` and column `colOf n c` of the whole arrays. Then what one step adds to each accumulator. -/

section
variable (x : Cert.Spec.Xs) (t : Cert.Spec.Ts) (sqr : Vec Ideal S8192x1 .f32) (sqc : Vec Ideal S1x8192 .f32)
  (tr : Vec Ideal S8192x1 .i32) (tc : Vec Ideal S1x8192 .i32)

/-- The first grid coordinate of point n is the row tile. -/
theorem coords0 (n : ℕ) (hn : n < 128) : ((grid0.coords ⟨n, hn⟩) 0).val = n / 16 := by
  show n / grid0.stride 0 % 8 = n / 16
  have e : grid0.stride 0 = 16 := by decide
  rw [e]; omega
/-- The second is the column tile. -/
theorem coords1 (n : ℕ) (hn : n < 128) : ((grid0.coords ⟨n, hn⟩) 1).val = n % 16 := by
  show n / grid0.stride 1 % 16 = n % 16
  have e : grid0.stride 1 = 1 := by decide
  rw [e, Nat.div_one]

/-- A select on a bit that is set exactly when `P` holds is the `if` on `P`. -/
theorem select_iff {α : Type} {b : BitVec 1} {Q : Prop} [Decidable Q] (h : b = 1#1 ↔ Q) (A B : α) :
    Scalar.select b A B = if Q then A else B := by
  unfold Scalar.select
  exact if_congr h rfl rfl

/-- The indicator of a bit as a float: 1 when it is set, else 0. -/
theorem bit_toReal {b : BitVec 1} {Q : Prop} [Decidable Q] (h : b = 1#1 ↔ Q) :
    ((((b.setWidth 32).toInt : ℤ) : ℝ) : EReal) = if Q then 1 else 0 := by
  by_cases hb : b = 1#1
  · rw [if_pos (h.mp hb), hb]
    have e : ((1#1 : BitVec 1).setWidth 32).toInt = 1 := by decide
    rw [e]; simp
  · rw [if_neg (fun hq => hb (h.mpr hq)), eq_zero_of_ne_one hb]
    have e : ((0#1 : BitVec 1).setWidth 32).toInt = 0 := by decide
    rw [e]; simp

variable (hsqr : ∀ r : Fin 8192, sqr (ix2 r 0) = Cert.Spec.sq x r) (hsqc : ∀ c : Fin 8192, sqc (ix2 0 c) = Cert.Spec.sq x c)
  (htr : ∀ r : Fin 8192, tr (ix2 r 0) = t (ix1 r)) (htc : ∀ c : Fin 8192, tc (ix2 0 c) = t (ix1 c))

include hsqr hsqc in
theorem dist_tile (n : ℕ) (hn : n < 128) (p : Fin 1024) (c : Fin 512) :
    k0_pay19 (F := Ideal) (blocksAt x sqr sqc tr tc n hn).xi (blocksAt x sqr sqc tr tc n hn).xj
      (blocksAt x sqr sqc tr tc n hn).sqi (blocksAt x sqr sqc tr tc n hn).sqj (ix2 p c)
      = Cert.Spec.dist x (rowOf n hn p) (colOf n hn c) := by
  rw [pay19_apply]
  unfold Cert.Spec.dist Cert.Spec.dot Cert.Spec.eps Cert.Spec.two
  rw [← hsqr, ← hsqc]
  rfl

include hsqr hsqc in
theorem e_tile (n : ℕ) (hn : n < 128) (p : Fin 1024) (c : Fin 512) :
    k0_pay21 (F := Ideal) (blocksAt x sqr sqc tr tc n hn).xi (blocksAt x sqr sqc tr tc n hn).xj
      (blocksAt x sqr sqc tr tc n hn).sqi (blocksAt x sqr sqc tr tc n hn).sqj (ix2 p c)
      = Cert.Spec.e x (rowOf n hn p) (colOf n hn c) := by
  rw [pay21_apply, dist_tile x sqr sqc tr tc hsqr hsqc]
  rfl

include htr htc in
theorem same_tile (n : ℕ) (hn : n < 128) (p : Fin 1024) (c : Fin 512) :
    k0_pay20 (F := Ideal) (blocksAt x sqr sqc tr tc n hn).ti (blocksAt x sqr sqc tr tc n hn).tj (ix2 p c) = 1#1
      ↔ Cert.Spec.same t (rowOf n hn p) (colOf n hn c) := by
  rw [pay20_apply, IntOp.cmpi_eq]
  show tr (ix2 (rowOf n hn p) 0) = tc (ix2 0 (colOf n hn c)) ↔ _
  rw [htr, htc]
  exact Iff.rfl

theorem self_tile (n : ℕ) (hn : n < 128) (p : Fin 1024) (c : Fin 512) :
    k0_pay23 (BitVec.ofNat 32 ((grid0.coords ⟨n, hn⟩) 1).val) (k0_pay22 (grid0.coords ⟨n, hn⟩)) 512#32 (ix2 p c) = 1#1
      ↔ rowOf n hn p = colOf n hn c := by
  have hp := p.isLt
  have hc := c.isLt
  rw [pay23_apply, pay22_apply, IntOp.cmpi_eq, coords0, coords1, ofNat32_inj (by omega) (by omega)]
  constructor
  · intro h
    exact Fin.ext (by show 1024 * (n / 16) + p.val = 512 * (n % 16) + c.val; omega)
  · intro h
    have h' : 1024 * (n / 16) + p.val = 512 * (n % 16) + c.val := congrArg Fin.val h
    omega

/-! The six masked functions of (row, column) the accumulators sum. -/

/-- The weight off the diagonal. -/
def fE (r c : Fin 8192) : EReal := if r = c then 0 else Cert.Spec.e x r c
/-- The weight of a same-label pair off the diagonal. -/
def fSE (r c : Fin 8192) : EReal := if Cert.Spec.same t r c then fE x r c else 0
/-- The distance of a same-label pair. -/
def fSD (r c : Fin 8192) : EReal := if Cert.Spec.same t r c then Cert.Spec.dist x r c else 0
/-- The same-label indicator. -/
def fSC (r c : Fin 8192) : EReal := if Cert.Spec.same t r c then 1 else 0
/-- The distance on the diagonal. -/
def fDD (r c : Fin 8192) : EReal := if r = c then Cert.Spec.dist x r c else 0

include hsqr hsqc in
theorem step_totalE (p : Fin 1024) (l : Fin 128) (n : ℕ) (hn : n < 128) (a : Acc Ideal) :
    (step (grid0.coords ⟨n, hn⟩) (blocksAt x sqr sqc tr tc n hn) a).totalE (ix2 p l)
      = a.totalE (ix2 p l) + ∑ q : Fin 4, fE x (rowOf n hn p) (colOf n hn (col4 q l)) := by
  show k0_pay26 (F := Ideal) _ _ _ _ _ (ix2 p l) = _
  rw [pay26_apply]
  refine congrArg (a.totalE (ix2 p l) + ·) (Finset.sum_congr rfl fun q _ => ?_)
  rw [pay24_apply, select_iff (self_tile n hn p (col4 q l)), e_tile x sqr sqc tr tc hsqr hsqc, Ideal.ofBits_zero_f32]
  rfl

include hsqr hsqc htr htc in
theorem step_sameE (p : Fin 1024) (l : Fin 128) (n : ℕ) (hn : n < 128) (a : Acc Ideal) :
    (step (grid0.coords ⟨n, hn⟩) (blocksAt x sqr sqc tr tc n hn) a).sameE (ix2 p l)
      = a.sameE (ix2 p l) + ∑ q : Fin 4, fSE x t (rowOf n hn p) (colOf n hn (col4 q l)) := by
  show k0_pay27 (F := Ideal) _ _ _ _ _ _ (ix2 p l) = _
  rw [pay27_apply]
  refine congrArg (a.sameE (ix2 p l) + ·) (Finset.sum_congr rfl fun q _ => ?_)
  rw [select_iff (same_tile x t sqr sqc tr tc htr htc n hn p (col4 q l)), pay24_apply,
    select_iff (self_tile n hn p (col4 q l)), e_tile x sqr sqc tr tc hsqr hsqc, Ideal.ofBits_zero_f32]
  rfl

include hsqr hsqc in
theorem step_totalD (p : Fin 1024) (l : Fin 128) (n : ℕ) (hn : n < 128) (a : Acc Ideal) :
    (step (grid0.coords ⟨n, hn⟩) (blocksAt x sqr sqc tr tc n hn) a).totalD (ix2 p l)
      = a.totalD (ix2 p l) + ∑ q : Fin 4, Cert.Spec.dist x (rowOf n hn p) (colOf n hn (col4 q l)) := by
  show k0_pay28 (F := Ideal) _ _ (ix2 p l) = _
  rw [pay28_apply]
  refine congrArg (a.totalD (ix2 p l) + ·) (Finset.sum_congr rfl fun q _ => ?_)
  exact dist_tile x sqr sqc tr tc hsqr hsqc n hn p (col4 q l)

include hsqr hsqc htr htc in
theorem step_sameD (p : Fin 1024) (l : Fin 128) (n : ℕ) (hn : n < 128) (a : Acc Ideal) :
    (step (grid0.coords ⟨n, hn⟩) (blocksAt x sqr sqc tr tc n hn) a).sameD (ix2 p l)
      = a.sameD (ix2 p l) + ∑ q : Fin 4, fSD x t (rowOf n hn p) (colOf n hn (col4 q l)) := by
  show k0_pay1 (F := Ideal) _ (k0_pay29 (F := Ideal) _ _) (ix2 p l) = _
  rw [pay1_29_apply]
  refine congrArg (a.sameD (ix2 p l) + ·) (Finset.sum_congr rfl fun q _ => ?_)
  rw [select_iff (same_tile x t sqr sqc tr tc htr htc n hn p (col4 q l)), dist_tile x sqr sqc tr tc hsqr hsqc,
    Ideal.ofBits_zero_f32]
  rfl

include htr htc in
theorem step_sameC (p : Fin 1024) (l : Fin 128) (n : ℕ) (hn : n < 128) (a : Acc Ideal) :
    (step (grid0.coords ⟨n, hn⟩) (blocksAt x sqr sqc tr tc n hn) a).sameC (ix2 p l)
      = a.sameC (ix2 p l) + ∑ q : Fin 4, fSC t (rowOf n hn p) (colOf n hn (col4 q l)) := by
  show k0_pay2 (F := Ideal) _ _ (ix2 p l) = _
  rw [pay2_apply]
  refine congrArg (a.sameC (ix2 p l) + ·) (Finset.sum_congr rfl fun q _ => ?_)
  exact bit_toReal (same_tile x t sqr sqc tr tc htr htc n hn p (col4 q l))

include hsqr hsqc in
theorem step_diagD (p : Fin 1024) (l : Fin 128) (n : ℕ) (hn : n < 128) (a : Acc Ideal) :
    (step (grid0.coords ⟨n, hn⟩) (blocksAt x sqr sqc tr tc n hn) a).diagD (ix2 p l)
      = a.diagD (ix2 p l) + ∑ q : Fin 4, fDD x (rowOf n hn p) (colOf n hn (col4 q l)) := by
  show k0_pay3 (F := Ideal) _ _ (ix2 p l) = _
  rw [pay3_apply]
  refine congrArg (a.diagD (ix2 p l) + ·) (Finset.sum_congr rfl fun q _ => ?_)
  rw [pay25_apply, select_iff (self_tile n hn p (col4 q l)), dist_tile x sqr sqc tr tc hsqr hsqc, Ideal.ofBits_zero_f32]
  rfl

end

end Cert.KMath

end
-- ==== Proof.KMathConsts.lean ====
import proofs.«145610_j47124381171853_2_alg».proof.Proof.Spec

noncomputable section

open scoped BigOperators

namespace Cert.KMath

open Idealize.ShloMosaic Idealize.ShloMosaic.ValueIdx

/-! The literals of the two programs as the reals their patterns denote. -/

theorem one_eq : Cert.Spec.one = ((1 : ℝ) : EReal) := by
  unfold Cert.Spec.one; simp [Ideal.ofBits, Ideal.ieee, -EReal.coe_mul]; norm_num
theorem two_eq : Cert.Spec.two = ((2 : ℝ) : EReal) := by
  unfold Cert.Spec.two; simp [Ideal.ofBits, Ideal.ieee, -EReal.coe_mul]; norm_num
theorem alpha_eq : Cert.Spec.alpha = ((50 : ℝ) : EReal) := by
  unfold Cert.Spec.alpha; simp [Ideal.ofBits, Ideal.ieee, -EReal.coe_mul]; norm_num
theorem half_eq : Cert.Spec.half = ((1 / 2 : ℝ) : EReal) := by
  unfold Cert.Spec.half; simp [Ideal.ofBits, Ideal.ieee, -EReal.coe_mul]; norm_num
theorem nF_eq : Cert.Spec.nF = ((8192 : ℝ) : EReal) := by
  unfold Cert.Spec.nF; simp [Ideal.ofBits, Ideal.ieee, -EReal.coe_mul]; norm_num
theorem eps_eq : Cert.Spec.eps = (((9223372 : ℝ) * (2 : ℝ) ^ (-63 : ℤ) : ℝ) : EReal) := by
  unfold Cert.Spec.eps; simp [Ideal.ofBits, Ideal.ieee, -EReal.coe_mul]

end Cert.KMath

end
-- ==== Proof.KMathReal.lean ====
import proofs.«145610_j47124381171853_2_alg».proof.Proof.Spec
import proofs.«145610_j47124381171853_2_alg».proof.Proof.KMathConsts
import proofs.«145610_j47124381171853_2_alg».proof.Proof.KMathSums

noncomputable section

open scoped BigOperators

namespace Cert.KMath

open Idealize.ShloMosaic Idealize.ShloMosaic.ValueIdx

/-! When every entry of the feature array is a real, so is every squared norm, inner product, distance and weight,
    and every finite sum of them. -/

/-- The maximum of two reals, cast. -/
theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨u, hu⟩ := h a (Finset.mem_insert_self a s)
    obtain ⟨v, hv⟩ := ih fun i hi => h i (Finset.mem_insert_of_mem hi)
    exact ⟨u + v, by rw [Finset.sum_insert ha, hu, hv, EReal.coe_add]⟩

section
variable (x : Cert.Spec.Xs) (hx : ∀ i, ∃ r : ℝ, x i = (r : EReal))
include hx

theorem dot_real (r c : Fin 8192) : ∃ d : ℝ, Cert.Spec.dot x r c = (d : EReal) := by
  unfold Cert.Spec.dot
  refine sum_real _ _ fun k _ => ?_
  obtain ⟨u, hu⟩ := hx (ix2 r k)
  obtain ⟨v, hv⟩ := hx (ix2 c k)
  exact ⟨u * v, by rw [hu, hv, EReal.coe_mul]⟩

theorem sq_real (r : Fin 8192) : ∃ d : ℝ, Cert.Spec.sq x r = (d : EReal) := dot_real x hx r r

theorem dist_real (r c : Fin 8192) : ∃ d : ℝ, Cert.Spec.dist x r c = (d : EReal) := by
  obtain ⟨a, ha⟩ := sq_real x hx r
  obtain ⟨b, hb⟩ := sq_real x hx c
  obtain ⟨d, hd⟩ := dot_real x hx r c
  unfold Cert.Spec.dist
  rw [ha, hb, hd, two_eq, eps_eq, ← EReal.coe_mul, ← EReal.coe_add, ← EReal.coe_sub, coe_max', Ideal.sqrt_coe,
    if_neg (not_lt.mpr (le_max_of_le_left (by positivity)))]
  exact ⟨_, rfl⟩

theorem e_real (r c : Fin 8192) : ∃ d : ℝ, Cert.Spec.e x r c = (d : EReal) := by
  obtain ⟨d, hd⟩ := dist_real x hx r c
  unfold Cert.Spec.e
  rw [hd, alpha_eq, one_eq, ← EReal.coe_sub, ← EReal.coe_mul, Ideal.exp_coe]
  exact ⟨_, rfl⟩

end

/-- In the extended reals `(B + C) − B = C` when `B` is a real. -/
theorem add_sub_cancel_real {B C : EReal} (hB : ∃ b : ℝ, B = (b : EReal)) : B + C - B = C := by
  obtain ⟨b, rfl⟩ := hB
  exact EReal.add_sub_cancel_left

end Cert.KMath

end
-- ==== Proof.KMathRows.lean ====
import proofs.«145610_j47124381171853_2_alg».proof.Proof.KMathFold
import proofs.«145610_j47124381171853_2_alg».proof.Proof.KMathPoint
import proofs.«145610_j47124381171853_2_alg».proof.Proof.KMathReal

noncomputable section

open scoped BigOperators

namespace Cert.KMath

open Idealize.ShloMosaic Idealize.ShloMosaic.ValueIdx Cert.KernelIdeal Cert.KernelIdeal.Gen

open Cert.KernelIdeal.Model

/-! The six output columns of a row tile, at row p: the specification's six per-row quantities of the row of the whole
    array that row p of the tile is. -/

/-- The number of columns satisfying a condition, as a sum of indicators in the extended reals. -/
theorem count_sum (Q : Fin 8192 → Prop) [DecidablePred Q] :
    ∑ c : Fin 8192, (if Q c then (1 : EReal) else 0) = (((Finset.univ.filter Q).card : ℝ) : EReal) := by
  have h : ∀ c : Fin 8192, (if Q c then (1 : EReal) else 0) = (((if Q c then 1 else 0 : ℝ)) : EReal) := by
    intro c; split_ifs <;> simp
  rw [Finset.sum_congr rfl fun c _ => h c, ← coe_sum, Finset.sum_boole]

section
variable (x : Cert.Spec.Xs) (t : Cert.Spec.Ts)

/-- A row carries its own label. -/
theorem same_self (r : Fin 8192) : Cert.Spec.same t r r := rfl

theorem fSE_eq (r c : Fin 8192) :
    fSE x t r c = if Cert.Spec.same t r c ∧ r ≠ c then Cert.Spec.e x r c else 0 := by
  unfold fSE fE
  by_cases hs : Cert.Spec.same t r c <;> by_cases hrc : r = c <;> simp [hs, hrc]

theorem fE_split (r c : Fin 8192) :
    fE x r c = fSE x t r c + (if ¬ Cert.Spec.same t r c then Cert.Spec.e x r c else 0) := by
  unfold fSE fE
  by_cases hrc : r = c
  · subst hrc; simp [same_self t r]
  · by_cases hs : Cert.Spec.same t r c <;> simp [hs, hrc]

theorem fSD_split (r c : Fin 8192) :
    fSD x t r c = fDD x r c + (if Cert.Spec.same t r c ∧ r ≠ c then Cert.Spec.dist x r c else 0) := by
  unfold fSD fDD
  by_cases hrc : r = c
  · subst hrc; simp [same_self t r]
  · by_cases hs : Cert.Spec.same t r c <;> simp [hs, hrc]

theorem dist_split (r c : Fin 8192) :
    Cert.Spec.dist x r c = fSD x t r c + (if ¬ Cert.Spec.same t r c then Cert.Spec.dist x r c else 0) := by
  unfold fSD
  by_cases hs : Cert.Spec.same t r c <;> simp [hs]

theorem fSC_split (r c : Fin 8192) :
    fSC t r c = (if Cert.Spec.same t r c ∧ r ≠ c then (1 : EReal) else 0) + (if r = c then (1 : EReal) else 0) := by
  unfold fSC
  by_cases hrc : r = c
  · subst hrc; simp [same_self t r]
  · by_cases hs : Cert.Spec.same t r c <;> simp [hs, hrc]

variable (hx : ∀ i, ∃ r : ℝ, x i = (r : EReal))

include hx in
theorem fSE_real (r c : Fin 8192) : ∃ b : ℝ, fSE x t r c = (b : EReal) := by
  unfold fSE fE
  split_ifs
  · exact ⟨0, rfl⟩
  · exact e_real x hx r c
  · exact ⟨0, rfl⟩

include hx in
theorem fSD_real (r c : Fin 8192) : ∃ b : ℝ, fSD x t r c = (b : EReal) := by
  unfold fSD
  split_ifs
  · exact dist_real x hx r c
  · exact ⟨0, rfl⟩

include hx in
theorem fDD_real (r c : Fin 8192) : ∃ b : ℝ, fDD x r c = (b : EReal) := by
  unfold fDD
  split_ifs
  · exact dist_real x hx r c
  · exact ⟨0, rfl⟩

variable (sqr : Vec Ideal S8192x1 .f32) (sqc : Vec Ideal S1x8192 .f32)
  (tr : Vec Ideal S8192x1 .i32) (tc : Vec Ideal S1x8192 .i32)
  (hsqr : ∀ r : Fin 8192, sqr (ix2 r 0) = Cert.Spec.sq x r) (hsqc : ∀ c : Fin 8192, sqc (ix2 0 c) = Cert.Spec.sq x c)
  (htr : ∀ r : Fin 8192, tr (ix2 r 0) = t (ix1 r)) (htc : ∀ c : Fin 8192, tc (ix2 0 c) = t (ix1 c))
  (i : Fin 8) (h' : 16 * i.val + 15 < 128) (p : Fin 1024)

/-! The lane totals of the six accumulators after the row tile's last point. -/

include hsqr hsqc in
theorem total_totalE :
    ∑ l : Fin 128, (accAt x sqr sqc tr tc (16 * i.val + 15) h').totalE (ix2 p l)
      = ∑ c : Fin 8192, fE x (rowOf (16 * i.val + 15) h' p) c :=
  rowTotal x sqr sqc tr tc (fun l a => a.totalE (ix2 p l)) (fE x) p (fun l => zero13 (ix2 p l))
    (fun l n hn a => step_totalE x sqr sqc tr tc hsqr hsqc p l n hn a) i h'

include hsqr hsqc htr htc in
theorem total_sameE :
    ∑ l : Fin 128, (accAt x sqr sqc tr tc (16 * i.val + 15) h').sameE (ix2 p l)
      = ∑ c : Fin 8192, fSE x t (rowOf (16 * i.val + 15) h' p) c :=
  rowTotal x sqr sqc tr tc (fun l a => a.sameE (ix2 p l)) (fSE x t) p (fun l => zero14 (ix2 p l))
    (fun l n hn a => step_sameE x t sqr sqc tr tc hsqr hsqc htr htc p l n hn a) i h'

include hsqr hsqc in
theorem total_totalD :
    ∑ l : Fin 128, (accAt x sqr sqc tr tc (16 * i.val + 15) h').totalD (ix2 p l)
      = ∑ c : Fin 8192, Cert.Spec.dist x (rowOf (16 * i.val + 15) h' p) c :=
  rowTotal x sqr sqc tr tc (fun l a => a.totalD (ix2 p l)) (Cert.Spec.dist x) p (fun l => zero15 (ix2 p l))
    (fun l n hn a => step_totalD x sqr sqc tr tc hsqr hsqc p l n hn a) i h'

include hsqr hsqc htr htc in
theorem total_sameD :
    ∑ l : Fin 128, (accAt x sqr sqc tr tc (16 * i.val + 15) h').sameD (ix2 p l)
      = ∑ c : Fin 8192, fSD x t (rowOf (16 * i.val + 15) h' p) c :=
  rowTotal x sqr sqc tr tc (fun l a => a.sameD (ix2 p l)) (fSD x t) p (fun l => zero16 (ix2 p l))
    (fun l n hn a => step_sameD x t sqr sqc tr tc hsqr hsqc htr htc p l n hn a) i h'

include htr htc in
theorem total_sameC :
    ∑ l : Fin 128, (accAt x sqr sqc tr tc (16 * i.val + 15) h').sameC (ix2 p l)
      = ∑ c : Fin 8192, fSC t (rowOf (16 * i.val + 15) h' p) c :=
  rowTotal x sqr sqc tr tc (fun l a => a.sameC (ix2 p l)) (fSC t) p (fun l => zero17 (ix2 p l))
    (fun l n hn a => step_sameC x t sqr sqc tr tc htr htc p l n hn a) i h'

include hsqr hsqc in
theorem total_diagD :
    ∑ l : Fin 128, (accAt x sqr sqc tr tc (16 * i.val + 15) h').diagD (ix2 p l)
      = ∑ c : Fin 8192, fDD x (rowOf (16 * i.val + 15) h' p) c :=
  rowTotal x sqr sqc tr tc (fun l a => a.diagD (ix2 p l)) (fDD x) p (fun l => zero18 (ix2 p l))
    (fun l n hn a => step_diagD x sqr sqc tr tc hsqr hsqc p l n hn a) i h'

/-! The six results. -/

include hsqr hsqc htr htc in
theorem posLogit_row :
    (outs (accAt x sqr sqc tr tc (16 * i.val + 15) h')).posLogit (ix2 p 0)
      = Cert.Spec.posLogit x t (rowOf (16 * i.val + 15) h' p) := by
  show k0_pay7 (F := Ideal) _ (ix2 p 0) = _
  rw [pay7_apply, total_sameE x t sqr sqc tr tc hsqr hsqc htr htc]
  exact Finset.sum_congr rfl fun c _ => fSE_eq x t _ c

include hx hsqr hsqc htr htc in
theorem negLogit_row :
    (outs (accAt x sqr sqc tr tc (16 * i.val + 15) h')).negLogit (ix2 p 0)
      = Cert.Spec.negLogit x t (rowOf (16 * i.val + 15) h' p) := by
  show k0_pay9 (F := Ideal) _ _ (ix2 p 0) = _
  rw [pay9_apply, total_totalE x sqr sqc tr tc hsqr hsqc, total_sameE x t sqr sqc tr tc hsqr hsqc htr htc, mul_comm]
  refine congrArg (· * Cert.Spec.half) ?_
  rw [Finset.sum_congr rfl fun c _ => fE_split x t _ c, Finset.sum_add_distrib]
  exact add_sub_cancel_real (sum_real _ _ fun c _ => fSE_real x t hx _ c)

include hx hsqr hsqc htr htc in
theorem posDsum_row :
    (outs (accAt x sqr sqc tr tc (16 * i.val + 15) h')).posDsum (ix2 p 0)
      = Cert.Spec.posDsum x t (rowOf (16 * i.val + 15) h' p) := by
  show k0_pay10 (F := Ideal) _ _ (ix2 p 0) = _
  rw [pay10_apply, total_sameD x t sqr sqc tr tc hsqr hsqc htr htc, total_diagD x sqr sqc tr tc hsqr hsqc,
    Finset.sum_congr rfl fun c _ => fSD_split x t _ c, Finset.sum_add_distrib]
  exact add_sub_cancel_real (sum_real _ _ fun c _ => fDD_real x hx _ c)

include hx hsqr hsqc htr htc in
theorem negDsum_row :
    (outs (accAt x sqr sqc tr tc (16 * i.val + 15) h')).negDsum (ix2 p 0)
      = Cert.Spec.negDsum x t (rowOf (16 * i.val + 15) h' p) := by
  show k0_pay11 (F := Ideal) _ _ (ix2 p 0) = _
  rw [pay11_apply, total_totalD x sqr sqc tr tc hsqr hsqc, total_sameD x t sqr sqc tr tc hsqr hsqc htr htc,
    Finset.sum_congr rfl fun c _ => dist_split x t _ c, Finset.sum_add_distrib]
  exact add_sub_cancel_real (sum_real _ _ fun c _ => fSD_real x t hx _ c)

include htr htc in
theorem posCnt_row :
    (outs (accAt x sqr sqc tr tc (16 * i.val + 15) h')).posCnt (ix2 p 0)
      = Cert.Spec.posCnt t (rowOf (16 * i.val + 15) h' p) := by
  show k0_pay4 (F := Ideal) (k0_pay6 (F := Ideal) _) (k0_pay12 (F := Ideal)) (ix2 p 0) = _
  have e1 : Ideal.ofBits .f32 0x3F800000#32 = ((1 : ℝ) : EReal) := one_eq
  rw [pay4_apply, pay6_apply, pay12_apply, total_sameC x t sqr sqc tr tc htr htc,
    Finset.sum_congr rfl fun c _ => fSC_split t _ c, Finset.sum_add_distrib, count_sum, e1]
  have e2 : ∑ c : Fin 8192, (if rowOf (16 * i.val + 15) h' p = c then (1 : EReal) else 0) = ((1 : ℝ) : EReal) := by
    simp
  rw [e2]
  exact EReal.add_sub_cancel_right

include htr htc in
theorem negCnt_row :
    (outs (accAt x sqr sqc tr tc (16 * i.val + 15) h')).negCnt (ix2 p 0)
      = Cert.Spec.negCnt t (rowOf (16 * i.val + 15) h' p) := by
  show k0_pay5 (F := Ideal) (k0_pay6 (F := Ideal) _) (ix2 p 0) = _
  have e1 : Ideal.ofBits .f32 0x46000000#32 = ((8192 : ℝ) : EReal) := nF_eq
  rw [pay5_apply, pay6_apply, total_sameC x t sqr sqc tr tc htr htc, e1]
  unfold fSC Cert.Spec.negCnt
  rw [count_sum, ← EReal.coe_sub]
  refine congrArg _ ?_
  have hc := Finset.card_filter_add_card_filter_not (s := (Finset.univ : Finset (Fin 8192)))
    (fun c => Cert.Spec.same t (rowOf (16 * i.val + 15) h' p) c)
  rw [Finset.card_univ, Fintype.card_fin] at hc
  have hc' : (((Finset.univ.filter fun c => Cert.Spec.same t (rowOf (16 * i.val + 15) h' p) c).card : ℝ))
      + ((Finset.univ.filter fun c => ¬ Cert.Spec.same t (rowOf (16 * i.val + 15) h' p) c).card : ℝ) = 8192 := by
    exact_mod_cast hc
  linarith

end

end Cert.KMath

end
-- ==== Proof.KHostPre.lean ====
/-
  The kernel program's arrays when its region is entered. Seven host operations run before the region: two re-shapings
  of the label vector into a column [8192, 1] and a row [1, 8192], the elementwise square of the feature array, its
  row sums from the zero word, their broadcast into a column and the re-shaping of that column into a row. So, with
  x the feature argument and t the label argument: the arguments are untouched; the column and the row of squared norms
  hold sq x r at (r, 0) and sq x q at (0, q); the label column and row hold t r and t q.
-/
import proofs.«145610_j47124381171853_2_alg».proof.Proof.FrameKit
import proofs.«145610_j47124381171853_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The feature argument, as the region finds it. -/
abbrev xOf : Cert.Spec.Xs := m ((c.tc : Thread nD τ).loc main_arg0)
/-- The label argument, as the region finds it. -/
abbrev tOf : Cert.Spec.Ts := m ((c.tc : Thread nD τ).loc main_arg1)

/-- No host operation writes the feature argument. -/
theorem V_arg0 : V m c main_arg0 = m ((c.tc : Thread nD τ).loc main_arg0) := by
  show StableHlo.after hostOps0 (fun b => m (c, b)) (Proc.devRef .tc main_arg0) = _
  after_results

/-- No host operation writes the label argument. -/
theorem V_arg1 : V m c main_arg1 = m ((c.tc : Thread nD τ).loc main_arg1) := by
  show StableHlo.after hostOps0 (fun b => m (c, b)) (Proc.devRef .tc main_arg1) = _
  after_results

/-- The row sums of the elementwise square, from the zero word: a row's squared norm. -/
theorem rowsum_at (x : Cert.Spec.Xs) (r : Fin 8192) :
    Host.reduceAdd (F := Ideal) (mulf x x) (constant (F := Ideal) S_ .f32 0x00000000#32) reducesTo_S8192x128_S8192_d1 h_S_ (ix1 r)
      = Cert.Spec.sq x r := by
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  unfold Cert.Spec.sq
  refine Finset.sum_congr rfl fun k _ => ?_
  have e : ∀ h : S8192x128.Reduces [1] S8192, h.lift (ix1 r) k = ix2 r k := fun h =>
    funext fun a => Fin.ext (by match a with | ⟨0, _⟩ => rfl | ⟨1, _⟩ => rfl)
  show x _ * x _ = _
  rw [e]
  rfl

/-- The column of squared norms as the operations' term of the feature argument. -/
theorem V_v4_eq : (V m c main_v4 : S8192x1.Idx → EReal)
    = broadcastInDim S8192x1 ![0] bcast_S8192_S8192x1_0 (Host.reduceAdd (F := Ideal)
        (mulf (m ((c.tc : Thread nD τ).loc main_arg0)) (m ((c.tc : Thread nD τ).loc main_arg0)))
        (constant (F := Ideal) S_ .f32 0x00000000#32) reducesTo_S8192x128_S8192_d1 h_S_) := by
  show StableHlo.after hostOps0 (fun b => m (c, b)) (Proc.devRef .tc main_v4) = _
  after_results

/-- The row of squared norms: the column re-shaped. -/
theorem V_v5_eq : (V m c main_v5 : S1x8192.Idx → EReal)
    = shapeCast S1x8192 (V m c main_v4 : S8192x1.Idx → EReal) shapeCasts_S8192x1_S1x8192 := by
  rw [V_v4_eq]
  show StableHlo.after hostOps0 (fun b => m (c, b)) (Proc.devRef .tc main_v5) = _
  after_results
  rfl

/-- The label column: the label vector re-shaped. -/
theorem V_v0_eq : (V m c main_v0 : S8192x1.Idx → BitVec 32)
    = shapeCast S8192x1 (m ((c.tc : Thread nD τ).loc main_arg1) : S8192.Idx → BitVec 32) shapeCasts_S8192_S8192x1 := by
  show StableHlo.after hostOps0 (fun b => m (c, b)) (Proc.devRef .tc main_v0) = _
  after_results
  rfl

/-- The label row: the label vector re-shaped. -/
theorem V_v1_eq : (V m c main_v1 : S1x8192.Idx → BitVec 32)
    = shapeCast S1x8192 (m ((c.tc : Thread nD τ).loc main_arg1) : S8192.Idx → BitVec 32) shapeCasts_S8192_S1x8192 := by
  show StableHlo.after hostOps0 (fun b => m (c, b)) (Proc.devRef .tc main_v1) = _
  after_results
  rfl

/-- The column of squared norms at (r, 0). -/
theorem V_v4_at (r : Fin 8192) :
    (V m c main_v4 : S8192x1.Idx → EReal) (ix2 r (0 : Fin 1)) = Cert.Spec.sq (m ((c.tc : Thread nD τ).loc main_arg0)) r := by
  rw [V_v4_eq]
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  exact rowsum_at _ r

/-- The row of squared norms at (0, q). -/
theorem V_v5_at (q : Fin 8192) :
    (V m c main_v5 : S1x8192.Idx → EReal) (ix2 (0 : Fin 1) q) = Cert.Spec.sq (m ((c.tc : Thread nD τ).loc main_arg0)) q := by
  rw [V_v5_eq]
  refine (shapeCast_apply _ shapeCasts_S8192x1_S1x8192 (ix2 (0 : Fin 1) q) (ix2 q (0 : Fin 1)) (by
    rw [Shape.rowMajor_val_two, Shape.rowMajor_val_two]; show q.val * 1 + 0 = 0 * 8192 + q.val; omega)).trans ?_
  exact V_v4_at m c q

/-- The label column at (r, 0). -/
theorem V_v0_at (r : Fin 8192) :
    (V m c main_v0 : S8192x1.Idx → BitVec 32) (ix2 r (0 : Fin 1)) = (m ((c.tc : Thread nD τ).loc main_arg1) : S8192.Idx → BitVec 32) (ix1 r) := by
  rw [V_v0_eq]
  exact shapeCast_apply _ shapeCasts_S8192_S8192x1 (ix2 r (0 : Fin 1)) (ix1 r) (by
    rw [Shape.rowMajor_val_two, Shape.rowMajor_val_one]; show r.val = r.val * 1 + 0; omega)

/-- The label row at (0, q). -/
theorem V_v1_at (q : Fin 8192) :
    (V m c main_v1 : S1x8192.Idx → BitVec 32) (ix2 (0 : Fin 1) q) = (m ((c.tc : Thread nD τ).loc main_arg1) : S8192.Idx → BitVec 32) (ix1 q) := by
  rw [V_v1_eq]
  exact shapeCast_apply _ shapeCasts_S8192_S1x8192 (ix2 (0 : Fin 1) q) (ix1 q) (by
    rw [Shape.rowMajor_val_two, Shape.rowMajor_val_one]; show q.val = 0 * 8192 + q.val; omega)

end Cert.KHost

end
-- ==== Proof.KHostTail.lean ====
/-
  The kernel program's host operations after its region, at the ideal values, from any contents of the buffers in which
  the six output columns [8192, 1] hold, at (r, 0), the row's posLogit, negLogit, posDsum, negDsum, posCnt and negCnt.
  The operations re-shape the first two columns into vectors, form −log(p / (p + n)) per row, sum it from the zero
  word and divide by 8192: the loss. They sum the third and the fifth column over both axes and divide: the mean
  distance to the other rows of the same class; the fourth and the sixth likewise: the mean distance to the rows of
  another class. The remaining result is the constant one. A float sum over every axis is its initial value plus the sum
  over every index, and a sum over the indices of a column is the sum over its rows.
-/
import proofs.«145610_j47124381171853_2_alg».proof.Proof.FrameKit
import proofs.«145610_j47124381171853_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-- A sum over a rank-1 index set is the sum over its coordinate. -/
theorem sum_ix1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a column [n, 1] is the sum over its rows. -/
theorem sum_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A host float sum over every axis, from the zero word, at the ideal values: the sum over every index. -/
theorem reduceAdd_total_zero {s : Shape} {axes : List (Fin s.rank)} (h : s.ReducesTo axes S_) (y : FVec Ideal s .f32) (i : S_.Idx) :
    Host.reduceAdd (F := Ideal) y (constant (F := Ideal) S_ .f32 0x00000000#32) h h_S_ i = ∑ j : s.Idx, y j := by
  simp only [Host.reduceAdd, Ideal.hostReduceAdd_def]
  refine (Ideal.hostReduceAdd_total h (fun b => b.elim0) y _ i).trans ?_
  show Ideal.ofBits .f32 0x00000000#32 + _ = _
  rw [Ideal.ofBits_zero_f32, zero_add]

/-- A column re-shaped into a vector, at r: the column at (r, 0). -/
theorem col_at (y : S8192x1.Idx → EReal) (r : Fin 8192) :
    shapeCast S8192 y shapeCasts_S8192x1_S8192 (ix1 r) = y (ix2 r (0 : Fin 1)) :=
  shapeCast_apply _ shapeCasts_S8192x1_S8192 (ix1 r) (ix2 r (0 : Fin 1)) (by
    rw [Shape.rowMajor_val_two, Shape.rowMajor_val_one]; show r.val * 1 + 0 = r.val; omega)

/-- Two columns re-shaped into vectors p and n, the sum over rows of −log(p / (p + n)) from the zero word, divided by a
    constant: the sum over rows, divided. -/
theorem loss_of_cols (y0 y1 : FVec Ideal S8192x1 .f32) (A B : Fin 8192 → EReal)
    (h0 : ∀ r : Fin 8192, y0 (ix2 r (0 : Fin 1)) = A r) (h1 : ∀ r : Fin 8192, y1 (ix2 r (0 : Fin 1)) = B r) (i : S_.Idx) :
    Host.divf (F := Ideal) (Host.reduceAdd (F := Ideal)
        (Host.negf (Host.log (Host.divf (shapeCast S8192 y0 shapeCasts_S8192x1_S8192)
          (addf (shapeCast S8192 y0 shapeCasts_S8192x1_S8192) (shapeCast S8192 y1 shapeCasts_S8192x1_S8192)))))
        (constant (F := Ideal) S_ .f32 0x00000000#32) reducesTo_S8192_S_d0 h_S_) (constant (F := Ideal) S_ .f32 0x46000000#32) i
      = Ideal.div (∑ r : Fin 8192, -(Ideal.log (Ideal.div (A r) (A r + B r)))) (Ideal.ofBits .f32 0x46000000#32) := by
  show Ideal.div (Host.reduceAdd (F := Ideal) _ (constant (F := Ideal) S_ .f32 0x00000000#32) reducesTo_S8192_S_d0 h_S_ i) _ = _
  rw [reduceAdd_total_zero, sum_ix1]
  refine congrArg (Ideal.div · (Ideal.ofBits .f32 0x46000000#32)) (Finset.sum_congr rfl fun r _ => ?_)
  show -(Ideal.log (Ideal.div (shapeCast S8192 y0 shapeCasts_S8192x1_S8192 (ix1 r))
      (shapeCast S8192 y0 shapeCasts_S8192x1_S8192 (ix1 r) + shapeCast S8192 y1 shapeCasts_S8192x1_S8192 (ix1 r)))) = _
  rw [col_at, col_at, h0, h1]

/-- Two columns each summed over both axes from the zero word, and the quotient: the quotient of the sums over rows. -/
theorem ratio_of_cols (y z : FVec Ideal S8192x1 .f32) (A B : Fin 8192 → EReal)
    (hy : ∀ r : Fin 8192, y (ix2 r (0 : Fin 1)) = A r) (hz : ∀ r : Fin 8192, z (ix2 r (0 : Fin 1)) = B r) (i : S_.Idx) :
    Host.divf (F := Ideal) (Host.reduceAdd (F := Ideal) y (constant (F := Ideal) S_ .f32 0x00000000#32) reducesTo_S8192x1_S_d0_1 h_S_)
        (Host.reduceAdd (F := Ideal) z (constant (F := Ideal) S_ .f32 0x00000000#32) reducesTo_S8192x1_S_d0_1 h_S_) i
      = Ideal.div (∑ r : Fin 8192, A r) (∑ r : Fin 8192, B r) := by
  show Ideal.div (Host.reduceAdd (F := Ideal) y (constant (F := Ideal) S_ .f32 0x00000000#32) reducesTo_S8192x1_S_d0_1 h_S_ i)
    (Host.reduceAdd (F := Ideal) z (constant (F := Ideal) S_ .f32 0x00000000#32) reducesTo_S8192x1_S_d0_1 h_S_ i) = _
  rw [reduceAdd_total_zero, reduceAdd_total_zero, sum_col, sum_col,
    Finset.sum_congr rfl fun r _ => hy r, Finset.sum_congr rfl fun r _ => hz r]

variable (U : Valuation τ sig (Elt Ideal)) (x : Cert.Spec.Xs) (t : Cert.Spec.Ts)

/-- The first result after the host tail: the loss. -/
theorem tail_v14
    (h0 : ∀ r : Fin 8192, (U (Proc.devRef .tc main_v6_0) : S8192x1.Idx → EReal) (ix2 r (0 : Fin 1)) = Cert.Spec.posLogit x t r)
    (h1 : ∀ r : Fin 8192, (U (Proc.devRef .tc main_v6_1) : S8192x1.Idx → EReal) (ix2 r (0 : Fin 1)) = Cert.Spec.negLogit x t r) :
    (StableHlo.after hostOps1 U (Proc.devRef .tc main_v14) : S_.Idx → EReal) = fun _ => Cert.Spec.loss x t := by
  funext i
  after_results
  exact loss_of_cols (U (Proc.devRef .tc main_v6_0)) (U (Proc.devRef .tc main_v6_1)) _ _ h0 h1 i

/-- The second result after the host tail: the constant one. -/
theorem tail_cst6 :
    (StableHlo.after hostOps1 U (Proc.devRef .tc main_cst_6) : S_.Idx → EReal) = fun _ => Cert.Spec.prec := by
  after_results
  rfl

/-- The third result after the host tail: the mean distance to the other rows of the same class. -/
theorem tail_v17
    (h2 : ∀ r : Fin 8192, (U (Proc.devRef .tc main_v6_2) : S8192x1.Idx → EReal) (ix2 r (0 : Fin 1)) = Cert.Spec.posDsum x t r)
    (h4 : ∀ r : Fin 8192, (U (Proc.devRef .tc main_v6_4) : S8192x1.Idx → EReal) (ix2 r (0 : Fin 1)) = Cert.Spec.posCnt t r) :
    (StableHlo.after hostOps1 U (Proc.devRef .tc main_v17) : S_.Idx → EReal) = fun _ => Cert.Spec.posD x t := by
  funext i
  after_results
  exact ratio_of_cols (U (Proc.devRef .tc main_v6_2)) (U (Proc.devRef .tc main_v6_4)) _ _ h2 h4 i

/-- The fourth result after the host tail: the mean distance to the rows of another class. -/
theorem tail_v20
    (h3 : ∀ r : Fin 8192, (U (Proc.devRef .tc main_v6_3) : S8192x1.Idx → EReal) (ix2 r (0 : Fin 1)) = Cert.Spec.negDsum x t r)
    (h5 : ∀ r : Fin 8192, (U (Proc.devRef .tc main_v6_5) : S8192x1.Idx → EReal) (ix2 r (0 : Fin 1)) = Cert.Spec.negCnt t r) :
    (StableHlo.after hostOps1 U (Proc.devRef .tc main_v20) : S_.Idx → EReal) = fun _ => Cert.Spec.negD x t := by
  funext i
  after_results
  exact ratio_of_cols (U (Proc.devRef .tc main_v6_3)) (U (Proc.devRef .tc main_v6_5)) _ _ h3 h5 i

/-! The same four with the operations written as the flattening of the one-stretch list. -/

theorem tail_v14'
    (h0 : ∀ r : Fin 8192, (U (Proc.devRef .tc main_v6_0) : S8192x1.Idx → EReal) (ix2 r (0 : Fin 1)) = Cert.Spec.posLogit x t r)
    (h1 : ∀ r : Fin 8192, (U (Proc.devRef .tc main_v6_1) : S8192x1.Idx → EReal) (ix2 r (0 : Fin 1)) = Cert.Spec.negLogit x t r) :
    (StableHlo.after ([hostOps1] : List (List (HloOp τ sig (Elt Ideal)))).flatten U (Proc.devRef .tc main_v14) : S_.Idx → EReal)
      = fun _ => Cert.Spec.loss x t := by
  simp only [List.flatten_cons, List.flatten_nil, List.append_nil]
  exact tail_v14 U x t h0 h1

theorem tail_cst6' :
    (StableHlo.after ([hostOps1] : List (List (HloOp τ sig (Elt Ideal)))).flatten U (Proc.devRef .tc main_cst_6) : S_.Idx → EReal)
      = fun _ => Cert.Spec.prec := by
  simp only [List.flatten_cons, List.flatten_nil, List.append_nil]
  exact tail_cst6 U

theorem tail_v17'
    (h2 : ∀ r : Fin 8192, (U (Proc.devRef .tc main_v6_2) : S8192x1.Idx → EReal) (ix2 r (0 : Fin 1)) = Cert.Spec.posDsum x t r)
    (h4 : ∀ r : Fin 8192, (U (Proc.devRef .tc main_v6_4) : S8192x1.Idx → EReal) (ix2 r (0 : Fin 1)) = Cert.Spec.posCnt t r) :
    (StableHlo.after ([hostOps1] : List (List (HloOp τ sig (Elt Ideal)))).flatten U (Proc.devRef .tc main_v17) : S_.Idx → EReal)
      = fun _ => Cert.Spec.posD x t := by
  simp only [List.flatten_cons, List.flatten_nil, List.append_nil]
  exact tail_v17 U x t h2 h4

theorem tail_v20'
    (h3 : ∀ r : Fin 8192, (U (Proc.devRef .tc main_v6_3) : S8192x1.Idx → EReal) (ix2 r (0 : Fin 1)) = Cert.Spec.negDsum x t r)
    (h5 : ∀ r : Fin 8192, (U (Proc.devRef .tc main_v6_5) : S8192x1.Idx → EReal) (ix2 r (0 : Fin 1)) = Cert.Spec.negCnt t r) :
    (StableHlo.after ([hostOps1] : List (List (HloOp τ sig (Elt Ideal)))).flatten U (Proc.devRef .tc main_v20) : S_.Idx → EReal)
      = fun _ => Cert.Spec.negD x t := by
  simp only [List.flatten_cons, List.flatten_nil, List.append_nil]
  exact tail_v20 U x t h3 h5

end Cert.KHost

end
-- ==== Proof.KernelValue.lean ====
import proofs.«145610_j47124381171853_2_alg».proof.Proof.KMathRows
import proofs.«145610_j47124381171853_2_alg».proof.Proof.KHostPre
import proofs.«145610_j47124381171853_2_alg».proof.Proof.KHostTail

set_option maxRecDepth 16384

noncomputable section

open scoped BigOperators

namespace Cert.KernelValue

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-! The kernel program's values in the specification's terms. With x the feature argument and t the label argument:
    the six output columns the region computes hold, at row r, the six per-row quantities of row r; so the four results
    the operations after the region form from them are the loss, the constant one and the two mean distances. -/

/-- The last point of the row tile that holds row `r`. -/
theorem tile_lt (r : ℕ) (h : r < 8192) : 16 * (r / 1024) + 15 < 128 := by omega
/-- A row's place within its row tile. -/
theorem row_lt (r : ℕ) : r % 1024 < 1024 := Nat.mod_lt _ (by norm_num)

/-! First for any five arrays that hold the squared norms and the labels. -/

section Gen
variable (x : Cert.Spec.Xs) (t : Cert.Spec.Ts) (hx : ∀ i, ∃ r : ℝ, x i = (r : EReal))
  (sqr : Vec Ideal S8192x1 .f32) (sqc : Vec Ideal S1x8192 .f32) (tr : Vec Ideal S8192x1 .i32) (tc : Vec Ideal S1x8192 .i32)
  (hsqr : ∀ r : Fin 8192, sqr (ix2 r 0) = Cert.Spec.sq x r) (hsqc : ∀ c : Fin 8192, sqc (ix2 0 c) = Cert.Spec.sq x c)
  (htr : ∀ r : Fin 8192, tr (ix2 r 0) = t (ix1 r)) (htc : ∀ c : Fin 8192, tc (ix2 0 c) = t (ix1 c))
  (r : Fin 8192)

/-- Row `r % 1024` of row tile `r / 1024` is row `r`. -/
theorem rowOf_tile : Model.rowOf (16 * (r.val / 1024) + 15) (tile_lt r.val r.isLt) ⟨r.val % 1024, row_lt r.val⟩ = r :=
  Fin.ext (by
    have := r.isLt
    show 1024 * ((16 * (r.val / 1024) + 15) / 16) + r.val % 1024 = r.val
    omega)

include hsqr hsqc htr htc in
theorem gen_posLogit :
    (Model.outs (Model.accAt x sqr sqc tr tc (16 * (r.val / 1024) + 15) (tile_lt r.val r.isLt))).posLogit
      (ix2 (⟨r.val % 1024, row_lt r.val⟩ : Fin 1024) (0 : Fin 1)) = Cert.Spec.posLogit x t r := by
  have h := Cert.KMath.posLogit_row x t sqr sqc tr tc hsqr hsqc htr htc ⟨r.val / 1024, by have := r.isLt; omega⟩
    (tile_lt r.val r.isLt) ⟨r.val % 1024, row_lt r.val⟩
  rw [rowOf_tile] at h
  exact h

include hx hsqr hsqc htr htc in
theorem gen_negLogit :
    (Model.outs (Model.accAt x sqr sqc tr tc (16 * (r.val / 1024) + 15) (tile_lt r.val r.isLt))).negLogit
      (ix2 (⟨r.val % 1024, row_lt r.val⟩ : Fin 1024) (0 : Fin 1)) = Cert.Spec.negLogit x t r := by
  have h := Cert.KMath.negLogit_row x t hx sqr sqc tr tc hsqr hsqc htr htc ⟨r.val / 1024, by have := r.isLt; omega⟩
    (tile_lt r.val r.isLt) ⟨r.val % 1024, row_lt r.val⟩
  rw [rowOf_tile] at h
  exact h

include hx hsqr hsqc htr htc in
theorem gen_posDsum :
    (Model.outs (Model.accAt x sqr sqc tr tc (16 * (r.val / 1024) + 15) (tile_lt r.val r.isLt))).posDsum
      (ix2 (⟨r.val % 1024, row_lt r.val⟩ : Fin 1024) (0 : Fin 1)) = Cert.Spec.posDsum x t r := by
  have h := Cert.KMath.posDsum_row x t hx sqr sqc tr tc hsqr hsqc htr htc ⟨r.val / 1024, by have := r.isLt; omega⟩
    (tile_lt r.val r.isLt) ⟨r.val % 1024, row_lt r.val⟩
  rw [rowOf_tile] at h
  exact h

include hx hsqr hsqc htr htc in
theorem gen_negDsum :
    (Model.outs (Model.accAt x sqr sqc tr tc (16 * (r.val / 1024) + 15) (tile_lt r.val r.isLt))).negDsum
      (ix2 (⟨r.val % 1024, row_lt r.val⟩ : Fin 1024) (0 : Fin 1)) = Cert.Spec.negDsum x t r := by
  have h := Cert.KMath.negDsum_row x t hx sqr sqc tr tc hsqr hsqc htr htc ⟨r.val / 1024, by have := r.isLt; omega⟩
    (tile_lt r.val r.isLt) ⟨r.val % 1024, row_lt r.val⟩
  rw [rowOf_tile] at h
  exact h

include htr htc in
theorem gen_posCnt :
    (Model.outs (Model.accAt x sqr sqc tr tc (16 * (r.val / 1024) + 15) (tile_lt r.val r.isLt))).posCnt
      (ix2 (⟨r.val % 1024, row_lt r.val⟩ : Fin 1024) (0 : Fin 1)) = Cert.Spec.posCnt t r := by
  have h := Cert.KMath.posCnt_row x t sqr sqc tr tc htr htc ⟨r.val / 1024, by have := r.isLt; omega⟩
    (tile_lt r.val r.isLt) ⟨r.val % 1024, row_lt r.val⟩
  rw [rowOf_tile] at h
  exact h

include htr htc in
theorem gen_negCnt :
    (Model.outs (Model.accAt x sqr sqc tr tc (16 * (r.val / 1024) + 15) (tile_lt r.val r.isLt))).negCnt
      (ix2 (⟨r.val % 1024, row_lt r.val⟩ : Fin 1024) (0 : Fin 1)) = Cert.Spec.negCnt t r := by
  have h := Cert.KMath.negCnt_row x t sqr sqc tr tc htr htc ⟨r.val / 1024, by have := r.isLt; omega⟩
    (tile_lt r.val r.isLt) ⟨r.val % 1024, row_lt r.val⟩
  rw [rowOf_tile] at h
  exact h

end Gen

/-! Then for the arrays the program's region finds. -/

variable (m : (ℓ : Loc nD τ sig) → Buf (Elt Ideal) ℓ) (c : Dev nD)

/-- The accumulators after point `n`, from the arrays the region finds. -/
abbrev acc (n : ℕ) (hn : n < 128) : Model.Acc Ideal :=
  Model.accAt (V m c main_arg0) (V m c main_v4) (V m c main_v5) (V m c main_v0) (V m c main_v1) n hn

/-- The feature argument. -/
abbrev xOf : Cert.Spec.Xs := m ((c.tc : Thread nD τ).loc main_arg0)
/-- The label argument. -/
abbrev tOf : Cert.Spec.Ts := m ((c.tc : Thread nD τ).loc main_arg1)

theorem hsqr_V (r : Fin 8192) :
    (V m c main_v4 : S8192x1.Idx → EReal) (ix2 r (0 : Fin 1)) = Cert.Spec.sq (V m c main_arg0 : Cert.Spec.Xs) r := by
  rw [Cert.KHost.V_arg0]; exact Cert.KHost.V_v4_at m c r
theorem hsqc_V (q : Fin 8192) :
    (V m c main_v5 : S1x8192.Idx → EReal) (ix2 (0 : Fin 1) q) = Cert.Spec.sq (V m c main_arg0 : Cert.Spec.Xs) q := by
  rw [Cert.KHost.V_arg0]; exact Cert.KHost.V_v5_at m c q
theorem hx_V (hx : ∀ i, ∃ r : ℝ, xOf m c i = (r : EReal)) : ∀ i, ∃ r : ℝ, (V m c main_arg0 : Cert.Spec.Xs) i = (r : EReal) := by
  rw [Cert.KHost.V_arg0]; exact hx

section Rows
variable (hx : ∀ i, ∃ r : ℝ, xOf m c i = (r : EReal)) (r : Fin 8192)

theorem rows_posLogit :
    (Model.outs (acc m c (16 * (r.val / 1024) + 15) (tile_lt r.val r.isLt))).posLogit
      (ix2 (⟨r.val % 1024, row_lt r.val⟩ : Fin 1024) (0 : Fin 1)) = Cert.Spec.posLogit (xOf m c) (tOf m c) r :=
  (gen_posLogit (V m c main_arg0) (tOf m c) (V m c main_v4) (V m c main_v5) (V m c main_v0) (V m c main_v1)
    (hsqr_V m c) (hsqc_V m c) (Cert.KHost.V_v0_at m c) (Cert.KHost.V_v1_at m c) r).trans
    (congrArg (fun y : Cert.Spec.Xs => Cert.Spec.posLogit y (tOf m c) r) (Cert.KHost.V_arg0 m c))

include hx in
theorem rows_negLogit :
    (Model.outs (acc m c (16 * (r.val / 1024) + 15) (tile_lt r.val r.isLt))).negLogit
      (ix2 (⟨r.val % 1024, row_lt r.val⟩ : Fin 1024) (0 : Fin 1)) = Cert.Spec.negLogit (xOf m c) (tOf m c) r :=
  (gen_negLogit (V m c main_arg0) (tOf m c) (hx_V m c hx) (V m c main_v4) (V m c main_v5) (V m c main_v0) (V m c main_v1)
    (hsqr_V m c) (hsqc_V m c) (Cert.KHost.V_v0_at m c) (Cert.KHost.V_v1_at m c) r).trans
    (congrArg (fun y : Cert.Spec.Xs => Cert.Spec.negLogit y (tOf m c) r) (Cert.KHost.V_arg0 m c))

include hx in
theorem rows_posDsum :
    (Model.outs (acc m c (16 * (r.val / 1024) + 15) (tile_lt r.val r.isLt))).posDsum
      (ix2 (⟨r.val % 1024, row_lt r.val⟩ : Fin 1024) (0 : Fin 1)) = Cert.Spec.posDsum (xOf m c) (tOf m c) r :=
  (gen_posDsum (V m c main_arg0) (tOf m c) (hx_V m c hx) (V m c main_v4) (V m c main_v5) (V m c main_v0) (V m c main_v1)
    (hsqr_V m c) (hsqc_V m c) (Cert.KHost.V_v0_at m c) (Cert.KHost.V_v1_at m c) r).trans
    (congrArg (fun y : Cert.Spec.Xs => Cert.Spec.posDsum y (tOf m c) r) (Cert.KHost.V_arg0 m c))

include hx in
theorem rows_negDsum :
    (Model.outs (acc m c (16 * (r.val / 1024) + 15) (tile_lt r.val r.isLt))).negDsum
      (ix2 (⟨r.val % 1024, row_lt r.val⟩ : Fin 1024) (0 : Fin 1)) = Cert.Spec.negDsum (xOf m c) (tOf m c) r :=
  (gen_negDsum (V m c main_arg0) (tOf m c) (hx_V m c hx) (V m c main_v4) (V m c main_v5) (V m c main_v0) (V m c main_v1)
    (hsqr_V m c) (hsqc_V m c) (Cert.KHost.V_v0_at m c) (Cert.KHost.V_v1_at m c) r).trans
    (congrArg (fun y : Cert.Spec.Xs => Cert.Spec.negDsum y (tOf m c) r) (Cert.KHost.V_arg0 m c))

theorem rows_posCnt :
    (Model.outs (acc m c (16 * (r.val / 1024) + 15) (tile_lt r.val r.isLt))).posCnt
      (ix2 (⟨r.val % 1024, row_lt r.val⟩ : Fin 1024) (0 : Fin 1)) = Cert.Spec.posCnt (tOf m c) r :=
  gen_posCnt (V m c main_arg0) (tOf m c) (V m c main_v4) (V m c main_v5) (V m c main_v0) (V m c main_v1)
    (Cert.KHost.V_v0_at m c) (Cert.KHost.V_v1_at m c) r

theorem rows_negCnt :
    (Model.outs (acc m c (16 * (r.val / 1024) + 15) (tile_lt r.val r.isLt))).negCnt
      (ix2 (⟨r.val % 1024, row_lt r.val⟩ : Fin 1024) (0 : Fin 1)) = Cert.Spec.negCnt (tOf m c) r :=
  gen_negCnt (V m c main_arg0) (tOf m c) (V m c main_v4) (V m c main_v5) (V m c main_v0) (V m c main_v1)
    (Cert.KHost.V_v0_at m c) (Cert.KHost.V_v1_at m c) r

end Rows

/-! The four results, from any contents in which the six output columns hold, at every index (r, u), the column the
    row tile of r ends with, at row r % 1024. -/

section Results
variable (U : Valuation τ sig (Elt Ideal)) (hx : ∀ i, ∃ r : ℝ, xOf m c i = (r : EReal))

include hx in
theorem value_v14
    (h0 : ∀ idx : S8192x1.Idx, (U (Proc.devRef .tc main_v6_0) : S8192x1.Idx → EReal) idx
      = (Model.outs (acc m c (16 * ((idx 0).val / 1024) + 15) (tile_lt (idx 0).val (idx 0).isLt))).posLogit
          (ix2 (⟨(idx 0).val % 1024, row_lt (idx 0).val⟩ : Fin 1024) (idx 1)))
    (h1 : ∀ idx : S8192x1.Idx, (U (Proc.devRef .tc main_v6_1) : S8192x1.Idx → EReal) idx
      = (Model.outs (acc m c (16 * ((idx 0).val / 1024) + 15) (tile_lt (idx 0).val (idx 0).isLt))).negLogit
          (ix2 (⟨(idx 0).val % 1024, row_lt (idx 0).val⟩ : Fin 1024) (idx 1))) :
    (StableHlo.after ([hostOps1] : List (List (HloOp τ sig (Elt Ideal)))).flatten U (Proc.devRef .tc main_v14) : S_.Idx → EReal)
      = fun _ => Cert.Spec.loss (xOf m c) (tOf m c) :=
  Cert.KHost.tail_v14' U (xOf m c) (tOf m c)
    (fun r => (h0 (ix2 r (0 : Fin 1))).trans (rows_posLogit m c r))
    (fun r => (h1 (ix2 r (0 : Fin 1))).trans (rows_negLogit m c hx r))

theorem value_cst6 :
    (StableHlo.after ([hostOps1] : List (List (HloOp τ sig (Elt Ideal)))).flatten U (Proc.devRef .tc main_cst_6) : S_.Idx → EReal)
      = fun _ => Cert.Spec.prec :=
  Cert.KHost.tail_cst6' U

include hx in
theorem value_v17
    (h2 : ∀ idx : S8192x1.Idx, (U (Proc.devRef .tc main_v6_2) : S8192x1.Idx → EReal) idx
      = (Model.outs (acc m c (16 * ((idx 0).val / 1024) + 15) (tile_lt (idx 0).val (idx 0).isLt))).posDsum
          (ix2 (⟨(idx 0).val % 1024, row_lt (idx 0).val⟩ : Fin 1024) (idx 1)))
    (h4 : ∀ idx : S8192x1.Idx, (U (Proc.devRef .tc main_v6_4) : S8192x1.Idx → EReal) idx
      = (Model.outs (acc m c (16 * ((idx 0).val / 1024) + 15) (tile_lt (idx 0).val (idx 0).isLt))).posCnt
          (ix2 (⟨(idx 0).val % 1024, row_lt (idx 0).val⟩ : Fin 1024) (idx 1))) :
    (StableHlo.after ([hostOps1] : List (List (HloOp τ sig (Elt Ideal)))).flatten U (Proc.devRef .tc main_v17) : S_.Idx → EReal)
      = fun _ => Cert.Spec.posD (xOf m c) (tOf m c) :=
  Cert.KHost.tail_v17' U (xOf m c) (tOf m c)
    (fun r => (h2 (ix2 r (0 : Fin 1))).trans (rows_posDsum m c hx r))
    (fun r => (h4 (ix2 r (0 : Fin 1))).trans (rows_posCnt m c r))

include hx in
theorem value_v20
    (h3 : ∀ idx : S8192x1.Idx, (U (Proc.devRef .tc main_v6_3) : S8192x1.Idx → EReal) idx
      = (Model.outs (acc m c (16 * ((idx 0).val / 1024) + 15) (tile_lt (idx 0).val (idx 0).isLt))).negDsum
          (ix2 (⟨(idx 0).val % 1024, row_lt (idx 0).val⟩ : Fin 1024) (idx 1)))
    (h5 : ∀ idx : S8192x1.Idx, (U (Proc.devRef .tc main_v6_5) : S8192x1.Idx → EReal) idx
      = (Model.outs (acc m c (16 * ((idx 0).val / 1024) + 15) (tile_lt (idx 0).val (idx 0).isLt))).negCnt
          (ix2 (⟨(idx 0).val % 1024, row_lt (idx 0).val⟩ : Fin 1024) (idx 1))) :
    (StableHlo.after ([hostOps1] : List (List (HloOp τ sig (Elt Ideal)))).flatten U (Proc.devRef .tc main_v20) : S_.Idx → EReal)
      = fun _ => Cert.Spec.negD (xOf m c) (tOf m c) :=
  Cert.KHost.tail_v20' U (xOf m c) (tOf m c)
    (fun r => (h3 (ix2 r (0 : Fin 1))).trans (rows_negDsum m c hx r))
    (fun r => (h5 (ix2 r (0 : Fin 1))).trans (rows_negCnt m c r))

/-! The same with each hypothesis an equation of whole columns. -/

include hx in
theorem value_v14_fun
    (h0 : (U (Proc.devRef .tc main_v6_0) : S8192x1.Idx → EReal) = fun idx =>
      (Model.outs (acc m c (16 * ((idx 0).val / 1024) + 15) (tile_lt (idx 0).val (idx 0).isLt))).posLogit
          (ix2 (⟨(idx 0).val % 1024, row_lt (idx 0).val⟩ : Fin 1024) (idx 1)))
    (h1 : (U (Proc.devRef .tc main_v6_1) : S8192x1.Idx → EReal) = fun idx =>
      (Model.outs (acc m c (16 * ((idx 0).val / 1024) + 15) (tile_lt (idx 0).val (idx 0).isLt))).negLogit
          (ix2 (⟨(idx 0).val % 1024, row_lt (idx 0).val⟩ : Fin 1024) (idx 1))) :
    (StableHlo.after ([hostOps1] : List (List (HloOp τ sig (Elt Ideal)))).flatten U (Proc.devRef .tc main_v14) : S_.Idx → EReal)
      = fun _ => Cert.Spec.loss (xOf m c) (tOf m c) :=
  value_v14 m c U hx (fun idx => congrFun h0 idx) (fun idx => congrFun h1 idx)

include hx in
theorem value_v17_fun
    (h2 : (U (Proc.devRef .tc main_v6_2) : S8192x1.Idx → EReal) = fun idx =>
      (Model.outs (acc m c (16 * ((idx 0).val / 1024) + 15) (tile_lt (idx 0).val (idx 0).isLt))).posDsum
          (ix2 (⟨(idx 0).val % 1024, row_lt (idx 0).val⟩ : Fin 1024) (idx 1)))
    (h4 : (U (Proc.devRef .tc main_v6_4) : S8192x1.Idx → EReal) = fun idx =>
      (Model.outs (acc m c (16 * ((idx 0).val / 1024) + 15) (tile_lt (idx 0).val (idx 0).isLt))).posCnt
          (ix2 (⟨(idx 0).val % 1024, row_lt (idx 0).val⟩ : Fin 1024) (idx 1))) :
    (StableHlo.after ([hostOps1] : List (List (HloOp τ sig (Elt Ideal)))).flatten U (Proc.devRef .tc main_v17) : S_.Idx → EReal)
      = fun _ => Cert.Spec.posD (xOf m c) (tOf m c) :=
  value_v17 m c U hx (fun idx => congrFun h2 idx) (fun idx => congrFun h4 idx)

include hx in
theorem value_v20_fun
    (h3 : (U (Proc.devRef .tc main_v6_3) : S8192x1.Idx → EReal) = fun idx =>
      (Model.outs (acc m c (16 * ((idx 0).val / 1024) + 15) (tile_lt (idx 0).val (idx 0).isLt))).negDsum
          (ix2 (⟨(idx 0).val % 1024, row_lt (idx 0).val⟩ : Fin 1024) (idx 1)))
    (h5 : (U (Proc.devRef .tc main_v6_5) : S8192x1.Idx → EReal) = fun idx =>
      (Model.outs (acc m c (16 * ((idx 0).val / 1024) + 15) (tile_lt (idx 0).val (idx 0).isLt))).negCnt
          (ix2 (⟨(idx 0).val % 1024, row_lt (idx 0).val⟩ : Fin 1024) (idx 1))) :
    (StableHlo.after ([hostOps1] : List (List (HloOp τ sig (Elt Ideal)))).flatten U (Proc.devRef .tc main_v20) : S_.Idx → EReal)
      = fun _ => Cert.Spec.negD (xOf m c) (tOf m c) :=
  value_v20 m c U hx (fun idx => congrFun h3 idx) (fun idx => congrFun h5 idx)

end Results

end Cert.KernelValue

end
-- ==== Proof.KernelRunCols.lean ====
import proofs.«145610_j47124381171853_2_alg».proof.Proof.HandLaunch
import proofs.«145610_j47124381171853_2_alg».proof.Proof.FinalArraysRun
import proofs.«145610_j47124381171853_2_alg».proof.Proof.FrameModelAcc
import proofs.«145610_j47124381171853_2_alg».proof.Proof.KernelValue

set_option maxRecDepth 16384

noncomputable section

namespace Cert.KernelRun

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Cert.KernelValue (acc xOf tOf tile_lt row_lt)

/-! The six output columns in the contents the operations after the region start from: at every index (r, u) the
    column the model's outputs give at the last point of the row tile of r, at row r % 1024. -/

/-- The last point of the row tile that holds row `r` is a point of the grid. -/
theorem pt_lt (r : ℕ) (h : r < 8192) : 16 * (r / 1024) + 15 < cfg0.N := by
  have e : cfg0.N = 128 := N_0
  omega
/-- It is the last column tile of its row tile. -/
theorem pt_mod (r : ℕ) : (16 * (r / 1024) + 15) % 16 = 15 := by omega

variable (m : (ℓ : Loc nD τ sig) → Buf (Elt Ideal) ℓ) (c : Dev nD)

theorem col0 (idx : S8192x1.Idx) :
    (Uexit m (dats m) c (Proc.devRef .tc main_v6_0) : S8192x1.Idx → EReal) idx
      = (Model.outs (acc m c (16 * ((idx 0).val / 1024) + 15) (tile_lt (idx 0).val (idx 0).isLt))).posLogit
          (ix2 (⟨(idx 0).val % 1024, row_lt (idx 0).val⟩ : Fin 1024) (idx 1)) :=
  (congrFun ((Uexit_out0 m (dats m) c).trans (final6 m c)) idx).trans
    (congrArg (fun o : Model.Outs Ideal => o.posLogit (ix2 (⟨(idx 0).val % 1024, row_lt (idx 0).val⟩ : Fin 1024) (idx 1)))
      (oAt0_eq_outs_accAt m c ⟨16 * ((idx 0).val / 1024) + 15, pt_lt (idx 0).val (idx 0).isLt⟩ (pt_mod (idx 0).val)
        (tile_lt (idx 0).val (idx 0).isLt)))

theorem col1 (idx : S8192x1.Idx) :
    (Uexit m (dats m) c (Proc.devRef .tc main_v6_1) : S8192x1.Idx → EReal) idx
      = (Model.outs (acc m c (16 * ((idx 0).val / 1024) + 15) (tile_lt (idx 0).val (idx 0).isLt))).negLogit
          (ix2 (⟨(idx 0).val % 1024, row_lt (idx 0).val⟩ : Fin 1024) (idx 1)) :=
  (congrFun ((Uexit_out1 m (dats m) c).trans (final7 m c)) idx).trans
    (congrArg (fun o : Model.Outs Ideal => o.negLogit (ix2 (⟨(idx 0).val % 1024, row_lt (idx 0).val⟩ : Fin 1024) (idx 1)))
      (oAt0_eq_outs_accAt m c ⟨16 * ((idx 0).val / 1024) + 15, pt_lt (idx 0).val (idx 0).isLt⟩ (pt_mod (idx 0).val)
        (tile_lt (idx 0).val (idx 0).isLt)))

theorem col2 (idx : S8192x1.Idx) :
    (Uexit m (dats m) c (Proc.devRef .tc main_v6_2) : S8192x1.Idx → EReal) idx
      = (Model.outs (acc m c (16 * ((idx 0).val / 1024) + 15) (tile_lt (idx 0).val (idx 0).isLt))).posDsum
          (ix2 (⟨(idx 0).val % 1024, row_lt (idx 0).val⟩ : Fin 1024) (idx 1)) :=
  (congrFun ((Uexit_out2 m (dats m) c).trans (final8 m c)) idx).trans
    (congrArg (fun o : Model.Outs Ideal => o.posDsum (ix2 (⟨(idx 0).val % 1024, row_lt (idx 0).val⟩ : Fin 1024) (idx 1)))
      (oAt0_eq_outs_accAt m c ⟨16 * ((idx 0).val / 1024) + 15, pt_lt (idx 0).val (idx 0).isLt⟩ (pt_mod (idx 0).val)
        (tile_lt (idx 0).val (idx 0).isLt)))

theorem col3 (idx : S8192x1.Idx) :
    (Uexit m (dats m) c (Proc.devRef .tc main_v6_3) : S8192x1.Idx → EReal) idx
      = (Model.outs (acc m c (16 * ((idx 0).val / 1024) + 15) (tile_lt (idx 0).val (idx 0).isLt))).negDsum
          (ix2 (⟨(idx 0).val % 1024, row_lt (idx 0).val⟩ : Fin 1024) (idx 1)) :=
  (congrFun ((Uexit_out3 m (dats m) c).trans (final9 m c)) idx).trans
    (congrArg (fun o : Model.Outs Ideal => o.negDsum (ix2 (⟨(idx 0).val % 1024, row_lt (idx 0).val⟩ : Fin 1024) (idx 1)))
      (oAt0_eq_outs_accAt m c ⟨16 * ((idx 0).val / 1024) + 15, pt_lt (idx 0).val (idx 0).isLt⟩ (pt_mod (idx 0).val)
        (tile_lt (idx 0).val (idx 0).isLt)))

theorem col4 (idx : S8192x1.Idx) :
    (Uexit m (dats m) c (Proc.devRef .tc main_v6_4) : S8192x1.Idx → EReal) idx
      = (Model.outs (acc m c (16 * ((idx 0).val / 1024) + 15) (tile_lt (idx 0).val (idx 0).isLt))).posCnt
          (ix2 (⟨(idx 0).val % 1024, row_lt (idx 0).val⟩ : Fin 1024) (idx 1)) :=
  (congrFun ((Uexit_out4 m (dats m) c).trans (final10 m c)) idx).trans
    (congrArg (fun o : Model.Outs Ideal => o.posCnt (ix2 (⟨(idx 0).val % 1024, row_lt (idx 0).val⟩ : Fin 1024) (idx 1)))
      (oAt0_eq_outs_accAt m c ⟨16 * ((idx 0).val / 1024) + 15, pt_lt (idx 0).val (idx 0).isLt⟩ (pt_mod (idx 0).val)
        (tile_lt (idx 0).val (idx 0).isLt)))

theorem col5 (idx : S8192x1.Idx) :
    (Uexit m (dats m) c (Proc.devRef .tc main_v6_5) : S8192x1.Idx → EReal) idx
      = (Model.outs (acc m c (16 * ((idx 0).val / 1024) + 15) (tile_lt (idx 0).val (idx 0).isLt))).negCnt
          (ix2 (⟨(idx 0).val % 1024, row_lt (idx 0).val⟩ : Fin 1024) (idx 1)) :=
  (congrFun ((Uexit_out5 m (dats m) c).trans (final11 m c)) idx).trans
    (congrArg (fun o : Model.Outs Ideal => o.negCnt (ix2 (⟨(idx 0).val % 1024, row_lt (idx 0).val⟩ : Fin 1024) (idx 1)))
      (oAt0_eq_outs_accAt m c ⟨16 * ((idx 0).val / 1024) + 15, pt_lt (idx 0).val (idx 0).isLt⟩ (pt_mod (idx 0).val)
        (tile_lt (idx 0).val (idx 0).isLt)))

end Cert.KernelRun

end
-- ==== Proof.PreFinite.lean ====
/-
  The precondition read back. It says that the conjunction over all entries of "|x| < +∞" is the bit one; so every
  entry's absolute value max x (−x) is below +∞, which for an extended real means that it is neither +∞ nor −∞: it is
  a real number.
-/
import proofs.«145610_j47124381171853_2_alg».proof.Proof.Gen.Pre_finite_inputs
import Idealize.ShloMosaic.PureOps.Ideal.Laws
import Idealize.ShloMosaic.Lib.ReduceAll
import Idealize.ShloMosaic.Lib.ValueIdx
import Idealize.ShloMosaic.Lib.WordArith

noncomputable section

namespace Cert.PreFinite

open Cert.Pre_finite_inputs Idealize.ShloMosaic Idealize.ShloMosaic.ValueIdx

/-- The rank-0 shape has one index. -/
instance : Subsingleton S_.Idx := ⟨fun a b => funext fun d => d.elim0⟩

/-- The word 0x7F800000 is +∞. -/
theorem ofBits_inf : Ideal.ofBits .f32 0x7F800000#32 = ⊤ := by
  simp [Ideal.ofBits, Ideal.ieee]

/-- An extended real whose absolute value max a (−a) is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition every entry of the feature array is a real number. -/
theorem finite_of_pre [Cert.Pre_finite_inputs.Facts] (x : FVec Ideal S8192x128 .f32) (t : IVec S8192 32)
    (h : Cert.Pre_finite_inputs.fn (F := Ideal) x t = fun _ => 1#1) : ∀ i, ∃ r : ℝ, x i = (r : EReal) := by
  intro i
  have h0 := congrFun h ix0
  dsimp only [Cert.Pre_finite_inputs.fn] at h0
  have hi := Host.reduce_andi_all _ _ _ _ _ h0 i
  have hlt : max (x i) (-(x i)) < Ideal.ofBits .f32 0x7F800000#32 := by
    have hi' : BitVec.ofBool (decide (max (x i) (-(x i)) < Ideal.ofBits .f32 0x7F800000#32)) = 1#1 := hi
    exact of_decide_eq_true ((WordArith.ofBool_eq_one_iff _).1 hi')
  rw [ofBits_inf] at hlt
  exact real_of_abs_lt_top (x i) hlt

end Cert.PreFinite

end
-- ==== Proof.KernelValueFin.lean ====
import proofs.«145610_j47124381171853_2_alg».proof.Defs
import proofs.«145610_j47124381171853_2_alg».proof.Proof.PreFinite

noncomputable section

namespace Cert.KernelValue

open Idealize.ShloMosaic Idealize.SL.Sem

/-- Under the kernel program's precondition every entry of its feature argument is a real number, on every device. -/
theorem hx_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, (m ((c.tc : Thread Cert.KernelIdeal.nD Cert.KernelIdeal.τ).loc Cert.KernelIdeal.main_arg0)) i = (r : EReal) :=
  Cert.PreFinite.finite_of_pre _ _ (hpre c)

end Cert.KernelValue

end
-- ==== Proof.RefValueElem.lean ====
/-
  The reference program's arrays read at one index. For rows r, c the 8192×8192 arrays it forms hold, at (r, c): the
  clipped distance of the two rows, its exponential weight, and the two masks — "same label and r ≠ c" (the label
  comparison and the complement of the comparison of the two iotas) and "another label" — as one-bit words; a select
  by such a word against the zero word is the `if … then … else 0` of the proposition.
-/
import proofs.«145610_j47124381171853_2_alg».proof.Proof.Gen.ReferenceIdeal.Read
import proofs.«145610_j47124381171853_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A select by the one-bit word of a proposition is the `if` of the proposition. -/
theorem select_ite {α : Type} (p : Prop) [Decidable p] (a z : α) :
    Scalar.select (if p then 1#1 else 0#1) a z = if p then a else z := by
  by_cases h : p
  · rw [if_pos h, if_pos h]; exact select_one a z
  · rw [if_neg h, if_neg h]; exact select_zero a z

/-- The word of an equality comparison is the word of the equality. -/
theorem cmpi_eq_word {w : Nat} (a b : BitVec w) : IntOp.cmpi .eq a b = if a = b then 1#1 else 0#1 := by
  by_cases h : a = b
  · subst h; simp [IntOp.cmpi]
  · rw [if_neg h]
    have hb : (a == b) = false := beq_eq_false_iff_ne.mpr h
    simp [IntOp.cmpi, hb]

variable (x : Cert.Spec.Xs) (t : Cert.Spec.Ts)

/-- The row sums of squares: a row's squared norm. -/
theorem v1_at (r : Fin 8192) : val_main_v1 (F := Ideal) x (ix1 r) = Cert.Spec.sq x r := by
  rw [val_main_v1_apply, val_main_cst_apply]
  show Ideal.ofBits .f32 0x00000000#32 + _ = _
  rw [Ideal.ofBits_zero_f32, zero_add]
  unfold Cert.Spec.sq
  refine Finset.sum_congr rfl fun k _ => ?_
  rw [val_main_v0_apply]
  have e : idx_main_v1 (ix1 r) k = ix2 r k := funext fun a => Fin.ext (by match a with | ⟨0, _⟩ => rfl | ⟨1, _⟩ => rfl)
  rw [e]
  rfl

/-- The product with the transpose at (r, c): the two rows' inner product. -/
theorem v8_at (r c : Fin 8192) : val_main_v8 (F := Ideal) x (ix2 r c) = Cert.Spec.dot x r c := by
  rw [val_main_v8_apply]
  unfold Cert.Spec.dot
  refine Finset.sum_congr rfl fun k _ => ?_
  rw [val_main_v7_apply]
  have e1 : lidx_main_v8 (ix2 r c) k = ix2 r k := funext fun a => Fin.ext (by match a with | ⟨0, _⟩ => rfl | ⟨1, _⟩ => rfl)
  have e2 : idx_main_v7 (ridx_main_v8 (ix2 r c) k) = ix2 c k :=
    funext fun a => Fin.ext (by match a with | ⟨0, _⟩ => rfl | ⟨1, _⟩ => rfl)
  rw [e1, e2]

/-- The distance array at (r, c). -/
theorem v13_at (r c : Fin 8192) : val_main_v13 (F := Ideal) x (ix2 r c) = Cert.Spec.dist x r c := by
  rw [val_main_v13_apply, val_main_v12_apply, val_main_call0_v1_apply, val_main_call0_v0_apply, val_main_cst_1_apply,
    val_main_v11_apply, val_main_v6_apply, val_main_v4_apply, val_main_v2_apply, val_main_v5_apply, val_main_v3_apply,
    val_main_v10_apply, val_main_v9_apply, val_main_cst_0_apply, v8_at]
  have e1 : idx_main_v2 (idx_main_v4 (ix2 r c)) = ix1 r := funext fun a => Fin.ext (by match a with | ⟨0, _⟩ => rfl)
  have e2 : idx_main_v3 (idx_main_v5 (ix2 r c)) = ix1 c := funext fun a => Fin.ext (by match a with | ⟨0, _⟩ => rfl)
  rw [e1, e2, v1_at, v1_at]
  rfl

/-- The weight array at (r, c). -/
theorem v31_at (r c : Fin 8192) : val_main_v31 (F := Ideal) x (ix2 r c) = Cert.Spec.e x r c := by
  rw [val_main_v31_apply, val_main_v30_apply, val_main_v29_apply, val_main_cst_3_apply, val_main_v28_apply,
    val_main_v27_apply, val_main_cst_2_apply, v13_at]
  rfl

/-- The label comparison at (r, c). -/
theorem v18_at (r c : Fin 8192) :
    val_main_v18 (F := Ideal) t (ix2 r c) = if Cert.Spec.same t r c then 1#1 else 0#1 := by
  rw [val_main_v18_apply, val_main_v16_apply, val_main_v14_apply, val_main_v17_apply, val_main_v15_apply]
  have e1 : idx_main_v14 (idx_main_v16 (ix2 r c)) = ix1 r := funext fun a => Fin.ext (by match a with | ⟨0, _⟩ => rfl)
  have e2 : idx_main_v15 (idx_main_v17 (ix2 r c)) = ix1 c := funext fun a => Fin.ext (by match a with | ⟨0, _⟩ => rfl)
  rw [e1, e2]
  rw [cmpi_eq_word]
  by_cases h : Cert.Spec.same t r c
  · rw [if_pos h, if_pos (show t (ix1 r) = t (ix1 c) from h)]
  · rw [if_neg h, if_neg (show ¬ t (ix1 r) = t (ix1 c) from h)]

/-- The comparison of the two iotas at (r, c): the word of r = c. -/
theorem v23_at (r c : Fin 8192) : val_main_v23 (F := Ideal) (ix2 r c) = if r = c then 1#1 else 0#1 := by
  rw [val_main_v23_apply, val_main_v22_apply, val_main_v19_apply, val_main_v20_apply, val_main_v21_apply, val_main_c_apply]
  show IntOp.cmpi .eq (IntOp.addi (BitVec.ofNat 32 r.val) 0#32) (BitVec.ofNat 32 c.val) = _
  have hr := r.isLt
  have hc := c.isLt
  rw [show IntOp.addi (BitVec.ofNat 32 r.val) 0#32 = BitVec.ofNat 32 r.val from BitVec.add_zero _, cmpi_eq_word]
  by_cases h : r = c
  · subst h; rw [if_pos rfl, if_pos rfl]
  · have hne : ¬ (BitVec.ofNat 32 r.val = BitVec.ofNat 32 c.val) := by
      intro e
      have e' := congrArg BitVec.toNat e
      simp only [BitVec.toNat_ofNat] at e'
      exact h (Fin.ext (by omega))
    rw [if_neg h, if_neg hne]

/-- The mask of the other rows of the same class at (r, c). -/
theorem v25_at (r c : Fin 8192) :
    val_main_v25 (F := Ideal) t (ix2 r c) = if Cert.Spec.same t r c ∧ r ≠ c then 1#1 else 0#1 := by
  rw [val_main_v25_apply, val_main_v24_apply, v18_at, v23_at]
  by_cases h1 : Cert.Spec.same t r c <;> by_cases h2 : r = c <;> simp [h1, h2, IntOp.andi]

/-- The mask of the rows of another class at (r, c). -/
theorem v26_at (r c : Fin 8192) :
    val_main_v26 (F := Ideal) t (ix2 r c) = if ¬ Cert.Spec.same t r c then 1#1 else 0#1 := by
  rw [val_main_v26_apply, v18_at]
  by_cases h1 : Cert.Spec.same t r c <;> simp [h1]

end Cert.RefValue

end
-- ==== Proof.RefValueLoss.lean ====
/-
  The reference's first result. Per row r the two masked row sums of the weight array are the row's posLogit and, times
  one half, its negLogit; the result is the sum over rows of −log(posLogit / (posLogit + negLogit)) divided by 8192.
  A float sum at the ideal values is its initial value, the zero word, plus the sum.
-/
import proofs.«145610_j47124381171853_2_alg».proof.Proof.RefValueElem

noncomputable section

open scoped BigOperators

namespace Cert.RefValue

open Cert.ReferenceIdeal Cert.ReferenceIdeal.Gen Cert.ReferenceIdeal.Read Idealize.ShloMosaic Idealize.ShloMosaic.ValueIdx

variable (x : Cert.Spec.Xs) (t : Cert.Spec.Ts)

/-- The weights masked to the other rows of the same class, at (r, c). -/
theorem v32_at (r c : Fin 8192) :
    val_main_v32 (F := Ideal) x t (ix2 r c) = if Cert.Spec.same t r c ∧ r ≠ c then Cert.Spec.e x r c else 0 := by
  rw [val_main_v32_apply, v25_at, v31_at, val_main_call1_v1_apply, val_main_call1_v0_apply, val_main_cst_4_apply, select_ite]
  show (if _ then _ else Ideal.ofBits .f32 0x00000000#32) = _
  rw [Ideal.ofBits_zero_f32]

/-- The weights masked to the rows of another class, at (r, c). -/
theorem v34_at (r c : Fin 8192) :
    val_main_v34 (F := Ideal) x t (ix2 r c) = if ¬ Cert.Spec.same t r c then Cert.Spec.e x r c else 0 := by
  rw [val_main_v34_apply, v26_at, v31_at, val_main_call2_v1_apply, val_main_call2_v0_apply, val_main_cst_6_apply, select_ite]
  show (if _ then _ else Ideal.ofBits .f32 0x00000000#32) = _
  rw [Ideal.ofBits_zero_f32]

/-- The first masked row sum: the row's posLogit. -/
theorem v33_at (r : Fin 8192) : val_main_v33 (F := Ideal) x t (ix1 r) = Cert.Spec.posLogit x t r := by
  rw [val_main_v33_apply, val_main_cst_5_apply]
  show Ideal.ofBits .f32 0x00000000#32 + _ = _
  rw [Ideal.ofBits_zero_f32, zero_add]
  unfold Cert.Spec.posLogit
  refine Finset.sum_congr rfl fun k _ => ?_
  have e : idx_main_v33 (ix1 r) k = ix2 r k := funext fun a => Fin.ext (by match a with | ⟨0, _⟩ => rfl | ⟨1, _⟩ => rfl)
  rw [e, v32_at]

/-- The second masked row sum times one half: the row's negLogit. -/
theorem v37_at (r : Fin 8192) : val_main_v37 (F := Ideal) x t (ix1 r) = Cert.Spec.negLogit x t r := by
  rw [val_main_v37_apply, val_main_v36_apply, val_main_cst_8_apply, val_main_v35_apply, val_main_cst_7_apply]
  show (Ideal.ofBits .f32 0x00000000#32 + _) * Cert.Spec.half = _
  rw [Ideal.ofBits_zero_f32, zero_add]
  unfold Cert.Spec.negLogit
  refine congrArg (· * Cert.Spec.half) (Finset.sum_congr rfl fun k _ => ?_)
  have e : idx_main_v35 (ix1 r) k = ix2 r k := funext fun a => Fin.ext (by match a with | ⟨0, _⟩ => rfl | ⟨1, _⟩ => rfl)
  rw [e, v34_at]

/-- The row's term of the loss. -/
theorem v41_at (r : Fin 8192) :
    val_main_v41 (F := Ideal) x t (ix1 r)
      = -(Ideal.log (Ideal.div (Cert.Spec.posLogit x t r) (Cert.Spec.posLogit x t r + Cert.Spec.negLogit x t r))) := by
  rw [val_main_v41_apply, val_main_v40_apply, val_main_v39_apply, val_main_v38_apply, v33_at, v37_at]
  rfl

/-- The first result buffer is the loss at its one index. -/
theorem v43_eq : val_main_v43 (F := Ideal) x t = fun _ => Cert.Spec.loss x t := by
  funext i
  rw [val_main_v43_apply, val_main_v42_apply, val_main_cst_9_apply, val_main_cst_10_apply]
  show Ideal.div (Ideal.ofBits .f32 0x00000000#32 + _) Cert.Spec.nF = _
  rw [Ideal.ofBits_zero_f32, zero_add, sum_idx1]
  unfold Cert.Spec.loss
  exact congrArg (Ideal.div · Cert.Spec.nF) (Finset.sum_congr rfl fun r _ => v41_at x t r)

end Cert.RefValue

end
-- ==== Proof.RefValueCount.lean ====
/-
  Counting with 32-bit words. A wrap-around sum of 32-bit words is the word of the sum of the numbers they encode; when
  each word is a one-bit word widened to 32 bits and there are fewer than 2^31 of them, the sum read as a signed integer
  is the number of bits that are set. Beside it: the cast of a finite sum of naturals into the extended reals is the
  sum of the casts, and the number of pairs (r, c) with a property is the sum over r of the number of such c.
-/
import Idealize.ShloMosaic.PureOps.Ideal
import Idealize.ShloMosaic.PureOps.Reduce
import Idealize.ShloMosaic.Lib.ValueIdx
import Idealize.ShloMosaic.Lib.WordArith

noncomputable section

open scoped BigOperators

namespace Cert.RefValue

open Idealize.ShloMosaic Idealize.ShloMosaic.ValueIdx

/-- The wrap-around sum of 32-bit words is the word of the sum of the numbers they encode. -/
theorem fold_addi_eq_ofNat_sum {ι : Type} [DecidableEq ι] (s : Finset ι) (f : ι → BitVec 32) :
    s.fold IntOp.addi 0#32 f = BitVec.ofNat 32 (∑ i ∈ s, (f i).toNat) := by
  induction s using Finset.induction_on with
  | empty => rfl
  | insert a s ha ih =>
    rw [Finset.fold_insert ha, Finset.sum_insert ha, ih]
    show f a + BitVec.ofNat 32 _ = _
    apply BitVec.eq_of_toNat_eq
    simp only [BitVec.toNat_add, BitVec.toNat_ofNat]
    omega

/-- A one-bit word widened to 32 bits encodes one if the bit is set and zero if not. -/
theorem toNat_setWidth_bit (b : BitVec 1) : (b.setWidth 32).toNat = if b = 1#1 then 1 else 0 := by
  rcases BitVec.eq_zero_or_eq_one b with h | h <;> subst h <;> rfl

/-- The wrap-around sum of fewer than 2^31 widened bits, read as a signed integer, is the number of set bits. -/
theorem toInt_fold_addi_bits {ι : Type} [DecidableEq ι] (s : Finset ι) (b : ι → BitVec 1) (hs : s.card < 2 ^ 31) :
    (s.fold IntOp.addi 0#32 fun i => (b i).setWidth 32).toInt = ((s.filter fun i => b i = 1#1).card : ℤ) := by
  rw [fold_addi_eq_ofNat_sum]
  have h1 : ∑ i ∈ s, ((b i).setWidth 32).toNat = (s.filter fun i => b i = 1#1).card := by
    rw [Finset.card_filter]
    exact Finset.sum_congr rfl fun i _ => toNat_setWidth_bit (b i)
  rw [h1]
  have hle : (s.filter fun i => b i = 1#1).card ≤ s.card := Finset.card_filter_le _ _
  exact WordArith.toInt_ofNat_small _ (by omega)

/-- The cast of a finite sum of naturals into the extended reals is the sum of the casts. -/
theorem coe_sum_nat {ι : Type} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

/-- The number of index pairs (r, c) with a property is the sum over r of the number of c with it. -/
theorem card_filter_idx2 {n0 n1 : Nat} (q : (⟨2, ![n0, n1]⟩ : Shape).Idx → Prop) [DecidablePred q] :
    (Finset.univ.filter q).card = ∑ r : Fin n0, (Finset.univ.filter fun c : Fin n1 => q (ix2 r c)).card := by
  rw [Finset.card_filter, sum_idx2]
  exact Finset.sum_congr rfl fun r _ => (Finset.card_filter _ _).symm

/-- A rank-2 index set has as many indices as the product of its extents. -/
theorem card_idx2 {n0 n1 : Nat} : (Finset.univ : Finset (⟨2, ![n0, n1]⟩ : Shape).Idx).card = n0 * n1 := by
  rw [Finset.card_univ, Fintype.card_congr idxEquiv2, Fintype.card_prod, Fintype.card_fin, Fintype.card_fin]

end Cert.RefValue

end
-- ==== Proof.RefValueDist.lean ====
/-
  The reference's two mean distances. The distance array masked to the other rows of the same class (to the rows of
  another class), summed over both axes, is the sum over rows of posDsum (negDsum); the mask itself, widened to 32-bit
  words and summed with wrap-around, reads as a signed integer as the number of set bits — there are 2^26 of them, fewer
  than 2^31 — which is the sum over rows of the per-row counts, and its conversion to float is that number's cast.
-/
import proofs.«145610_j47124381171853_2_alg».proof.Proof.RefValueElem
import proofs.«145610_j47124381171853_2_alg».proof.Proof.RefValueCount

noncomputable section

open scoped BigOperators

namespace Cert.RefValue

open Cert.ReferenceIdeal Cert.ReferenceIdeal.Gen Cert.ReferenceIdeal.Read Idealize.ShloMosaic Idealize.ShloMosaic.ValueIdx

variable (x : Cert.Spec.Xs) (t : Cert.Spec.Ts)

/-- The distances masked to the other rows of the same class, at (r, c). -/
theorem v44_at (r c : Fin 8192) :
    val_main_v44 (F := Ideal) x t (ix2 r c) = if Cert.Spec.same t r c ∧ r ≠ c then Cert.Spec.dist x r c else 0 := by
  rw [val_main_v44_apply, v25_at, v13_at, val_main_call3_v1_apply, val_main_call3_v0_apply, val_main_cst_11_apply, select_ite]
  show (if _ then _ else Ideal.ofBits .f32 0x00000000#32) = _
  rw [Ideal.ofBits_zero_f32]

/-- The distances masked to the rows of another class, at (r, c). -/
theorem v50_at (r c : Fin 8192) :
    val_main_v50 (F := Ideal) x t (ix2 r c) = if ¬ Cert.Spec.same t r c then Cert.Spec.dist x r c else 0 := by
  rw [val_main_v50_apply, v26_at, v13_at, val_main_call4_v1_apply, val_main_call4_v0_apply, val_main_cst_14_apply, select_ite]
  show (if _ then _ else Ideal.ofBits .f32 0x00000000#32) = _
  rw [Ideal.ofBits_zero_f32]

/-- The first masked total: the sum over rows of posDsum. -/
theorem v45_at (i : S_.Idx) : val_main_v45 (F := Ideal) x t i = ∑ r : Fin 8192, Cert.Spec.posDsum x t r := by
  rw [val_main_v45_apply, val_main_cst_12_apply]
  show Ideal.ofBits .f32 0x00000000#32 + _ = _
  rw [Ideal.ofBits_zero_f32, zero_add, sum_idx2]
  refine Finset.sum_congr rfl fun r _ => ?_
  unfold Cert.Spec.posDsum
  exact Finset.sum_congr rfl fun c _ => v44_at x t r c

/-- The second masked total: the sum over rows of negDsum. -/
theorem v51_at (i : S_.Idx) : val_main_v51 (F := Ideal) x t i = ∑ r : Fin 8192, Cert.Spec.negDsum x t r := by
  rw [val_main_v51_apply, val_main_cst_15_apply]
  show Ideal.ofBits .f32 0x00000000#32 + _ = _
  rw [Ideal.ofBits_zero_f32, zero_add, sum_idx2]
  refine Finset.sum_congr rfl fun r _ => ?_
  unfold Cert.Spec.negDsum
  exact Finset.sum_congr rfl fun c _ => v50_at x t r c

/-- Every index of the 8192×8192 array drops to the one index of the rank-0 result. -/
theorem filter_drop_eq_univ (i : S_.Idx) :
    (Finset.univ.filter fun j : S8192x8192.Idx => reducesTo_S8192x8192_S_d0_1.drop j = i) = Finset.univ :=
  Finset.filter_true_of_mem fun j _ => funext fun b => b.elim0

/-- The integer sum of the first mask, read signed: the total of the per-row counts. -/
theorem v47_toInt (i : S_.Idx) :
    (val_main_v47 (F := Ideal) t i).toInt
      = ((∑ r : Fin 8192, (Finset.univ.filter fun c : Fin 8192 => Cert.Spec.same t r c ∧ r ≠ c).card : ℕ) : ℤ) := by
  unfold val_main_v47
  rw [Host.reduce_eq_fold, filter_drop_eq_univ]
  show (Finset.univ.fold IntOp.addi 0#32 fun j => (val_main_v25 (F := Ideal) t j).setWidth 32).toInt = _
  rw [toInt_fold_addi_bits _ _ (by rw [card_idx2]; norm_num), card_filter_idx2]
  refine congrArg Nat.cast (Finset.sum_congr rfl fun r _ => ?_)
  refine congrArg Finset.card (Finset.filter_congr fun c _ => ?_)
  rw [v25_at]
  by_cases h : Cert.Spec.same t r c ∧ r ≠ c
  · rw [if_pos h]; exact iff_of_true rfl h
  · rw [if_neg h]; exact iff_of_false (by decide) h

/-- The integer sum of the second mask, read signed: the total of the per-row counts. -/
theorem v53_toInt (i : S_.Idx) :
    (val_main_v53 (F := Ideal) t i).toInt
      = ((∑ r : Fin 8192, (Finset.univ.filter fun c : Fin 8192 => ¬ Cert.Spec.same t r c).card : ℕ) : ℤ) := by
  unfold val_main_v53
  rw [Host.reduce_eq_fold, filter_drop_eq_univ]
  show (Finset.univ.fold IntOp.addi 0#32 fun j => (val_main_v26 (F := Ideal) t j).setWidth 32).toInt = _
  rw [toInt_fold_addi_bits _ _ (by rw [card_idx2]; norm_num), card_filter_idx2]
  refine congrArg Nat.cast (Finset.sum_congr rfl fun r _ => ?_)
  refine congrArg Finset.card (Finset.filter_congr fun c _ => ?_)
  rw [v26_at]
  by_cases h : ¬ Cert.Spec.same t r c
  · rw [if_pos h]; exact iff_of_true rfl h
  · rw [if_neg h]; exact iff_of_false (by decide) h

/-- The first count as a float: the sum over rows of posCnt. -/
theorem v48_at (i : S_.Idx) : val_main_v48 (F := Ideal) t i = ∑ r : Fin 8192, Cert.Spec.posCnt t r := by
  rw [val_main_v48_apply]
  show (((val_main_v47 (F := Ideal) t i).toInt : ℝ) : EReal) = _
  rw [v47_toInt, Int.cast_natCast, coe_sum_nat]
  rfl

/-- The second count as a float: the sum over rows of negCnt. -/
theorem v54_at (i : S_.Idx) : val_main_v54 (F := Ideal) t i = ∑ r : Fin 8192, Cert.Spec.negCnt t r := by
  rw [val_main_v54_apply]
  show (((val_main_v53 (F := Ideal) t i).toInt : ℝ) : EReal) = _
  rw [v53_toInt, Int.cast_natCast, coe_sum_nat]
  rfl

/-- The third result buffer is the mean distance to the other rows of the same class, at its one index. -/
theorem v49_eq : val_main_v49 (F := Ideal) x t = fun _ => Cert.Spec.posD x t := by
  funext i
  rw [val_main_v49_apply, v45_at, v48_at]
  rfl

/-- The fourth result buffer is the mean distance to the rows of another class, at its one index. -/
theorem v55_eq : val_main_v55 (F := Ideal) x t = fun _ => Cert.Spec.negD x t := by
  funext i
  rw [val_main_v55_apply, v51_at, v54_at]
  rfl

end Cert.RefValue

end
-- ==== Proof.RefValue.lean ====
/-
  The reference program's four results as functions of its two arguments. Each result buffer has the rank-0 shape; at
  its one index it holds, in order: the loss, the constant one, the mean distance to the other rows of the same class,
  and the mean distance to the rows of another class. Stated for each result operation's value, for the named composed
  term of the first result, and for the composed terms of the other three results (each is its operation's value by
  definition).
-/
import proofs.«145610_j47124381171853_2_alg».proof.Proof.RefValueLoss
import proofs.«145610_j47124381171853_2_alg».proof.Proof.RefValueDist

noncomputable section

open scoped BigOperators

namespace Cert.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The second result buffer is the constant one. -/
theorem cst17_eq : val_main_cst_17 (F := Ideal) = fun _ => Cert.Spec.prec := rfl

/-- The same for the term the run theorem states for the second result. -/
theorem res_cst17_eq : constant (F := Ideal) S_ .f32 0x3F800000#32 = fun _ => Cert.Spec.prec := rfl

/-- The first result, as the run theorem names it, is the loss of the two argument buffers. -/
theorem res_out0_eq (m : (ℓ : Loc nD τ sig) → Buf (Elt Ideal) ℓ) (c : Dev nD) :
    Cert.ReferenceIdeal.Value.res_main_v43 m c
      = fun _ => Cert.Spec.loss (m ((c.tc : Thread nD τ).loc main_arg0)) (m ((c.tc : Thread nD τ).loc main_arg1)) :=
  (val_main_v43_eq m c).trans (v43_eq _ _)

set_option maxRecDepth 8192 in
/-- The third result, as the run theorem states it, is the mean distance to the other rows of the same class. -/
theorem res_v49_eq (x0 : FVec Ideal S8192x128 .f32) (x1 : IVec S8192 32) :
    (Host.divf (Host.reduceAdd (select (andi (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1)))) (noti (cmpi .eq (addi (iotaInDim S8192x8192 32 0) (broadcastInDim S8192x8192 ![] bcast_S_S8192x8192 (constantI S_ 32 0#32))) (iotaInDim S8192x8192 32 1)))) (Host.sqrt (maximumf (broadcastInDim S8192x8192 ![] bcast_S_S8192x8192 (id (constant S_ .f32 0x2B8CBCCC#32))) (subf (addf (broadcastInDim S8192x8192 ![0, 1] bcast_S8192x1_S8192x8192_0_1 (broadcastInDim S8192x1 ![0] bcast_S8192_S8192x1_0 (Host.reduceAdd (mulf (x0) (x0)) (constant S_ .f32 0x00000000#32) reducesTo_S8192x128_S8192_d1 h_S_))) (broadcastInDim S8192x8192 ![0, 1] bcast_S1x8192_S8192x8192_0_1 (broadcastInDim S1x8192 ![1] bcast_S8192_S1x8192_1 (Host.reduceAdd (mulf (x0) (x0)) (constant S_ .f32 0x00000000#32) reducesTo_S8192x128_S8192_d1 h_S_)))) (mulf (broadcastInDim S8192x8192 ![] bcast_S_S8192x8192 (constant S_ .f32 0x40000000#32)) (Host.dotGeneral dot_S8192x128_S128x8192_S8192x8192_1_0_0_1_n_n none (x0) (transpose S128x8192 [1, 0] (x0) transposes_S8192x128_S128x8192_1_0)))))) (broadcastInDim S8192x8192 ![] bcast_S_S8192x8192 (id (constant S_ .f32 0x00000000#32)))) (constant S_ .f32 0x00000000#32) reducesTo_S8192x8192_S_d0_1 h_S_) (sitofp .f32 (Host.reduce IntOp.addi (extui 32 (andi (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1)))) (noti (cmpi .eq (addi (iotaInDim S8192x8192 32 0) (broadcastInDim S8192x8192 ![] bcast_S_S8192x8192 (constantI S_ 32 0#32))) (iotaInDim S8192x8192 32 1)))) natLt_1_32) (constantI S_ 32 0#32) reducesTo_S8192x8192_S_d0_1 h_S_)) : FVec Ideal S_ .f32)
      = fun _ => Cert.Spec.posD x0 x1 :=
  v49_eq x0 x1

set_option maxRecDepth 8192 in
/-- The fourth result, as the run theorem states it, is the mean distance to the rows of another class. -/
theorem res_v55_eq (x0 : FVec Ideal S8192x128 .f32) (x1 : IVec S8192 32) :
    (Host.divf (Host.reduceAdd (select (noti (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1))))) (Host.sqrt (maximumf (broadcastInDim S8192x8192 ![] bcast_S_S8192x8192 (id (constant S_ .f32 0x2B8CBCCC#32))) (subf (addf (broadcastInDim S8192x8192 ![0, 1] bcast_S8192x1_S8192x8192_0_1 (broadcastInDim S8192x1 ![0] bcast_S8192_S8192x1_0 (Host.reduceAdd (mulf (x0) (x0)) (constant S_ .f32 0x00000000#32) reducesTo_S8192x128_S8192_d1 h_S_))) (broadcastInDim S8192x8192 ![0, 1] bcast_S1x8192_S8192x8192_0_1 (broadcastInDim S1x8192 ![1] bcast_S8192_S1x8192_1 (Host.reduceAdd (mulf (x0) (x0)) (constant S_ .f32 0x00000000#32) reducesTo_S8192x128_S8192_d1 h_S_)))) (mulf (broadcastInDim S8192x8192 ![] bcast_S_S8192x8192 (constant S_ .f32 0x40000000#32)) (Host.dotGeneral dot_S8192x128_S128x8192_S8192x8192_1_0_0_1_n_n none (x0) (transpose S128x8192 [1, 0] (x0) transposes_S8192x128_S128x8192_1_0)))))) (broadcastInDim S8192x8192 ![] bcast_S_S8192x8192 (id (constant S_ .f32 0x00000000#32)))) (constant S_ .f32 0x00000000#32) reducesTo_S8192x8192_S_d0_1 h_S_) (sitofp .f32 (Host.reduce IntOp.addi (extui 32 (noti (cmpi .eq (broadcastInDim S8192x8192 ![0, 1] bcast_S8192x1_S8192x8192_0_1 (broadcastInDim S8192x1 ![0] bcast_S8192_S8192x1_0 (x1))) (broadcastInDim S8192x8192 ![0, 1] bcast_S1x8192_S8192x8192_0_1 (broadcastInDim S1x8192 ![1] bcast_S8192_S1x8192_1 (x1))))) natLt_1_32) (constantI S_ 32 0#32) reducesTo_S8192x8192_S_d0_1 h_S_)) : FVec Ideal S_ .f32)
      = fun _ => Cert.Spec.negD x0 x1 :=
  v55_eq x0 x1

end Cert.RefValue

end
-- ==== Proof.KernelRun.lean ====
import proofs.«145610_j47124381171853_2_alg».proof.Defs
import proofs.«145610_j47124381171853_2_alg».proof.Proof.FrameRun
import proofs.«145610_j47124381171853_2_alg».proof.Proof.KernelRunCols
import proofs.«145610_j47124381171853_2_alg».proof.Proof.KernelValueFin
import proofs.«145610_j47124381171853_2_alg».proof.Proof.RefValue

set_option maxRecDepth 16384

noncomputable section

namespace Cert.KernelRun

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Cert.KernelValue (acc xOf tOf tile_lt row_lt)

/-! The kernel program's run with its four results named: under the precondition every weakly fair execution ends with
    the loss, the constant one and the two mean distances of the two arguments in the result buffers and the arguments
    unchanged. Then the reference program's run ends with the same four values, which is the certificate's value claim. -/

variable (m : (ℓ : Loc nD τ sig) → Buf (Elt Ideal) ℓ)

/-- The run of the kernel program, its four results named. -/
theorem kernel_run (ρ : Dev nD → PrngReg) (hpre : Cert.Pre_KernelIdeal m) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v14) = (fun _ => Cert.Spec.loss (xOf m c) (tOf m c))
        ∧ r.2.mem ((c.tc : Thread nD τ).loc main_cst_6) = (fun _ => Cert.Spec.prec)
        ∧ r.2.mem ((c.tc : Thread nD τ).loc main_v17) = (fun _ => Cert.Spec.posD (xOf m c) (tOf m c))
        ∧ r.2.mem ((c.tc : Thread nD τ).loc main_v20) = (fun _ => Cert.Spec.negD (xOf m c) (tOf m c))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨((h c).2 main_v14 (Pipeline.mem_restRefs_of main_v14 rfl (by decide))).trans
        (Cert.KernelValue.value_v14 m c (Uexit m (dats m) c) (Cert.KernelValue.hx_of_pre m hpre c) (col0 m c) (col1 m c)),
      ((h c).2 main_cst_6 (Pipeline.mem_restRefs_of main_cst_6 rfl (by decide))).trans
        (Cert.KernelValue.value_cst6 (Uexit m (dats m) c)),
      ((h c).2 main_v17 (Pipeline.mem_restRefs_of main_v17 rfl (by decide))).trans
        (Cert.KernelValue.value_v17 m c (Uexit m (dats m) c) (Cert.KernelValue.hx_of_pre m hpre c) (col2 m c) (col4 m c)),
      ((h c).2 main_v20 (Pipeline.mem_restRefs_of main_v20 rfl (by decide))).trans
        (Cert.KernelValue.value_v20 m c (Uexit m (dats m) c) (Cert.KernelValue.hx_of_pre m hpre c) (col3 m c) (col5 m c)),
      ((h c).1 0).trans (((dats m 0 c).arrAt_in 0 rfl _).trans ((A_eq m c 0).trans (V_main_arg0 m c))),
      ((h c).2 main_arg1 arg1_rest).trans (afterTail_arg1 m c)⟩) (run_main m ρ)

/-- The reference program runs to the end, faults nowhere, and its two argument arrays end unchanged. -/
theorem frame_reference : Cert.frame_ReferenceIdeal := by
  intro m' ρ' _
  exact (θ_run Cert.ReferenceIdeal.defs _ _).mono (fun _ h c => (h c).2.2.2.2)
    (Cert.ReferenceIdeal.Value.run (F := Ideal) m' ρ')

/-- From memories agreeing on the arguments both programs run and end with the same four results, the arguments
    unchanged. -/
theorem algebraic : Cert.algebraic_KernelIdeal_ReferenceIdeal := by
  intro m ρ m' ρ' hpre hagree
  refine ⟨fun c => fun _ => Cert.Spec.loss (xOf m c) (tOf m c), fun _ => fun _ => Cert.Spec.prec,
    fun c => fun _ => Cert.Spec.posD (xOf m c) (tOf m c), fun c => fun _ => Cert.Spec.negD (xOf m c) (tOf m c),
    kernel_run m ρ hpre, ?_⟩
  exact (θ_run Cert.ReferenceIdeal.defs _ _).mono (fun _ h c =>
    ⟨(h c).1.trans ((Cert.RefValue.res_out0_eq m' c).trans (by rw [(hagree c).1, (hagree c).2]; rfl)),
      (h c).2.1.trans Cert.RefValue.res_cst17_eq,
      (h c).2.2.1.trans ((Cert.RefValue.res_v49_eq _ _).trans (by rw [(hagree c).1, (hagree c).2]; rfl)),
      (h c).2.2.2.1.trans ((Cert.RefValue.res_v55_eq _ _).trans (by rw [(hagree c).1, (hagree c).2]; rfl)),
      (h c).2.2.2.2.1, (h c).2.2.2.2.2⟩)
    (Cert.ReferenceIdeal.Value.run (F := Ideal) m' ρ')

end Cert.KernelRun

end
-- ==== Proof.lean ====
/-
  The certificate of the row-reduction kernel against its reference.

  Both programs take 8192 feature rows of 128 entries and 8192 class labels and return four numbers: the mean over rows
  of −log(P / (P + Q)), where P sums the weights e = exp(50·(1 − dist)) of the other rows of the row's class and Q half
  the weights of the rows of another class, dist the clipped Euclidean distance √(max(1e-12, |x_r|² + |x_c|² − 2 x_r·x_c));
  the constant one; and the mean distance to the rows of the row's own class and to the rows of another class.
  The reference forms the full 8192 × 8192 arrays and masks them. The kernel walks an 8 × 16 grid of 1024 × 512 tiles,
  keeps six lane-aligned accumulators per row tile (each tile folded to 1024 × 4 × 128 and summed over the middle axis),
  and obtains the masked sums by complement: the sum over the rows of another class is the diagonal-free whole-row sum
  minus the same-class sum, the counts are the same-class count minus one and 8192 minus it. At the extended reals
  the reindexing of a sum needs nothing; the complements need every term finite, which the precondition (every
  input finite) gives: squared norms, inner products, distances and weights are then real numbers.
  The frames of the two kernel programs come from one proof written for any float instance: the body's run in each
  of the three cases of its two conditions, the accumulators carried from point to point, and a launch in which the
  two windows that read the feature array each hold half of its share.
-/
import proofs.«145610_j47124381171853_2_alg».proof.Defs
import proofs.«145610_j47124381171853_2_alg».proof.Proof.Gen.Kernel
import proofs.«145610_j47124381171853_2_alg».proof.Proof.Gen.KernelIdeal
import proofs.«145610_j47124381171853_2_alg».proof.Proof.Gen.ReferenceIdeal
import proofs.«145610_j47124381171853_2_alg».proof.Proof.Gen.ReferenceIdeal.Read
import proofs.«145610_j47124381171853_2_alg».proof.Proof.Gen.Pre_finite_inputs
import proofs.«145610_j47124381171853_2_alg».proof.Proof.FrameRun
import proofs.«145610_j47124381171853_2_alg».proof.Proof.BitsFrameRun
import proofs.«145610_j47124381171853_2_alg».proof.Proof.KernelRun
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_p : Cert.frame_Kernel := fun m ρ _ => Cert.Kernel.Hand.frame m ρ
/-- So does its idealization. -/
theorem frame_pi : Cert.frame_KernelIdeal := fun m ρ _ => Cert.KernelIdeal.Hand.frame m ρ

theorem claim : Cert.Claim := ⟨Cert.Kernel.Gen.facts, Cert.KernelIdeal.Gen.facts, Cert.ReferenceIdeal.Gen.facts, Cert.Pre_finite_inputs.Gen.facts,
  frame_p, frame_pi, Cert.KernelRun.frame_reference, trivial, Cert.KernelRun.algebraic⟩

end Cert.Proof

end
